-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v51_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v51_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2048 : Shape := ⟨2, ![4096, 2048]⟩
abbrev S2048x1024 : Shape := ⟨2, ![2048, 1024]⟩
abbrev S2048 : Shape := ⟨1, ![2048]⟩
abbrev S6144x2048 : Shape := ⟨2, ![6144, 2048]⟩
abbrev S6144 : Shape := ⟨1, ![6144]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S6144 .f32) (main_arg8 : FVec F S4096x2048 .f32) (main_arg9 : FVec F S4096 .f32) (main_v33 : IVec S_ 1) : IVec S_ 1 :=
  let main_v34 : FVec F S6144 .f32 := Host.absf main_arg7
  let main_cst_12 : FVec F S_ .f32 := constant S_ .f32 0x7F800000#32
  let main_v35 : FVec F S6144 .f32 := broadcastInDim S6144 ![] bcast_S_S6144 main_cst_12
  let main_v36 : IVec S6144 1 := cmpf .olt main_v34 main_v35
  let main_c_13 : IVec S_ 1 := constantI S_ 1 1#1
  let main_v37 : IVec S_ 1 := (fun x v => Host.reduce IntOp.andi x v reducesTo_S6144_S_d0 h_S_) main_v36 main_c_13
  let main_v38 : IVec S_ 1 := andi main_v33 main_v37
  let main_v39 : FVec F S4096x2048 .f32 := Host.absf main_arg8
  let main_cst_14 : FVec F S_ .f32 := constant S_ .f32 0x7F800000#32
  let main_v40 : FVec F S4096x2048 .f32 := broadcastInDim S4096x2048 ![] bcast_S_S4096x2048 main_cst_14
  let main_v41 : IVec S4096x2048 1 := cmpf .olt main_v39 main_v40
  let main_c_15 : IVec S_ 1 := constantI S_ 1 1#1
  let main_v42 : IVec S_ 1 := (fun x v => Host.reduce IntOp.andi x v reducesTo_S4096x2048_S_d0_1 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  main_v48

def fn_part1 {F : FTy → Type} [FloatOps F] (main_arg4 : FVec F S6144x2048 .f32) (main_arg5 : FVec F S6144x2048 .f32) (main_arg6 : FVec F S6144 .f32) (main_arg7 : FVec F S6144 .f32) (main_arg8 : FVec F S4096x2048 .f32) (main_arg9 : FVec F S4096 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S6144x2048 .f32 := Host.absf main_arg4
  let main_cst_6 : FVec F S_ .f32 := constant S_ .f32 0x7F800000#32
  let main_v20 : FVec F S6144x2048 .f32 := broadcastInDim S6144x2048 ![] bcast_S_S6144x2048 main_cst_6
  let main_v21 : IVec S6144x2048 1 := cmpf .olt main_v19 main_v20
  let main_c_7 : IVec S_ 1 := constantI S_ 1 1#1
  let main_v22 : IVec S_ 1 := (fun x v => Host.reduce IntOp.andi x v reducesTo_S6144x2048_S_d0_1 h_S_) main_v21 main_c_7
  let main_v23 : IVec S_ 1 := andi main_v18 main_v22
  let main_v24 : FVec F S6144x2048 .f32 := Host.absf main_arg5
  let main_cst_8 : FVec F S_ .f32 := constant S_ .f32 0x7F800000#32
  let main_v25 : FVec F S6144x2048 .f32 := broadcastInDim S6144x2048 ![] bcast_S_S6144x2048 main_cst_8
  let main_v26 : IVec S6144x2048 1 := cmpf .olt main_v24 main_v25
  let main_c_9 : IVec S_ 1 := constantI S_ 1 1#1
  let main_v27 : IVec S_ 1 := (fun x v => Host.reduce IntOp.andi x v reducesTo_S6144x2048_S_d0_1 h_S_) main_v26 main_c_9
  let main_v28 : IVec S_ 1 := andi main_v23 main_v27
  let main_v29 : FVec F S6144 .f32 := Host.absf main_arg6
  let main_cst_10 : FVec F S_ .f32 := constant S_ .f32 0x7F800000#32
  let main_v30 : FVec F S6144 .f32 := broadcastInDim S6144 ![] bcast_S_S6144 main_cst_10
  let main_v31 : IVec S6144 1 := cmpf .olt main_v29 main_v30
  let main_c_11 : IVec S_ 1 := constantI S_ 1 1#1
  let main_v32 : IVec S_ 1 := (fun x v => Host.reduce IntOp.andi x v reducesTo_S6144_S_d0 h_S_) main_v31 main_c_11
  let main_v33 : IVec S_ 1 := andi main_v28 main_v32
  fn_part2 (F := F) main_arg7 main_arg8 main_arg9 main_v33

def fn {F : FTy → Type} [FloatOps F] (main_arg0 : FVec F S4096x1024 .f32) (main_arg1 : FVec F S4096x2048 .f32) (main_arg2 : FVec F S2048x1024 .f32) (main_arg3 : FVec F S2048 .f32) (main_arg4 : FVec F S6144x2048 .f32) (main_arg5 : FVec F S6144x2048 .f32) (main_arg6 : FVec F S6144 .f32) (main_arg7 : FVec F S6144 .f32) (main_arg8 : FVec F S4096x2048 .f32) (main_arg9 : FVec F S4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_v13 main_v16
-- ==== Kernel.lean ====
abbrev S4096x1024 : Shape := ⟨2, ![4096, 1024]⟩
abbrev S4096x2048 : Shape := ⟨2, ![4096, 2048]⟩
abbrev S2048x1024 : Shape := ⟨2, ![2048, 1024]⟩
abbrev S2048 : Shape := ⟨1, ![2048]⟩
abbrev S6144x2048 : Shape := ⟨2, ![6144, 2048]⟩
abbrev S6144 : Shape := ⟨1, ![6144]⟩
abbrev S4096 : Shape := ⟨1, ![4096]⟩
abbrev S1x2048 : Shape := ⟨2, ![1, 2048]⟩
abbrev S2048x2048 : Shape := ⟨2, ![2048, 2048]⟩
abbrev S8x256x2048 : Shape := ⟨3, ![8, 256, 2048]⟩
abbrev S8x1x256x2048 : Shape := ⟨4, ![8, 1, 256, 2048]⟩
abbrev S8x3x256x2048 : Shape := ⟨4, ![8, 3, 256, 2048]⟩
abbrev S8x256 : Shape := ⟨2, ![8, 256]⟩
abbrev S8x1x256 : Shape := ⟨3, ![8, 1, 256]⟩
abbrev S8x3x256 : Shape := ⟨3, ![8, 3, 256]⟩
abbrev S1x6144 : Shape := ⟨2, ![1, 6144]⟩
abbrev S1x4096 : Shape := ⟨2, ![1, 4096]⟩
abbrev S4096x4096 : Shape := ⟨2, ![4096, 4096]⟩
abbrev S128x1024 : Shape := ⟨2, ![128, 1024]⟩
abbrev S128x2048 : Shape := ⟨2, ![128, 2048]⟩
abbrev S768x2048 : Shape := ⟨2, ![768, 2048]⟩
abbrev S1x768 : Shape := ⟨2, ![1, 768]⟩
abbrev S4096x256 : Shape := ⟨2, ![4096, 256]⟩
abbrev S128x256 : Shape := ⟨2, ![128, 256]⟩
abbrev S128x4096 : Shape := ⟨2, ![128, 4096]⟩
abbrev S128x768 : Shape := ⟨2, ![128, 768]⟩
abbrev S4096x127 : Shape := ⟨2, ![4096, 127]⟩
abbrev S_ : Shape := ⟨0, ![]⟩
abbrev S4096x64 : Shape := ⟨2, ![4096, 64]⟩
abbrev S4096x64x64 : Shape := ⟨3, ![4096, 64, 64]⟩
abbrev S4096x1 : Shape := ⟨2, ![4096, 1]⟩
abbrev S4096x63 : Shape := ⟨2, ![4096, 63]⟩
abbrev S4096x1x64 : Shape := ⟨3, ![4096, 1, 64]⟩
abbrev S4096x2x64 : Shape := ⟨3, ![4096, 2, 64]⟩
abbrev S8192x64 : Shape := ⟨2, ![8192, 64]⟩

abbrev nBuf : Space → Nat
  | .hbm => 77
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S2048x1024, .f32⟩
  | .hbm, ⟨3, _⟩ => ⟨S2048, .f32⟩
  | .hbm, ⟨4, _⟩ => ⟨S6144x2048, .f32⟩
  | .hbm, ⟨5, _⟩ => ⟨S6144x2048, .f32⟩
  | .hbm, ⟨6, _⟩ => ⟨S6144, .f32⟩
  | .hbm, ⟨7, _⟩ => ⟨S6144, .f32⟩
  | .hbm, ⟨8, _⟩ => ⟨S4096x2048, .f32⟩
  | .hbm, ⟨9, _⟩ => ⟨S4096, .f32⟩
  | .hbm, ⟨10, _⟩ => ⟨S4096x1024, .bf16⟩
  | .hbm, ⟨11, _⟩ => ⟨S2048x1024, .bf16⟩
  | .hbm, ⟨12, _⟩ => ⟨S1x2048, .f32⟩
  | .hbm, ⟨13, _⟩ => ⟨S6144x2048, .bf16⟩
  | .hbm, ⟨14, _⟩ => ⟨S6144x2048, .bf16⟩
  | .hbm, ⟨15, _⟩ => ⟨S2048x2048, .bf16⟩
  | .hbm, ⟨16, _⟩ => ⟨S2048x2048, .bf16⟩
  | .hbm, ⟨17, _⟩ => ⟨S2048x2048, .bf16⟩
  | .hbm, ⟨18, _⟩ => ⟨S8x256x2048, .bf16⟩
  | .hbm, ⟨19, _⟩ => ⟨S8x256x2048, .bf16⟩
  | .hbm, ⟨20, _⟩ => ⟨S8x256x2048, .bf16⟩
  | .hbm, ⟨21, _⟩ => ⟨S8x1x256x2048, .bf16⟩
  | .hbm, ⟨22, _⟩ => ⟨S8x1x256x2048, .bf16⟩
  | .hbm, ⟨23, _⟩ => ⟨S8x1x256x2048, .bf16⟩
  | .hbm, ⟨24, _⟩ => ⟨S8x3x256x2048, .bf16⟩
  | .hbm, ⟨25, _⟩ => ⟨S6144x2048, .bf16⟩
  | .hbm, ⟨26, _⟩ => ⟨S2048x2048, .bf16⟩
  | .hbm, ⟨27, _⟩ => ⟨S2048x2048, .bf16⟩
  | .hbm, ⟨28, _⟩ => ⟨S2048x2048, .bf16⟩
  | .hbm, ⟨29, _⟩ => ⟨S8x256x2048, .bf16⟩
  | .hbm, ⟨30, _⟩ => ⟨S8x256x2048, .bf16⟩
  | .hbm, ⟨31, _⟩ => ⟨S8x256x2048, .bf16⟩
  | .hbm, ⟨32, _⟩ => ⟨S8x1x256x2048, .bf16⟩
  | .hbm, ⟨33, _⟩ => ⟨S8x1x256x2048, .bf16⟩
  | .hbm, ⟨34, _⟩ => ⟨S8x1x256x2048, .bf16⟩
  | .hbm, ⟨35, _⟩ => ⟨S8x3x256x2048, .bf16⟩
  | .hbm, ⟨36, _⟩ => ⟨S6144x2048, .bf16⟩
  | .hbm, ⟨37, _⟩ => ⟨S2048, .f32⟩
  | .hbm, ⟨38, _⟩ => ⟨S2048, .f32⟩
  | .hbm, ⟨39, _⟩ => ⟨S2048, .f32⟩
  | .hbm, ⟨40, _⟩ => ⟨S8x256, .f32⟩
  | .hbm, ⟨41, _⟩ => ⟨S8x256, .f32⟩
  | .hbm, ⟨42, _⟩ => ⟨S8x256, .f32⟩
  | .hbm, ⟨43, _⟩ => ⟨S8x1x256, .f32⟩
  | .hbm, ⟨44, _⟩ => ⟨S8x1x256, .f32⟩
  | .hbm, ⟨45, _⟩ => ⟨S8x1x256, .f32⟩
  | .hbm, ⟨46, _⟩ => ⟨S8x3x256, .f32⟩
  | .hbm, ⟨47, _⟩ => ⟨S1x6144, .f32⟩
  | .hbm, ⟨48, _⟩ => ⟨S2048, .f32⟩
  | .hbm, ⟨49, _⟩ => ⟨S2048, .f32⟩
  | .hbm, ⟨50, _⟩ => ⟨S2048, .f32⟩
  | .hbm, ⟨51, _⟩ => ⟨S8x256, .f32⟩
  | .hbm, ⟨52, _⟩ => ⟨S8x256, .f32⟩
  | .hbm, ⟨53, _⟩ => ⟨S8x256, .f32⟩
  | .hbm, ⟨54, _⟩ => ⟨S8x1x256, .f32⟩
  | .hbm, ⟨55, _⟩ => ⟨S8x1x256, .f32⟩
  | .hbm, ⟨56, _⟩ => ⟨S8x1x256, .f32⟩
  | .hbm, ⟨57, _⟩ => ⟨S8x3x256, .f32⟩
  | .hbm, ⟨58, _⟩ => ⟨S1x6144, .f32⟩
  | .hbm, ⟨59, _⟩ => ⟨S4096x2048, .bf16⟩
  | .hbm, ⟨60, _⟩ => ⟨S1x4096, .f32⟩
  | .hbm, ⟨61, _⟩ => ⟨S4096x2048, .f32⟩
  | .hbm, ⟨62, _⟩ => ⟨S4096x4096, .f32⟩
  | .hbm, ⟨63, _⟩ => ⟨S4096x127, .f32⟩
  | .hbm, ⟨64, _⟩ => ⟨S_, .f32⟩
  | .hbm, ⟨65, _⟩ => ⟨S_, .f32⟩
  | .hbm, ⟨66, _⟩ => ⟨S4096x64, .f32⟩
  | .hbm, ⟨67, _⟩ => ⟨S4096x64x64, .f32⟩
  | .hbm, ⟨68, _⟩ => ⟨S_, .f32⟩
  | .hbm, ⟨69, _⟩ => ⟨S4096x64, .f32⟩
  | .hbm, ⟨70, _⟩ => ⟨S4096x1, .f32⟩
  | .hbm, ⟨71, _⟩ => ⟨S4096x63, .f32⟩
  | .hbm, ⟨72, _⟩ => ⟨S4096x64, .f32⟩
  | .hbm, ⟨73, _⟩ => ⟨S4096x1x64, .f32⟩
  | .hbm, ⟨74, _⟩ => ⟨S4096x1x64, .f32⟩
  | .hbm, ⟨75, _⟩ => ⟨S4096x2x64, .f32⟩
  | .hbm, ⟨76, _⟩ => ⟨S8192x64, .f32⟩
  | .local _ .vmem, ⟨0, _⟩ => ⟨S128x1024, .bf16⟩
  | .local _ .vmem, ⟨1, _⟩ => ⟨S128x1024, .bf16⟩
  | .local _ .vmem, ⟨2, _⟩ => ⟨S2048x1024, .bf16⟩
  | .local _ .vmem, ⟨3, _⟩ => ⟨S1x2048, .f32⟩
  | .local _ .vmem, ⟨4, _⟩ => ⟨S128x2048, .f32⟩
  | .local _ .vmem, ⟨5, _⟩ => ⟨S128x2048, .f32⟩
  | .local _ .vmem, ⟨6, _⟩ => ⟨S768x2048, .bf16⟩
  | .local _ .vmem, ⟨7, _⟩ => ⟨S768x2048, .bf16⟩
  | .local _ .vmem, ⟨8, _⟩ => ⟨S768x2048, .bf16⟩
  | .local _ .vmem, ⟨9, _⟩ => ⟨S768x2048, .bf16⟩
  | .local _ .vmem, ⟨10, _⟩ => ⟨S1x768, .f32⟩
  | .local _ .vmem, ⟨11, _⟩ => ⟨S1x768, .f32⟩
  | .local _ .vmem, ⟨12, _⟩ => ⟨S1x768, .f32⟩
  | .local _ .vmem, ⟨13, _⟩ => ⟨S1x768, .f32⟩
  | .local _ .vmem, ⟨14, _⟩ => ⟨S4096x256, .bf16⟩
  | .local _ .vmem, ⟨15, _⟩ => ⟨S4096x256, .bf16⟩
  | .local _ .vmem, ⟨16, _⟩ => ⟨S1x4096, .f32⟩
  | .local _ .vmem, ⟨17, _⟩ => ⟨S128x256, .f32⟩
  | .local _ .vmem, ⟨18, _⟩ => ⟨S128x256, .f32⟩
  | .local _ .vmem, ⟨19, _⟩ => ⟨S128x4096, .f32⟩
  | .local _ .vmem, ⟨20, _⟩ => ⟨S128x4096, .f32⟩
  | .local _ .vmem, ⟨21, _⟩ => ⟨S128x2048, .bf16⟩
  | .local _ .vmem, ⟨22, _⟩ => ⟨S128x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51_0 : Ref sig .tc := ⟨.hbm, 61, rfl⟩
abbrev main_v51_1 : Ref sig .tc := ⟨.hbm, 62, rfl⟩
abbrev main_v52 : Ref sig .tc := ⟨.hbm, 63, rfl⟩
abbrev main_cst : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_0 : Ref sig .tc := ⟨.hbm, 68, rfl⟩
abbrev main_v56 : Ref sig .tc := ⟨.hbm, 69, rfl⟩
abbrev main_call0_v0 : Ref sig .tc := ⟨.hbm, 70, rfl⟩
abbrev main_call0_v1 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![32, 8], ![false, false]⟩

def k0_mult1 (i : grid0.Coords) : BitVec 32 :=
  let arg1 : BitVec 32 := BitVec.ofNat 32 (i 1).val
  let c256_i32 : BitVec 32 := 256#32
  let v33 : BitVec 32 := Scalar.muli arg1 c256_i32
  v33
def k0_off1 (i : grid0.Coords) : Fin 2 → Nat :=
  let c0_13 : Index := 0#32
  let arg1 : BitVec 32 := BitVec.ofNat 32 (i 1).val
  let c256_i32 : BitVec 32 := 256#32
  let v33 : BitVec 32 := Scalar.muli arg1 c256_i32
  let v34 : BitVec 32 := v33
  let v35 : Index := Scalar.indexCast v34
  ![0, v35.toNat]
def k0_cond2 (i : grid0.Coords) : BitVec 1 :=
  let arg1 : BitVec 32 := BitVec.ofNat 32 (i 1).val
  let c7_i32 : BitVec 32 := 7#32
  let v52 : BitVec 1 := Scalar.cmpi .eq arg1 c7_i32
  let v53 : BitVec 32 := Scalar.extui v52
  let c0_i32_24 : BitVec 32 := 0#32
  let v54 : BitVec 1 := Scalar.cmpi .ne v53 c0_i32_24
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S768x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S768x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  bitsLt_bf16_f32 : FTy.bits .bf16 < FTy.bits .f32
  shapeCasts_S2048_S1x2048 : S2048.ShapeCasts S1x2048
  slices_S6144x2048_S2048x2048_0_0 : S6144x2048.Slices ![0, 0] S2048x2048
  slices_S6144x2048_S2048x2048_2048_0 : S6144x2048.Slices ![2048, 0] S2048x2048
  slices_S6144x2048_S2048x2048_4096_0 : S6144x2048.Slices ![4096, 0] S2048x2048
  shapeCasts_S2048x2048_S8x256x2048 : S2048x2048.ShapeCasts S8x256x2048
  bcast_S8x256x2048_S8x1x256x2048_0_2_3 : S8x256x2048.BroadcastsInDim S8x1x256x2048 (![0, 2, 3] : Fin 3 → Fin S8x1x256x2048.rank)
  concatenates_S8x1x256x2048_S8x1x256x2048_S8x1x256x2048_S8x3x256x2048_d1 : Shape.Concatenates [S8x1x256x2048, S8x1x256x2048, S8x1x256x2048] S8x3x256x2048 1
  shapeCasts_S8x3x256x2048_S6144x2048 : S8x3x256x2048.ShapeCasts S6144x2048
  slices_S6144_S2048_0 : S6144.Slices ![0] S2048
  slices_S6144_S2048_2048 : S6144.Slices ![2048] S2048
  slices_S6144_S2048_4096 : S6144.Slices ![4096] S2048
  shapeCasts_S2048_S8x256 : S2048.ShapeCasts S8x256
  bcast_S8x256_S8x1x256_0_2 : S8x256.BroadcastsInDim S8x1x256 (![0, 2] : Fin 2 → Fin S8x1x256.rank)
  concatenates_S8x1x256_S8x1x256_S8x1x256_S8x3x256_d1 : Shape.Concatenates [S8x1x256, S8x1x256, S8x1x256] S8x3x256 1
  shapeCasts_S8x3x256_S1x6144 : S8x3x256.ShapeCasts S1x6144
  shapeCasts_S4096_S1x4096 : S4096.ShapeCasts S1x4096
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  packedbf16_S128x2048_S128x2048_0_0 : (Rect.unit (s := S128x2048) ![0, 0] S128x2048.size inb_S128x2048_S128x2048_0_0).PackedRows (EltTy.packing .bf16)
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S768x2048_S768x2048_0_0 : ∀ a, (![0, 0] : Fin 2 → Nat) a + S768x2048.size a ≤ S768x2048.size a
  h_S768x2048 : 0 < S768x2048.numel
  shapeCasts_S768x2048_S768x2048 : S768x2048.ShapeCasts S768x2048
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S128x768 : S1x768.Broadcasts S128x768
  slices_S128x768_o0_0_S128x256 : S128x768.Slices ![0, 0] S128x256
  slices_S128x768_o0_256_S128x256 : S128x768.Slices ![0, 256] S128x256
  slices_S128x768_o0_512_S128x256 : S128x768.Slices ![0, 512] S128x256
  h_S128x256 : 0 < S128x256.numel
  inb_S128x256_S128x256_0_0 : ∀ a, (![0, 0] : Fin 2 → Nat) a + S128x256.size a ≤ S128x256.size a
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S4096x4096_S4096x127_0_0 : S4096x4096.Slices ![0, 0] S4096x127
  bcast_S_S_ : S_.BroadcastsInDim S_ (![] : Fin 0 → Fin S_.rank)
  reduceWindows_S4096x127_S4096x64_w1s1p0_0_w64s1p0_0 : S4096x127.ReduceWindows (![1, 64] : Fin 2 → Nat) ![1, 1] ![0, 0] ![0, 0] S4096x64
  h_S_ : 0 < S_.numel
  shapeCasts_S4096x4096_S4096x64x64 : S4096x4096.ShapeCasts S4096x64x64
  reducesTo_S4096x64x64_S4096x64_d1 : S4096x64x64.ReducesTo [1] S4096x64
  slices_S4096x64_S4096x1_0_63 : S4096x64.Slices ![0, 63] S4096x1
  slices_S4096x64_S4096x63_0_0 : S4096x64.Slices ![0, 0] S4096x63
  concatenates_S4096x1_S4096x63_S4096x64_d1 : Shape.Concatenates [S4096x1, S4096x63] S4096x64 1
  bcast_S4096x64_S4096x1x64_0_2 : S4096x64.BroadcastsInDim S4096x1x64 (![0, 2] : Fin 2 → Fin S4096x1x64.rank)
  concatenates_S4096x1x64_S4096x1x64_S4096x2x64_d1 : Shape.Concatenates [S4096x1x64, S4096x1x64] S4096x2x64 1
  shapeCasts_S4096x2x64_S8192x64 : S4096x2x64.ShapeCasts S8192x64
  dot_S128x1024_S2048x1024_S128x2048_1_1_0_0_n_n_wf : DotDims.WF S128x1024 S2048x1024 S128x2048 [1] [1] [0] [0] [] []
  dot_S128x2048_S768x2048_S128x768_1_1_0_0_n_n_wf : DotDims.WF S128x2048 S768x2048 S128x768 [1] [1] [0] [0] [] []
  dot_S128x256_S4096x256_S128x4096_1_1_0_0_n_n_wf : DotDims.WF S128x256 S4096x256 S128x4096 [1] [1] [0] [0] [] []
  hrank0 : 0 < grid0.rank
  k0_mult1_dvd : ∀ i : grid0.Coords, 256 ∣ (k0_mult1 i).toNat
  k0_off1_inb : ∀ i : grid0.Coords, ∀ a, (k0_off1 i) a + S128x256.size a ≤ S128x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .bf16 = 32 ∨ (Rect.block (s := S4096x1024) S128x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S4096x2048.size a
  hwx0_3 : ∀ i : grid0.Coords, EltTy.bits .f32 = 32 ∨ (Rect.block (s := S4096x2048) S128x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S768x2048.size a ≤ S6144x2048.size a
  hwx0_4 : ∀ i : grid0.Coords, EltTy.bits .bf16 = 32 ∨ (Rect.block (s := S6144x2048) S768x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S768x2048.size a ≤ S6144x2048.size a
  hwx0_5 : ∀ i : grid0.Coords, EltTy.bits .bf16 = 32 ∨ (Rect.block (s := S6144x2048) S768x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x6144.size a
  hwx0_6 : ∀ i : grid0.Coords, EltTy.bits .f32 = 32 ∨ (Rect.block (s := S1x6144) S1x768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x768.size a ≤ S1x6144.size a
  hwx0_7 : ∀ i : grid0.Coords, EltTy.bits .f32 = 32 ∨ (Rect.block (s := S1x6144) S1x768.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x256.size a ≤ S4096x2048.size a
  hwx0_8 : ∀ i : grid0.Coords, EltTy.bits .bf16 = 32 ∨ (Rect.block (s := S4096x2048) S4096x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x4096.size a ≤ S1x4096.size a
  hwx0_9 : ∀ i : grid0.Coords, EltTy.bits .f32 = 32 ∨ (Rect.block (s := S1x4096) S1x4096.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x256.size a ≤ S4096x2048.size a
  hwx0_10 : ∀ i : grid0.Coords, EltTy.bits .f32 = 32 ∨ (Rect.block (s := S4096x2048) S128x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x4096.size a ≤ S4096x4096.size a
  hwx0_11 : ∀ i : grid0.Coords, EltTy.bits .f32 = 32 ∨ (Rect.block (s := S4096x4096) S128x4096.size (cc0_transform_11 i) (hinb0_11 i)).WholeWords (EltTy.packing .f32)

variable [Facts₀]

def dot_S128x1024_S2048x1024_S128x2048_1_1_0_0_n_n : DotDims S128x1024 S2048x1024 S128x2048 where
  lhsContracting := [1]
  rhsContracting := [1]
  lhsNonContracting := [0]
  rhsNonContracting := [0]
  lhsBatch := []
  rhsBatch := []
  wf := dot_S128x1024_S2048x1024_S128x2048_1_1_0_0_n_n_wf
def dot_S128x2048_S768x2048_S128x768_1_1_0_0_n_n : DotDims S128x2048 S768x2048 S128x768 where
  lhsContracting := [1]
  rhsContracting := [1]
  lhsNonContracting := [0]
  rhsNonContracting := [0]
  lhsBatch := []
  rhsBatch := []
  wf := dot_S128x2048_S768x2048_S128x768_1_1_0_0_n_n_wf
def dot_S128x256_S4096x256_S128x4096_1_1_0_0_n_n : DotDims S128x256 S4096x256 S128x4096 where
  lhsContracting := [1]
  rhsContracting := [1]
  lhsNonContracting := [0]
  rhsNonContracting := [0]
  lhsBatch := []
  rhsBatch := []
  wf := dot_S128x256_S4096x256_S128x4096_1_1_0_0_n_n_wf

abbrev win0_0 : Pipeline.Window sig grid0 :=
  Pipeline.Window.ofSpec (Memref.whole main_v0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S768x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v26) S768x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v37) S1x768.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v48) S1x768.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v49) S4096x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v50) S1x4096.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v51_0) S128x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v51_1) S128x4096.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | ⟨_ + 12, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096x2048 : Shape := ⟨2, ![4096, 2048]⟩
abbrev S2048x1024 : Shape := ⟨2, ![2048, 1024]⟩
abbrev S2048 : Shape := ⟨1, ![2048]⟩
abbrev S6144x2048 : Shape := ⟨2, ![6144, 2048]⟩
abbrev S6144 : Shape := ⟨1, ![6144]⟩
abbrev S4096 : Shape := ⟨1, ![4096]⟩
abbrev S64x64 : Shape := ⟨2, ![64, 64]⟩
abbrev S1024x2048 : Shape := ⟨2, ![1024, 2048]⟩
abbrev S1x2048 : Shape := ⟨2, ![1, 2048]⟩
abbrev S_ : Shape := ⟨0, ![]⟩
abbrev S2048x6144 : Shape := ⟨2, ![2048, 6144]⟩
abbrev S4096x6144 : Shape := ⟨2, ![4096, 6144]⟩
abbrev S1x6144 : Shape := ⟨2, ![1, 6144]⟩
abbrev S2048x4096 : Shape := ⟨2, ![2048, 4096]⟩
abbrev S4096x4096 : Shape := ⟨2, ![4096, 4096]⟩
abbrev S1x4096 : Shape := ⟨2, ![1, 4096]⟩
abbrev S64x64x1 : Shape := ⟨3, ![64, 64, 1]⟩
abbrev S4096x64x64 : Shape := ⟨3, ![4096, 64, 64]⟩
abbrev S4096x64 : Shape := ⟨2, ![4096, 64]⟩
abbrev S4096x1x64 : Shape := ⟨3, ![4096, 1, 64]⟩
abbrev S4096x2x64 : Shape := ⟨3, ![4096, 2, 64]⟩
abbrev S8192x64 : Shape := ⟨2, ![8192, 64]⟩

abbrev nBuf : Space → Nat
  | .hbm => 90
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S2048x1024, .f32⟩
  | .hbm, ⟨3, _⟩ => ⟨S2048, .f32⟩
  | .hbm, ⟨4, _⟩ => ⟨S6144x2048, .f32⟩
  | .hbm, ⟨5, _⟩ => ⟨S6144x2048, .f32⟩
  | .hbm, ⟨6, _⟩ => ⟨S6144, .f32⟩
  | .hbm, ⟨7, _⟩ => ⟨S6144, .f32⟩
  | .hbm, ⟨8, _⟩ => ⟨S4096x2048, .f32⟩
  | .hbm, ⟨9, _⟩ => ⟨S4096, .f32⟩
  | .hbm, ⟨10, _⟩ => ⟨S64x64, .i32⟩
  | .hbm, ⟨11, _⟩ => ⟨S64x64, .i1⟩
  | .hbm, ⟨12, _⟩ => ⟨S64x64, .i32⟩
  | .hbm, ⟨13, _⟩ => ⟨S64x64, .i1⟩
  | .hbm, ⟨14, _⟩ => ⟨S1024x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S2048x6144, .f32⟩
  | .hbm, ⟨23, _⟩ => ⟨S4096x6144, .f32⟩
  | .hbm, ⟨24, _⟩ => ⟨S1x6144, .f32⟩
  | .hbm, ⟨25, _⟩ => ⟨S4096x6144, .f32⟩
  | .hbm, ⟨26, _⟩ => ⟨S4096x6144, .f32⟩
  | .hbm, ⟨27, _⟩ => ⟨S2048x6144, .f32⟩
  | .hbm, ⟨28, _⟩ => ⟨S4096x6144, .f32⟩
  | .hbm, ⟨29, _⟩ => ⟨S1x6144, .f32⟩
  | .hbm, ⟨30, _⟩ => ⟨S4096x6144, .f32⟩
  | .hbm, ⟨31, _⟩ => ⟨S4096x6144, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S_, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S2048x4096, .f32⟩
  | .hbm, ⟨66, _⟩ => ⟨S4096x4096, .f32⟩
  | .hbm, ⟨67, _⟩ => ⟨S1x4096, .f32⟩
  | .hbm, ⟨68, _⟩ => ⟨S4096x4096, .f32⟩
  | .hbm, ⟨69, _⟩ => ⟨S4096x4096, .f32⟩
  | .hbm, ⟨70, _⟩ => ⟨S_, .i32⟩
  | .hbm, ⟨71, _⟩ => ⟨S64x64, .i32⟩
  | .hbm, ⟨72, _⟩ => ⟨S64x64, .i32⟩
  | .hbm, ⟨73, _⟩ => ⟨S64x64, .i32⟩
  | .hbm, ⟨74, _⟩ => ⟨S64x64x1, .i32⟩
  | .hbm, ⟨75, _⟩ => ⟨S4096x64x64, .f32⟩
  | .hbm, ⟨76, _⟩ => ⟨S_, .f32⟩
  | .hbm, ⟨77, _⟩ => ⟨S4096x64, .f32⟩
  | .hbm, ⟨78, _⟩ => ⟨S_, .i32⟩
  | .hbm, ⟨79, _⟩ => ⟨S64x64, .i32⟩
  | .hbm, ⟨80, _⟩ => ⟨S64x64, .i32⟩
  | .hbm, ⟨81, _⟩ => ⟨S64x64, .i32⟩
  | .hbm, ⟨82, _⟩ => ⟨S64x64x1, .i32⟩
  | .hbm, ⟨83, _⟩ => ⟨S4096x64x64, .f32⟩
  | .hbm, ⟨84, _⟩ => ⟨S_, .f32⟩
  | .hbm, ⟨85, _⟩ => ⟨S4096x64, .f32⟩
  | .hbm, ⟨86, _⟩ => ⟨S4096x1x64, .f32⟩
  | .hbm, ⟨87, _⟩ => ⟨S4096x1x64, .f32⟩
  | .hbm, ⟨88, _⟩ => ⟨S4096x2x64, .f32⟩
  | .hbm, ⟨89, _⟩ => ⟨S8192x64, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_c_2 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_7 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_8 : Ref sig .tc := ⟨.hbm, 76, rfl⟩
abbrev main_v54 : Ref sig .tc := ⟨.hbm, 77, rfl⟩
abbrev main_c_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩

abbrev nD : Nat := 1
abbrev τ : Topo := Topo.v7x

variable {F : FTy → Type} [FloatOps F]

class Facts₀ : Prop where
  transposes_S2048x1024_S1024x2048_1_0 : S2048x1024.Transposes [1, 0] S1024x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  transposes_S6144x2048_S2048x6144_1_0 : S6144x2048.Transposes [1, 0] S2048x6144
  bcast_S6144_S1x6144_1 : S6144.BroadcastsInDim S1x6144 (![1] : Fin 1 → Fin S1x6144.rank)
  bcast_S1x6144_S4096x6144_0_1 : S1x6144.BroadcastsInDim S4096x6144 (![0, 1] : Fin 2 → Fin S4096x6144.rank)
  slices_S4096x6144_S4096x2048_0_0 : S4096x6144.Slices ![0, 0] S4096x2048
  slices_S4096x6144_S4096x2048_0_2048 : S4096x6144.Slices ![0, 2048] S4096x2048
  slices_S4096x6144_S4096x2048_0_4096 : S4096x6144.Slices ![0, 4096] S4096x2048
  transposes_S4096x2048_S2048x4096_1_0 : S4096x2048.Transposes [1, 0] S2048x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  reducesTo_S4096x64x64_S4096x64_d2 : S4096x64x64.ReducesTo [2] S4096x64
  h_S_ : 0 < S_.numel
  bcast_S4096x64_S4096x1x64_0_2 : S4096x64.BroadcastsInDim S4096x1x64 (![0, 2] : Fin 2 → Fin S4096x1x64.rank)
  concatenates_S4096x1x64_S4096x1x64_S4096x2x64_d1 : Shape.Concatenates [S4096x1x64, S4096x1x64] S4096x2x64 1
  shapeCasts_S4096x2x64_S8192x64 : S4096x2x64.ShapeCasts S8192x64
  dot_S4096x1024_S1024x2048_S4096x2048_1_0_0_1_n_n_wf : DotDims.WF S4096x1024 S1024x2048 S4096x2048 [1] [0] [0] [1] [] []
  dot_S4096x2048_S2048x6144_S4096x6144_1_0_0_1_n_n_wf : DotDims.WF S4096x2048 S2048x6144 S4096x6144 [1] [0] [0] [1] [] []
  dot_S4096x2048_S2048x4096_S4096x4096_1_0_0_1_n_n_wf : DotDims.WF S4096x2048 S2048x4096 S4096x4096 [1] [0] [0] [1] [] []
  gather_S4096x4096_S64x64x1_S4096x64x64_0_1_n_n_1_2_40961_wf : GatherDims.WF S4096x4096 S64x64x1 S4096x64x64 [0] [1] [] [1] [] 2 ![4096, 1]

variable [Facts₀]

def dot_S4096x1024_S1024x2048_S4096x2048_1_0_0_1_n_n : DotDims S4096x1024 S1024x2048 S4096x2048 where
  lhsContracting := [1]
  rhsContracting := [0]
  lhsNonContracting := [0]
  rhsNonContracting := [1]
  lhsBatch := []
  rhsBatch := []
  wf := dot_S4096x1024_S1024x2048_S4096x2048_1_0_0_1_n_n_wf
def dot_S4096x2048_S2048x6144_S4096x6144_1_0_0_1_n_n : DotDims S4096x2048 S2048x6144 S4096x6144 where
  lhsContracting := [1]
  rhsContracting := [0]
  lhsNonContracting := [0]
  rhsNonContracting := [1]
  lhsBatch := []
  rhsBatch := []
  wf := dot_S4096x2048_S2048x6144_S4096x6144_1_0_0_1_n_n_wf
def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf
def gather_S4096x4096_S64x64x1_S4096x64x64_0_1_n_n_1_2_40961 : GatherDims S4096x4096 S64x64x1 S4096x64x64 where
  offsetDims := [0]
  collapsedSliceDims := [1]
  operandBatchingDims := []
  startIndicesBatchingDims := []
  startIndexMap := [1]
  indexVectorDim := 2
  sliceSizes := ![4096, 1]
  wf := gather_S4096x4096_S64x64x1_S4096x64x64_0_1_n_n_1_2_40961_wf

class Facts : Prop extends Facts₀ where

variable [Facts]
-- ==== Proof.K.FrameKit.lean ====
/-
  The fused recurrent-cell kernel, its frame: what surrounds the grid.
  The program is one launch over a 32 × 8 grid (a batch tile, then a tile of the hidden axis) between host
  lines: 51 before it (casts, the regrouping of the gate weights and biases) and 14 after it (the two maxima
  over the action table). This module fixes the contents the launch finds (`V0`, `V`), shows that @main is
  "host lines, the launch, host lines", that the later lines touch no staging storage and write no array of
  the launch, that every argument array is still as launched when the launch begins and after the later lines,
  names each window's block (`iblk`), and states where the two conditionals of the body hold: the first
  (fill the cached layer and zero the accumulator) exactly at the first hidden tile, the second (emit the
  accumulated table) exactly at the last one.
-/
import proofs.«145547_j6897717478082_2_alg».proof.Proof.Gen.Kernel.Launch
import proofs.«145547_j6897717478082_2_alg».proof.Proof.Gen.Kernel.Skeleton
import proofs.«145547_j6897717478082_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.HF

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the launch -/

/-- What core `c`'s buffers hold when the launch begins: the launch memory after the 51 host lines before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is the host lines before the launch, the launch, and the host lines after it: it reduces to the launch
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-- The later lines touch only arrays of the launch and buffers that bypass it. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
set_option maxHeartbeats 800000 in
/-- And each writes only its own result, which is no array of the launch. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_2, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are untouched by the host lines -/

/-- No host line before the launch writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the launch writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the launch writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the launch writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the launch writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the launch writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the launch writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the launch writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the launch writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the launch writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the launch writes argument 0, which is no array of the launch: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host line after the launch writes argument 2, which is no array of the launch: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host line after the launch writes argument 3, which is no array of the launch: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host line after the launch writes argument 4, which is no array of the launch: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host line after the launch writes argument 5, which is no array of the launch: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host line after the launch writes argument 6, which is no array of the launch: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host line after the launch writes argument 7, which is no array of the launch: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host line after the launch writes argument 8, which is no array of the launch: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No host line after the launch writes argument 9, which is no array of the launch: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or kept from the point
    before, for any proof data over the launch contents whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or kept from the point
    before, for any proof data over the launch contents whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or kept from the point
    before, for any proof data over the launch contents whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or kept from the point
    before, for any proof data over the launch contents whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or kept from the point
    before, for any proof data over the launch contents whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or kept from the point
    before, for any proof data over the launch contents whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or kept from the point
    before, for any proof data over the launch contents whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or kept from the point
    before, for any proof data over the launch contents whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or kept from the point
    before, for any proof data over the launch contents whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or kept from the point
    before, for any proof data over the launch contents whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- For any proof data over the launch contents, a run whose final state has every array of the launch at what the data
    computes and every other buffer as the later lines leave it has every argument array as launched: argument 1 (the
    old hidden state) is window 3's array, an input, read back through its window; the others bypass the launch. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(((h c).2 main_arg0 (Pipeline.mem_restRefs_of main_arg0 (by decide) (by decide))).trans (W_main_arg0 m dats c)),
      ((h c).1 3).trans (((dats 0 c).arrAt_in 3 rfl _).trans ((hA c 3).trans (V_main_arg1 m c))),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c))⟩) h

/-! ## The two conditionals of the body, over the grid -/

/-- The first conditional: the hidden-tile coordinate is 0 (the scalar chain of the body, substituted). -/
abbrev cond0_1 (i : grid0.Coords) : Prop := (Scalar.cmpi .ne (Scalar.extui (Scalar.cmpi .eq (BitVec.ofNat 32 (i 1).val) 0#32)) 0#32) = 1#1
/-- It holds exactly at the points ≡ 0 (mod 8). -/
theorem hcond0_1 : ∀ t : Fin cfg0.N, cond0_1 (grid0.coords t) ↔ t.val % 8 = 0 :=
  (by decide +kernel : ∀ t : Fin grid0.N, cond0_1 (grid0.coords t) ↔ t.val % 8 = 0)

/-- The second conditional: the hidden-tile coordinate is 7, the last. -/
abbrev cond0_2 (i : grid0.Coords) : Prop := k0_cond2 i = 1#1
/-- It holds exactly at the points ≡ 7 (mod 8). -/
theorem hcond0_2 : ∀ t : Fin cfg0.N, cond0_2 (grid0.coords t) ↔ t.val % 8 = 7 :=
  (by decide +kernel : ∀ t : Fin grid0.N, cond0_2 (grid0.coords t) ↔ t.val % 8 = 7)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
/-- Away from the last hidden tile the table's window is idle (nothing is stored into it) -/
theorem idleAt0_11 : ∀ t : Fin cfg0.N, ¬cond0_2 (grid0.coords t) → cfg0.idle 11 (grid0.coords t) = true := by decide +kernel
/-- and is not written back. -/
theorem noFlush0_11 : ∀ t : Fin cfg0.N, ¬cond0_2 (grid0.coords t) → (cfg0.win 11).flush t = false := by decide +kernel
/-- At the last hidden tile it is live. -/
theorem liveAt0_11 : ∀ t : Fin cfg0.N, cond0_2 (grid0.coords t) → cfg0.idle 11 (grid0.coords t) = false := by decide +kernel

/-! ## The staging memrefs and the two scratch buffers -/

/-- One staging buffer of each output window, through which its contents are stated (the choice does not matter). -/
abbrev VO0_10 : View sig .tc .vmem S128x256 .f32 := (Memref.whole cc0_stg10_0 : Memref sig .tc .vmem S128x256 .f32).view
abbrev VO0_11 : View sig .tc .vmem S128x4096 .f32 := (Memref.whole cc0_stg11_0 : Memref sig .tc .vmem S128x4096 .f32).view
abbrev ms0_0 (t : Fin cfg0.N) : Memref sig .tc .vmem S128x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x768 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x768 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4096x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x4096 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x4096 .f32 := win0_11.stage (cfg0.slots t 11)
abbrev hs0_11 (t : Fin cfg0.N) : (ms0_11 t).IsWhole := hstage0_11 ((cfg0.slots t 11).cast nbuf0_11)
/-- The cached first layer (bf16) and the accumulator of the action table (f32): whole scoped buffers of the kernel's own. -/
abbrev scM0_0 : Memref sig .tc .vmem S128x2048 .bf16 := Memref.whole cc0_scratch0
abbrev scM0_1 : Memref sig .tc .vmem S128x4096 .f32 := Memref.whole cc0_scratch1
abbrev VS0_0 : View sig .tc .vmem S128x2048 .bf16 := scM0_0.view
abbrev VS0_1 : View sig .tc .vmem S128x4096 .f32 := scM0_1.view

/-- What the launch hands the body besides the windows: the two scratch buffers, each owned whole at some contents, and
    the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.HF

end
-- ==== Proof.K.RunFirst.lean ====
/-
  The fused recurrent-cell kernel: the body's run at the first hidden tile of a batch tile.
-/
import proofs.«145547_j6897717478082_2_alg».proof.Proof.K.FrameKit

set_option maxRecDepth 16384

noncomputable section

namespace Cert.Kernel.HF

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- THE BODY AT THE FIRST HIDDEN TILE of a batch tile. With the ten inputs' buffers at their blocks, the new-state window's
    buffer and both scratch buffers at anything, and the table window's buffer (idle here) at contents handed back untouched,
    the body runs: it fills the cached first layer (one store of the whole bf16 scratch), zeroes the accumulator, computes the
    gates from the cached layer and the old state, stores the new state's tile, and adds its contribution to the accumulator.
    What each written buffer ends with is a list of pieces (last store first), found by running the body. -/
noncomputable def kernelRun0_first (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : cond0_1 i) (hc2 : ¬cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) :
    Σ' (L10 : List (View.Piece (Elt F) S128x256 .f32)) (LS0 : List (View.Piece (Elt F) S128x2048 .bf16)), { LS1 : List (View.Piece (Elt F) S128x4096 .f32) //
      ∀ (xi11 : Vec F S128x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xi11 ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ owns (c : Thread nD τ) arg13 fullShare xi11 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc0__rnn_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun xi11 E K => ?run⟩
  case run =>
    simp only [cc0__rnn_kernel_eq_skeleton]; unfold cc0__rnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]
    · iexists _; isplitr; · ipureintro; exact harg13.read_unread _
      iexact H11
    isplitl [HS0]; · iexists _; iexact HS0
    iexists _; iexact HS1

end Cert.Kernel.HF

end
-- ==== Proof.K.RunMid.lean ====
/-
  The fused recurrent-cell kernel: the body's run at a middle hidden tile.
-/
import proofs.«145547_j6897717478082_2_alg».proof.Proof.K.RunFirst

set_option maxRecDepth 16384

noncomputable section

namespace Cert.Kernel.HF

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- THE BODY AT A MIDDLE HIDDEN TILE. The cached first layer is read as the point before left it and handed back
    unchanged; the accumulator is read at what the point before left and stored back with this tile's contribution added; the
    new state's tile is stored; the table window is idle and its buffer handed back untouched. -/
noncomputable def kernelRun0_mid (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : ¬cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) :
    Σ' (L10 : List (View.Piece (Elt F) S128x256 .f32)), { LS1 : List (View.Piece (Elt F) S128x4096 .f32) //
      ∀ (xi11 : Vec F S128x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xi11 ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ owns (c : Thread nD τ) arg13 fullShare xi11 ∗ owns (c : Thread nD τ) arg14 fullShare xs0 ∗ (∃ f, arg15.view.loc (c : Thread nD τ) ↦[arg15.view.set]{fullShare} arg15.view.writes (Elt F) f LS1)) -∗ K ⟨⟩))
          ⊢ wp frame (wpE (defs₀ (F := F)) Variants.none c none) E (cc0__rnn_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun xi11 E K => ?run⟩
  case run =>
    simp only [cc0__rnn_kernel_eq_skeleton]; unfold cc0__rnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hfs0; obtain rfl := harg15.eq_unread hfs1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]
    · iexists _; isplitr; · ipureintro; exact harg13.read_unread _
      iexact H11
    isplitl [HS0]
    · iexists _; isplitr; · ipureintro; exact harg14.read_unread _
      iexact HS0
    iexists _; iexact HS1

end Cert.Kernel.HF

end
-- ==== Proof.K.RunLast.lean ====
/-
  The fused recurrent-cell kernel: the body's run at the last hidden tile.
-/
import proofs.«145547_j6897717478082_2_alg».proof.Proof.K.RunMid

set_option maxRecDepth 16384

noncomputable section

namespace Cert.Kernel.HF

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- THE BODY AT THE LAST HIDDEN TILE. As at a middle tile, and then the accumulator, read once more, plus the output bias
    is stored into the table window's buffer (at anything before). -/
noncomputable def kernelRun0_last (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) :
    Σ' (L10 : List (View.Piece (Elt F) S128x256 .f32)) (L11 : List (View.Piece (Elt F) S128x4096 .f32)), { LS1 : List (View.Piece (Elt F) S128x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ owns (c : Thread nD τ) arg14 fullShare xs0 ∗ (∃ f, arg15.view.loc (c : Thread nD τ) ↦[arg15.view.set]{fullShare} arg15.view.writes (Elt F) f LS1)) -∗ K ⟨⟩))
          ⊢ wp frame (wpE (defs₀ (F := F)) Variants.none c none) E (cc0__rnn_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0__rnn_kernel_eq_skeleton]; unfold cc0__rnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs0; obtain rfl := harg15.eq_unread hfs1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [HS0]
    · iexists _; isplitr; · ipureintro; exact harg14.read_unread _
      iexact HS0
    iexists _; iexact HS1

end Cert.Kernel.HF

end
-- ==== Proof.K.Frame.lean ====
/-
  The fused recurrent-cell kernel: its frame.
  Per case of the two conditionals (first hidden tile, middle, last) what the body leaves in the new state's window, the
  table's window, the cached first layer and the accumulator, and that the stored pieces cover each; what these hold
  after each grid point, by recursion on the point (a batch tile's first point restarts both scratch buffers, the others
  continue from the point before); the proof data of the launch; the body's obligation at every point; the run of @main;
  and the frame claim: the program terminates without fault and leaves its argument arrays as launched.
-/
import proofs.«145547_j6897717478082_2_alg».proof.Proof.K.RunLast

set_option maxRecDepth 16384

noncomputable section

namespace Cert.Kernel.HF

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the first hidden tile the pieces stored into the new state's window tile it, so they cover it. -/
theorem cover0_first_10 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : cond0_1 i) (hc2 : ¬cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (y : S128x256.Idx) :
    ∃ pc ∈ (kernelRun0_first c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9).1, y ∈ pc.1.set :=
  View.cover_of_tiledL (kernelRun0_first c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9).1 S128x256.size (by sl_kernel_rfl) y
/-- What the first hidden tile leaves in the new state's staging buffer: its pieces read back. -/
def out0_first_10 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : cond0_1 i) (hc2 : ¬cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) : Vec F S128x256 .f32 :=
  VO0_10.read (Elt F) (VO0_10.writes (Elt F) VO0_10.junk (kernelRun0_first c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9).1)
/-- At the first hidden tile nothing is stored into the table's window (idle there, and not written back): a placeholder that
    nothing consults. -/
def out0_first_11 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : cond0_1 i) (hc2 : ¬cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) : Vec F S128x4096 .f32 :=
  VO0_11.read (Elt F) (VO0_11.writes (Elt F) VO0_11.junk [])
/-- At the first hidden tile the pieces stored into the cached first layer tile it, so they cover it. -/
theorem scover0_first_0 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : cond0_1 i) (hc2 : ¬cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (y : S128x2048.Idx) :
    ∃ pc ∈ (kernelRun0_first c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9).2.1, y ∈ pc.1.set :=
  View.cover_of_tiledL (kernelRun0_first c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9).2.1 S128x2048.size (by sl_kernel_rfl) y
/-- What the first hidden tile leaves in the cached first layer: its pieces read back. -/
def sout0_first_0 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : cond0_1 i) (hc2 : ¬cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) : Vec F S128x2048 .bf16 :=
  VS0_0.read (Elt F) (VS0_0.writes (Elt F) VS0_0.junk (kernelRun0_first c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9).2.1)
/-- At the first hidden tile the pieces stored into the accumulator tile it, so they cover it. -/
theorem scover0_first_1 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : cond0_1 i) (hc2 : ¬cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (y : S128x4096.Idx) :
    ∃ pc ∈ (kernelRun0_first c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9).2.2.1, y ∈ pc.1.set :=
  View.cover_of_tiledL (kernelRun0_first c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9).2.2.1 S128x4096.size (by sl_kernel_rfl) y
/-- What the first hidden tile leaves in the accumulator: its pieces read back. -/
def sout0_first_1 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : cond0_1 i) (hc2 : ¬cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) : Vec F S128x4096 .f32 :=
  VS0_1.read (Elt F) (VS0_1.writes (Elt F) VS0_1.junk (kernelRun0_first c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9).2.2.1)

/-- At a middle hidden tile the pieces stored into the new state's window tile it, so they cover it. -/
theorem cover0_mid_10 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : ¬cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) (y : S128x256.Idx) :
    ∃ pc ∈ (kernelRun0_mid c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).1, y ∈ pc.1.set :=
  View.cover_of_tiledL (kernelRun0_mid c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).1 S128x256.size (by sl_kernel_rfl) y
/-- What a middle hidden tile leaves in the new state's staging buffer: its pieces read back. -/
def out0_mid_10 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : ¬cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) : Vec F S128x256 .f32 :=
  VO0_10.read (Elt F) (VO0_10.writes (Elt F) VO0_10.junk (kernelRun0_mid c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).1)
/-- At a middle hidden tile nothing is stored into the table's window (idle there, and not written back): a placeholder that
    nothing consults. -/
def out0_mid_11 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : ¬cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) : Vec F S128x4096 .f32 :=
  VO0_11.read (Elt F) (VO0_11.writes (Elt F) VO0_11.junk [])
/-- At a middle hidden tile the cached first layer is only read: it stays as the point before left it. -/
def sout0_mid_0 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : ¬cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) : Vec F S128x2048 .bf16 := xs0
/-- At a middle hidden tile the pieces stored into the accumulator tile it, so they cover it. -/
theorem scover0_mid_1 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : ¬cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) (y : S128x4096.Idx) :
    ∃ pc ∈ (kernelRun0_mid c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).2.1, y ∈ pc.1.set :=
  View.cover_of_tiledL (kernelRun0_mid c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).2.1 S128x4096.size (by sl_kernel_rfl) y
/-- What a middle hidden tile leaves in the accumulator: its pieces read back. -/
def sout0_mid_1 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : ¬cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) : Vec F S128x4096 .f32 :=
  VS0_1.read (Elt F) (VS0_1.writes (Elt F) VS0_1.junk (kernelRun0_mid c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).2.1)

/-- At the last hidden tile the pieces stored into the new state's window tile it, so they cover it. -/
theorem cover0_last_10 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) (y : S128x256.Idx) :
    ∃ pc ∈ (kernelRun0_last c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).1, y ∈ pc.1.set :=
  View.cover_of_tiledL (kernelRun0_last c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).1 S128x256.size (by sl_kernel_rfl) y
/-- What the last hidden tile leaves in the new state's staging buffer: its pieces read back. -/
def out0_last_10 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) : Vec F S128x256 .f32 :=
  VO0_10.read (Elt F) (VO0_10.writes (Elt F) VO0_10.junk (kernelRun0_last c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).1)
/-- At the last hidden tile the pieces stored into the table's window tile it, so they cover it. -/
theorem cover0_last_11 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) (y : S128x4096.Idx) :
    ∃ pc ∈ (kernelRun0_last c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).2.1, y ∈ pc.1.set :=
  View.cover_of_tiledL (kernelRun0_last c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).2.1 S128x4096.size (by sl_kernel_rfl) y
/-- What the last hidden tile leaves in the table's staging buffer: its pieces read back. -/
def out0_last_11 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) : Vec F S128x4096 .f32 :=
  VO0_11.read (Elt F) (VO0_11.writes (Elt F) VO0_11.junk (kernelRun0_last c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).2.1)
/-- At the last hidden tile the cached first layer is only read: it stays as the point before left it. -/
def sout0_last_0 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) : Vec F S128x2048 .bf16 := xs0
/-- At the last hidden tile the pieces stored into the accumulator tile it, so they cover it. -/
theorem scover0_last_1 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) (y : S128x4096.Idx) :
    ∃ pc ∈ (kernelRun0_last c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).2.2.1, y ∈ pc.1.set :=
  View.cover_of_tiledL (kernelRun0_last c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).2.2.1 S128x4096.size (by sl_kernel_rfl) y
/-- What the last hidden tile leaves in the accumulator: its pieces read back. -/
def sout0_last_1 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) : Vec F S128x4096 .f32 :=
  VS0_1.read (Elt F) (VS0_1.writes (Elt F) VS0_1.junk (kernelRun0_last c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).2.2.1)

/-! ## What the outputs and the two scratch buffers hold after each point -/

/-- THE ACCUMULATION over the grid. After the body at position `n`: the new state's staging buffer, the table's staging
    buffer, the cached first layer and the accumulator (in this order). The closed forms of the two conditionals select the
    case at `n`; a middle or last tile runs over what position `n - 1` left in the two scratch buffers (the first tile of a
    batch tile overwrites both). No point is both a first and a last tile. -/
def outsAt0 (c : Dev nD) : (n : ℕ) → n < cfg0.N → Vec F S128x256 .f32 × Vec F S128x4096 .f32 × Vec F S128x2048 .bf16 × Vec F S128x4096 .f32
  | 0, hn =>
      (out0_first_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩),
       out0_first_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩),
       sout0_first_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩),
       sout0_first_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩))
  | n + 1, hn =>
    if h1 : (n + 1) % 8 = 0 then
      if h2 : (n + 1) % 8 = 7 then
        False.elim (by omega)
      else
        (out0_first_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩),
       out0_first_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩),
       sout0_first_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩),
       sout0_first_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩))
    else
      if h2 : (n + 1) % 8 = 7 then
        (out0_last_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1 (outsAt0 c n (Nat.lt_of_succ_lt hn)).2.2.2,
       out0_last_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1 (outsAt0 c n (Nat.lt_of_succ_lt hn)).2.2.2,
       sout0_last_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1 (outsAt0 c n (Nat.lt_of_succ_lt hn)).2.2.2,
       sout0_last_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1 (outsAt0 c n (Nat.lt_of_succ_lt hn)).2.2.2)
      else
        (out0_mid_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1 (outsAt0 c n (Nat.lt_of_succ_lt hn)).2.2.2,
       out0_mid_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1 (outsAt0 c n (Nat.lt_of_succ_lt hn)).2.2.2,
       sout0_mid_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1 (outsAt0 c n (Nat.lt_of_succ_lt hn)).2.2.2,
       sout0_mid_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1 (outsAt0 c n (Nat.lt_of_succ_lt hn)).2.2.2)

/-- `outsAt0` at a first hidden tile: that case's contents. -/
theorem outsAt0_first (c : Dev nD) (t : Fin cfg0.N) (h1 : t.val % 8 = 0) (h2 : ¬t.val % 8 = 7) :
    outsAt0 m c t.val t.isLt =
      (out0_first_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t),
       out0_first_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t),
       sout0_first_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t),
       sout0_first_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t)) := by
  obtain ⟨n, hn⟩ := t
  cases n with
  | zero => exact rfl
  | succ n => exact (dif_pos h1).trans ((dif_neg h2).trans rfl)

/-- `outsAt0` at a middle hidden tile: that case's contents, over what the point before left. -/
theorem outsAt0_mid (c : Dev nD) (t : Fin cfg0.N) (h1 : ¬t.val % 8 = 0) (h2 : ¬t.val % 8 = 7) :
    outsAt0 m c t.val t.isLt =
      (out0_mid_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2,
       out0_mid_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2,
       sout0_mid_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2,
       sout0_mid_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h1); exact absurd (Nat.zero_mod _) h1)
  | succ n => exact (dif_neg h1).trans ((dif_neg h2).trans rfl)

/-- `outsAt0` at a last hidden tile: that case's contents, over what the point before left. -/
theorem outsAt0_last (c : Dev nD) (t : Fin cfg0.N) (h1 : ¬t.val % 8 = 0) (h2 : t.val % 8 = 7) :
    outsAt0 m c t.val t.isLt =
      (out0_last_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2,
       out0_last_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2,
       sout0_last_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2,
       sout0_last_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h1); exact absurd (Nat.zero_mod _) h1)
  | succ n => exact (dif_neg h1).trans ((dif_pos h2).trans rfl)

/-- The invariant between points: before the first point what the launch hands over (both scratch buffers at anything);
    afterwards the cached first layer and the accumulator at what the point before left, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The proof data of the launch -/

/-- On core `c`: the arrays as the launch finds them; after the body at point `t` each input's buffer at its block, the
    new state's at `outsAt0`'s first component, the table's at its second; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
    | ⟨11, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
/-- After the body at `t` the new state's staging buffer holds `outsAt0`'s first component, -/
theorem after0_10 (c : Dev nD) (t : Fin cfg0.N) : (dats m 0 c).after 10 t = (outsAt0 m c t.val t.isLt).1 := by dsimp only [dats]
/-- and the table's staging buffer its second. -/
theorem after0_11 (c : Dev nD) (t : Fin cfg0.N) : (dats m 0 c).after 11 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 16000000 in
/-- The body at any point. The inputs' buffers hold their blocks; the closed forms of the two conditionals say which of the
    three cases the point is in, and that case's run applies: it is handed the two scratch buffers at what the point before
    left (at anything at the very first point, and a first tile forgets what it is handed), and gives them back at this
    point's contents, the stored pieces covering each buffer they were stored into. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  by_cases h1 : t.val % 8 = 0
  · by_cases h2 : t.val % 8 = 7
    · exfalso; omega
    · -- a first hidden tile
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [show (dats m 0 c).leavesExact 9 t = owns (c : Thread nD τ) (ms0_9 t) fullShare ((dats m 0 c).after 9 t) from by
        unfold Dat.leavesExact; rw [liveAt0_9 t], after0_9]
      rw [show (dats m 0 c).leavesExact 10 t = owns (c : Thread nD τ) (ms0_10 t) fullShare ((dats m 0 c).after 10 t) from by
        unfold Dat.leavesExact; rw [liveAt0_10 t], after0_10]
      rw [Dat.leavesExact_idle (dats m 0 c) 11 t (idleAt0_11 t (fun h => h2 ((hcond0_2 t).mp h))) (noFlush0_11 t (fun h => h2 ((hcond0_2 t).mp h)))]
      rw [outsAt0_first m c t h1 h2]
      unfold out0_first_10 sout0_first_0 sout0_first_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_first c (grid0.coords t) _ _ _ _ _ _ _ _ _ _ _ _ _ _ _ _ _ _ _ _ _ _ _ _ _ _ _ _ ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexact H11
        isplitl [HS0]; · iexact HS0
        isplitl [HS1]; · iexact HS1
        iintro ⟨H0, H1, H2, H3, H4, H5, H6, H7, H8, H9, ⟨%e10, H10⟩, H11, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_first_0 c _ _ _ _ _ _ _ _ _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_first_1 c _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (cover0_first_10 c _ _ _ _ _ _ _ _ _ _ _ _ _ _ _ _ _ _ _ _ _ _ _ _ _ _ _ _ _ _ _ _ _ _ _ _ _ _ _ _ _)
        iexists _; iexact H11
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_first c (grid0.coords t) _ _ _ _ _ _ _ _ _ _ _ _ _ _ _ _ _ _ _ _ _ _ _ _ _ _ _ _ ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexact H11
        isplitl [HS0]; · iexists _; iexact HS0
        isplitl [HS1]; · iexists _; iexact HS1
        iintro ⟨H0, H1, H2, H3, H4, H5, H6, H7, H8, H9, ⟨%e10, H10⟩, H11, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_first_0 c _ _ _ _ _ _ _ _ _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_first_1 c _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (cover0_first_10 c _ _ _ _ _ _ _ _ _ _ _ _ _ _ _ _ _ _ _ _ _ _ _ _ _ _ _ _ _ _ _ _ _ _ _ _ _ _ _ _ _)
        iexists _; iexact H11

  · by_cases h2 : t.val % 8 = 7
    · -- the last hidden tile
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [show (dats m 0 c).leavesExact 9 t = owns (c : Thread nD τ) (ms0_9 t) fullShare ((dats m 0 c).after 9 t) from by
        unfold Dat.leavesExact; rw [liveAt0_9 t], after0_9]
      rw [show (dats m 0 c).leavesExact 10 t = owns (c : Thread nD τ) (ms0_10 t) fullShare ((dats m 0 c).after 10 t) from by
        unfold Dat.leavesExact; rw [liveAt0_10 t], after0_10]
      rw [show (dats m 0 c).leavesExact 11 t = owns (c : Thread nD τ) (ms0_11 t) fullShare ((dats m 0 c).after 11 t) from by
        unfold Dat.leavesExact; rw [liveAt0_11 t ((hcond0_2 t).mpr h2)], after0_11]
      rw [outsAt0_last m c t h1 h2]
      unfold out0_last_10 out0_last_11 sout0_last_0 sout0_last_1; (try dsimp only)
      have hz : t.val ≠ 0 := fun e => h1 (by rw [e])
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_last c (grid0.coords t) _ _ _ _ _ _ _ _ _ _ _ _ _ _ _ _ _ _ _ _ _ _ _ _ _ _ _ _ (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [HS0]; · iexact HS0
        isplitl [HS1]; · iexact HS1
        iintro ⟨H0, H1, H2, H3, H4, H5, H6, H7, H8, H9, ⟨%e10, H10⟩, ⟨%e11, H11⟩, HS0, ⟨%es1, HS1⟩⟩
        isplitl [HS0 HS1 Hg]
        · isplitl [HS0 HS1]
          · isplitl [HS0]
            · iexact HS0
            · unfold owns; iexists _; isplitr
              swap; · iexact HS1
              ipureintro; exact View.read_writes_of_cover _ _ _ _ _ (scover0_last_1 c _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (cover0_last_10 c _ _ _ _ _ _ _ _ _ _ _ _ _ _ _ _ _ _ _ _ _ _ _ _ _ _ _ _ _ _ _ _ _ _ _ _ _ _ _ _ _ _ _)
        · unfold owns; iexists _; isplitr
          swap; · iexact H11
          ipureintro; exact View.read_writes_of_cover _ _ _ _ _ (cover0_last_11 c _ _ _ _ _ _ _ _ _ _ _ _ _ _ _ _ _ _ _ _ _ _ _ _ _ _ _ _ _ _ _ _ _ _ _ _ _ _ _ _ _ _ _)

    · -- a middle hidden tile
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [show (dats m 0 c).leavesExact 9 t = owns (c : Thread nD τ) (ms0_9 t) fullShare ((dats m 0 c).after 9 t) from by
        unfold Dat.leavesExact; rw [liveAt0_9 t], after0_9]
      rw [show (dats m 0 c).leavesExact 10 t = owns (c : Thread nD τ) (ms0_10 t) fullShare ((dats m 0 c).after 10 t) from by
        unfold Dat.leavesExact; rw [liveAt0_10 t], after0_10]
      rw [Dat.leavesExact_idle (dats m 0 c) 11 t (idleAt0_11 t (fun h => h2 ((hcond0_2 t).mp h))) (noFlush0_11 t (fun h => h2 ((hcond0_2 t).mp h)))]
      rw [outsAt0_mid m c t h1 h2]
      unfold out0_mid_10 sout0_mid_0 sout0_mid_1; (try dsimp only)
      have hz : t.val ≠ 0 := fun e => h1 (by rw [e])
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_mid c (grid0.coords t) _ _ _ _ _ _ _ _ _ _ _ _ _ _ _ _ _ _ _ _ _ _ _ _ _ _ _ _ (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) _ _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexact H11
        isplitl [HS0]; · iexact HS0
        isplitl [HS1]; · iexact HS1
        iintro ⟨H0, H1, H2, H3, H4, H5, H6, H7, H8, H9, ⟨%e10, H10⟩, H11, HS0, ⟨%es1, HS1⟩⟩
        isplitl [HS0 HS1 Hg]
        · isplitl [HS0 HS1]
          · isplitl [HS0]
            · iexact HS0
            · unfold owns; iexists _; isplitr
              swap; · iexact HS1
              ipureintro; exact View.read_writes_of_cover _ _ _ _ _ (scover0_mid_1 c _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (cover0_mid_10 c _ _ _ _ _ _ _ _ _ _ _ _ _ _ _ _ _ _ _ _ _ _ _ _ _ _ _ _ _ _ _ _ _ _ _ _ _ _ _ _ _ _ _)
        iexists _; iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands over is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives back what the launch handed over: the scratch buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- For any values, from any memory with zero counters: every weakly fair execution of @main terminates, and every final
    state has every array of the launch at what the proof data computes and every other unscoped buffer as the host lines
    after the launch leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

/-- THE FRAME: the program runs and its ten argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.HF

end
-- ==== Proof.KI.FrameKit.lean ====
/-
  The fused recurrent-cell kernel, its frame: what surrounds the grid.
  The program is one launch over a 32 × 8 grid (a batch tile, then a tile of the hidden axis) between host
  lines: 51 before it (casts, the regrouping of the gate weights and biases) and 14 after it (the two maxima
  over the action table). This module fixes the contents the launch finds (`V0`, `V`), shows that @main is
  "host lines, the launch, host lines", that the later lines touch no staging storage and write no array of
  the launch, that every argument array is still as launched when the launch begins and after the later lines,
  names each window's block (`iblk`), and states where the two conditionals of the body hold: the first
  (fill the cached layer and zero the accumulator) exactly at the first hidden tile, the second (emit the
  accumulated table) exactly at the last one.
-/
import proofs.«145547_j6897717478082_2_alg».proof.Proof.Gen.KernelIdeal.Launch
import proofs.«145547_j6897717478082_2_alg».proof.Proof.Gen.KernelIdeal.Skeleton
import proofs.«145547_j6897717478082_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.HF

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the launch -/

/-- What core `c`'s buffers hold when the launch begins: the launch memory after the 51 host lines before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is the host lines before the launch, the launch, and the host lines after it: it reduces to the launch
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-- The later lines touch only arrays of the launch and buffers that bypass it. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
set_option maxHeartbeats 800000 in
/-- And each writes only its own result, which is no array of the launch. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_2, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are untouched by the host lines -/

/-- No host line before the launch writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the launch writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the launch writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the launch writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the launch writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the launch writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the launch writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the launch writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the launch writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the launch writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the launch writes argument 0, which is no array of the launch: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host line after the launch writes argument 2, which is no array of the launch: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host line after the launch writes argument 3, which is no array of the launch: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host line after the launch writes argument 4, which is no array of the launch: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host line after the launch writes argument 5, which is no array of the launch: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host line after the launch writes argument 6, which is no array of the launch: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host line after the launch writes argument 7, which is no array of the launch: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host line after the launch writes argument 8, which is no array of the launch: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No host line after the launch writes argument 9, which is no array of the launch: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or kept from the point
    before, for any proof data over the launch contents whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or kept from the point
    before, for any proof data over the launch contents whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or kept from the point
    before, for any proof data over the launch contents whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or kept from the point
    before, for any proof data over the launch contents whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or kept from the point
    before, for any proof data over the launch contents whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or kept from the point
    before, for any proof data over the launch contents whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or kept from the point
    before, for any proof data over the launch contents whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or kept from the point
    before, for any proof data over the launch contents whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or kept from the point
    before, for any proof data over the launch contents whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or kept from the point
    before, for any proof data over the launch contents whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- For any proof data over the launch contents, a run whose final state has every array of the launch at what the data
    computes and every other buffer as the later lines leave it has every argument array as launched: argument 1 (the
    old hidden state) is window 3's array, an input, read back through its window; the others bypass the launch. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(((h c).2 main_arg0 (Pipeline.mem_restRefs_of main_arg0 (by decide) (by decide))).trans (W_main_arg0 m dats c)),
      ((h c).1 3).trans (((dats 0 c).arrAt_in 3 rfl _).trans ((hA c 3).trans (V_main_arg1 m c))),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c))⟩) h

/-! ## The two conditionals of the body, over the grid -/

/-- The first conditional: the hidden-tile coordinate is 0 (the scalar chain of the body, substituted). -/
abbrev cond0_1 (i : grid0.Coords) : Prop := (Scalar.cmpi .ne (Scalar.extui (Scalar.cmpi .eq (BitVec.ofNat 32 (i 1).val) 0#32)) 0#32) = 1#1
/-- It holds exactly at the points ≡ 0 (mod 8). -/
theorem hcond0_1 : ∀ t : Fin cfg0.N, cond0_1 (grid0.coords t) ↔ t.val % 8 = 0 :=
  (by decide +kernel : ∀ t : Fin grid0.N, cond0_1 (grid0.coords t) ↔ t.val % 8 = 0)

/-- The second conditional: the hidden-tile coordinate is 7, the last. -/
abbrev cond0_2 (i : grid0.Coords) : Prop := k0_cond2 i = 1#1
/-- It holds exactly at the points ≡ 7 (mod 8). -/
theorem hcond0_2 : ∀ t : Fin cfg0.N, cond0_2 (grid0.coords t) ↔ t.val % 8 = 7 :=
  (by decide +kernel : ∀ t : Fin grid0.N, cond0_2 (grid0.coords t) ↔ t.val % 8 = 7)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
/-- Away from the last hidden tile the table's window is idle (nothing is stored into it) -/
theorem idleAt0_11 : ∀ t : Fin cfg0.N, ¬cond0_2 (grid0.coords t) → cfg0.idle 11 (grid0.coords t) = true := by decide +kernel
/-- and is not written back. -/
theorem noFlush0_11 : ∀ t : Fin cfg0.N, ¬cond0_2 (grid0.coords t) → (cfg0.win 11).flush t = false := by decide +kernel
/-- At the last hidden tile it is live. -/
theorem liveAt0_11 : ∀ t : Fin cfg0.N, cond0_2 (grid0.coords t) → cfg0.idle 11 (grid0.coords t) = false := by decide +kernel

/-! ## The staging memrefs and the two scratch buffers -/

/-- One staging buffer of each output window, through which its contents are stated (the choice does not matter). -/
abbrev VO0_10 : View sig .tc .vmem S128x256 .f32 := (Memref.whole cc0_stg10_0 : Memref sig .tc .vmem S128x256 .f32).view
abbrev VO0_11 : View sig .tc .vmem S128x4096 .f32 := (Memref.whole cc0_stg11_0 : Memref sig .tc .vmem S128x4096 .f32).view
abbrev ms0_0 (t : Fin cfg0.N) : Memref sig .tc .vmem S128x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x768 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x768 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4096x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x4096 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x4096 .f32 := win0_11.stage (cfg0.slots t 11)
abbrev hs0_11 (t : Fin cfg0.N) : (ms0_11 t).IsWhole := hstage0_11 ((cfg0.slots t 11).cast nbuf0_11)
/-- The cached first layer (bf16) and the accumulator of the action table (f32): whole scoped buffers of the kernel's own. -/
abbrev scM0_0 : Memref sig .tc .vmem S128x2048 .bf16 := Memref.whole cc0_scratch0
abbrev scM0_1 : Memref sig .tc .vmem S128x4096 .f32 := Memref.whole cc0_scratch1
abbrev VS0_0 : View sig .tc .vmem S128x2048 .bf16 := scM0_0.view
abbrev VS0_1 : View sig .tc .vmem S128x4096 .f32 := scM0_1.view

/-- What the launch hands the body besides the windows: the two scratch buffers, each owned whole at some contents, and
    the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.HF

end
-- ==== Proof.KI.RunFirst.lean ====
/-
  The fused recurrent-cell kernel: the body's run at the first hidden tile of a batch tile.
-/
import proofs.«145547_j6897717478082_2_alg».proof.Proof.KI.FrameKit

set_option maxRecDepth 16384

noncomputable section

namespace Cert.KernelIdeal.HF

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- THE BODY AT THE FIRST HIDDEN TILE of a batch tile. With the ten inputs' buffers at their blocks, the new-state window's
    buffer and both scratch buffers at anything, and the table window's buffer (idle here) at contents handed back untouched,
    the body runs: it fills the cached first layer (one store of the whole bf16 scratch), zeroes the accumulator, computes the
    gates from the cached layer and the old state, stores the new state's tile, and adds its contribution to the accumulator.
    What each written buffer ends with is a list of pieces (last store first), found by running the body. -/
noncomputable def kernelRun0_first (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : cond0_1 i) (hc2 : ¬cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) :
    Σ' (L10 : List (View.Piece (Elt F) S128x256 .f32)) (LS0 : List (View.Piece (Elt F) S128x2048 .bf16)), { LS1 : List (View.Piece (Elt F) S128x4096 .f32) //
      ∀ (xi11 : Vec F S128x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xi11 ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ owns (c : Thread nD τ) arg13 fullShare xi11 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc0__rnn_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun xi11 E K => ?run⟩
  case run =>
    simp only [cc0__rnn_kernel_eq_skeleton]; unfold cc0__rnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]
    · iexists _; isplitr; · ipureintro; exact harg13.read_unread _
      iexact H11
    isplitl [HS0]; · iexists _; iexact HS0
    iexists _; iexact HS1

end Cert.KernelIdeal.HF

end
-- ==== Proof.KI.RunMid.lean ====
/-
  The fused recurrent-cell kernel: the body's run at a middle hidden tile.
-/
import proofs.«145547_j6897717478082_2_alg».proof.Proof.KI.RunFirst

set_option maxRecDepth 16384

noncomputable section

namespace Cert.KernelIdeal.HF

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- THE BODY AT A MIDDLE HIDDEN TILE. The cached first layer is read as the point before left it and handed back
    unchanged; the accumulator is read at what the point before left and stored back with this tile's contribution added; the
    new state's tile is stored; the table window is idle and its buffer handed back untouched. -/
noncomputable def kernelRun0_mid (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : ¬cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) :
    Σ' (L10 : List (View.Piece (Elt F) S128x256 .f32)), { LS1 : List (View.Piece (Elt F) S128x4096 .f32) //
      ∀ (xi11 : Vec F S128x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xi11 ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ owns (c : Thread nD τ) arg13 fullShare xi11 ∗ owns (c : Thread nD τ) arg14 fullShare xs0 ∗ (∃ f, arg15.view.loc (c : Thread nD τ) ↦[arg15.view.set]{fullShare} arg15.view.writes (Elt F) f LS1)) -∗ K ⟨⟩))
          ⊢ wp frame (wpE (defs₀ (F := F)) Variants.none c none) E (cc0__rnn_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun xi11 E K => ?run⟩
  case run =>
    simp only [cc0__rnn_kernel_eq_skeleton]; unfold cc0__rnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hfs0; obtain rfl := harg15.eq_unread hfs1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]
    · iexists _; isplitr; · ipureintro; exact harg13.read_unread _
      iexact H11
    isplitl [HS0]
    · iexists _; isplitr; · ipureintro; exact harg14.read_unread _
      iexact HS0
    iexists _; iexact HS1

end Cert.KernelIdeal.HF

end
-- ==== Proof.KI.RunLast.lean ====
/-
  The fused recurrent-cell kernel: the body's run at the last hidden tile.
-/
import proofs.«145547_j6897717478082_2_alg».proof.Proof.KI.RunMid

set_option maxRecDepth 16384

noncomputable section

namespace Cert.KernelIdeal.HF

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- THE BODY AT THE LAST HIDDEN TILE. As at a middle tile, and then the accumulator, read once more, plus the output bias
    is stored into the table window's buffer (at anything before). -/
noncomputable def kernelRun0_last (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) :
    Σ' (L10 : List (View.Piece (Elt F) S128x256 .f32)) (L11 : List (View.Piece (Elt F) S128x4096 .f32)), { LS1 : List (View.Piece (Elt F) S128x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ owns (c : Thread nD τ) arg14 fullShare xs0 ∗ (∃ f, arg15.view.loc (c : Thread nD τ) ↦[arg15.view.set]{fullShare} arg15.view.writes (Elt F) f LS1)) -∗ K ⟨⟩))
          ⊢ wp frame (wpE (defs₀ (F := F)) Variants.none c none) E (cc0__rnn_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0__rnn_kernel_eq_skeleton]; unfold cc0__rnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs0; obtain rfl := harg15.eq_unread hfs1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [HS0]
    · iexists _; isplitr; · ipureintro; exact harg14.read_unread _
      iexact HS0
    iexists _; iexact HS1

end Cert.KernelIdeal.HF

end
-- ==== Proof.KI.Frame.lean ====
/-
  The fused recurrent-cell kernel: its frame.
  Per case of the two conditionals (first hidden tile, middle, last) what the body leaves in the new state's window, the
  table's window, the cached first layer and the accumulator, and that the stored pieces cover each; what these hold
  after each grid point, by recursion on the point (a batch tile's first point restarts both scratch buffers, the others
  continue from the point before); the proof data of the launch; the body's obligation at every point; the run of @main;
  and the frame claim: the program terminates without fault and leaves its argument arrays as launched.
-/
import proofs.«145547_j6897717478082_2_alg».proof.Proof.KI.RunLast

set_option maxRecDepth 16384

noncomputable section

namespace Cert.KernelIdeal.HF

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the first hidden tile the pieces stored into the new state's window tile it, so they cover it. -/
theorem cover0_first_10 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : cond0_1 i) (hc2 : ¬cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (y : S128x256.Idx) :
    ∃ pc ∈ (kernelRun0_first c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9).1, y ∈ pc.1.set :=
  View.cover_of_tiledL (kernelRun0_first c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9).1 S128x256.size (by sl_kernel_rfl) y
/-- What the first hidden tile leaves in the new state's staging buffer: its pieces read back. -/
def out0_first_10 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : cond0_1 i) (hc2 : ¬cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) : Vec F S128x256 .f32 :=
  VO0_10.read (Elt F) (VO0_10.writes (Elt F) VO0_10.junk (kernelRun0_first c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9).1)
/-- At the first hidden tile nothing is stored into the table's window (idle there, and not written back): a placeholder that
    nothing consults. -/
def out0_first_11 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : cond0_1 i) (hc2 : ¬cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) : Vec F S128x4096 .f32 :=
  VO0_11.read (Elt F) (VO0_11.writes (Elt F) VO0_11.junk [])
/-- At the first hidden tile the pieces stored into the cached first layer tile it, so they cover it. -/
theorem scover0_first_0 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : cond0_1 i) (hc2 : ¬cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (y : S128x2048.Idx) :
    ∃ pc ∈ (kernelRun0_first c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9).2.1, y ∈ pc.1.set :=
  View.cover_of_tiledL (kernelRun0_first c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9).2.1 S128x2048.size (by sl_kernel_rfl) y
/-- What the first hidden tile leaves in the cached first layer: its pieces read back. -/
def sout0_first_0 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : cond0_1 i) (hc2 : ¬cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) : Vec F S128x2048 .bf16 :=
  VS0_0.read (Elt F) (VS0_0.writes (Elt F) VS0_0.junk (kernelRun0_first c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9).2.1)
/-- At the first hidden tile the pieces stored into the accumulator tile it, so they cover it. -/
theorem scover0_first_1 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : cond0_1 i) (hc2 : ¬cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (y : S128x4096.Idx) :
    ∃ pc ∈ (kernelRun0_first c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9).2.2.1, y ∈ pc.1.set :=
  View.cover_of_tiledL (kernelRun0_first c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9).2.2.1 S128x4096.size (by sl_kernel_rfl) y
/-- What the first hidden tile leaves in the accumulator: its pieces read back. -/
def sout0_first_1 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : cond0_1 i) (hc2 : ¬cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) : Vec F S128x4096 .f32 :=
  VS0_1.read (Elt F) (VS0_1.writes (Elt F) VS0_1.junk (kernelRun0_first c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9).2.2.1)

/-- At a middle hidden tile the pieces stored into the new state's window tile it, so they cover it. -/
theorem cover0_mid_10 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : ¬cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) (y : S128x256.Idx) :
    ∃ pc ∈ (kernelRun0_mid c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).1, y ∈ pc.1.set :=
  View.cover_of_tiledL (kernelRun0_mid c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).1 S128x256.size (by sl_kernel_rfl) y
/-- What a middle hidden tile leaves in the new state's staging buffer: its pieces read back. -/
def out0_mid_10 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : ¬cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) : Vec F S128x256 .f32 :=
  VO0_10.read (Elt F) (VO0_10.writes (Elt F) VO0_10.junk (kernelRun0_mid c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).1)
/-- At a middle hidden tile nothing is stored into the table's window (idle there, and not written back): a placeholder that
    nothing consults. -/
def out0_mid_11 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : ¬cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) : Vec F S128x4096 .f32 :=
  VO0_11.read (Elt F) (VO0_11.writes (Elt F) VO0_11.junk [])
/-- At a middle hidden tile the cached first layer is only read: it stays as the point before left it. -/
def sout0_mid_0 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : ¬cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) : Vec F S128x2048 .bf16 := xs0
/-- At a middle hidden tile the pieces stored into the accumulator tile it, so they cover it. -/
theorem scover0_mid_1 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : ¬cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) (y : S128x4096.Idx) :
    ∃ pc ∈ (kernelRun0_mid c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).2.1, y ∈ pc.1.set :=
  View.cover_of_tiledL (kernelRun0_mid c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).2.1 S128x4096.size (by sl_kernel_rfl) y
/-- What a middle hidden tile leaves in the accumulator: its pieces read back. -/
def sout0_mid_1 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : ¬cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) : Vec F S128x4096 .f32 :=
  VS0_1.read (Elt F) (VS0_1.writes (Elt F) VS0_1.junk (kernelRun0_mid c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).2.1)

/-- At the last hidden tile the pieces stored into the new state's window tile it, so they cover it. -/
theorem cover0_last_10 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) (y : S128x256.Idx) :
    ∃ pc ∈ (kernelRun0_last c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).1, y ∈ pc.1.set :=
  View.cover_of_tiledL (kernelRun0_last c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).1 S128x256.size (by sl_kernel_rfl) y
/-- What the last hidden tile leaves in the new state's staging buffer: its pieces read back. -/
def out0_last_10 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) : Vec F S128x256 .f32 :=
  VO0_10.read (Elt F) (VO0_10.writes (Elt F) VO0_10.junk (kernelRun0_last c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).1)
/-- At the last hidden tile the pieces stored into the table's window tile it, so they cover it. -/
theorem cover0_last_11 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) (y : S128x4096.Idx) :
    ∃ pc ∈ (kernelRun0_last c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).2.1, y ∈ pc.1.set :=
  View.cover_of_tiledL (kernelRun0_last c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).2.1 S128x4096.size (by sl_kernel_rfl) y
/-- What the last hidden tile leaves in the table's staging buffer: its pieces read back. -/
def out0_last_11 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) : Vec F S128x4096 .f32 :=
  VO0_11.read (Elt F) (VO0_11.writes (Elt F) VO0_11.junk (kernelRun0_last c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).2.1)
/-- At the last hidden tile the cached first layer is only read: it stays as the point before left it. -/
def sout0_last_0 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) : Vec F S128x2048 .bf16 := xs0
/-- At the last hidden tile the pieces stored into the accumulator tile it, so they cover it. -/
theorem scover0_last_1 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) (y : S128x4096.Idx) :
    ∃ pc ∈ (kernelRun0_last c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).2.2.1, y ∈ pc.1.set :=
  View.cover_of_tiledL (kernelRun0_last c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).2.2.1 S128x4096.size (by sl_kernel_rfl) y
/-- What the last hidden tile leaves in the accumulator: its pieces read back. -/
def sout0_last_1 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : cond0_2 i)
    (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) : Vec F S128x4096 .f32 :=
  VS0_1.read (Elt F) (VS0_1.writes (Elt F) VS0_1.junk (kernelRun0_last c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).2.2.1)

/-! ## What the outputs and the two scratch buffers hold after each point -/

/-- THE ACCUMULATION over the grid. After the body at position `n`: the new state's staging buffer, the table's staging
    buffer, the cached first layer and the accumulator (in this order). The closed forms of the two conditionals select the
    case at `n`; a middle or last tile runs over what position `n - 1` left in the two scratch buffers (the first tile of a
    batch tile overwrites both). No point is both a first and a last tile. -/
def outsAt0 (c : Dev nD) : (n : ℕ) → n < cfg0.N → Vec F S128x256 .f32 × Vec F S128x4096 .f32 × Vec F S128x2048 .bf16 × Vec F S128x4096 .f32
  | 0, hn =>
      (out0_first_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩),
       out0_first_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩),
       sout0_first_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩),
       sout0_first_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩))
  | n + 1, hn =>
    if h1 : (n + 1) % 8 = 0 then
      if h2 : (n + 1) % 8 = 7 then
        False.elim (by omega)
      else
        (out0_first_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩),
       out0_first_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩),
       sout0_first_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩),
       sout0_first_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩))
    else
      if h2 : (n + 1) % 8 = 7 then
        (out0_last_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1 (outsAt0 c n (Nat.lt_of_succ_lt hn)).2.2.2,
       out0_last_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1 (outsAt0 c n (Nat.lt_of_succ_lt hn)).2.2.2,
       sout0_last_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1 (outsAt0 c n (Nat.lt_of_succ_lt hn)).2.2.2,
       sout0_last_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1 (outsAt0 c n (Nat.lt_of_succ_lt hn)).2.2.2)
      else
        (out0_mid_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1 (outsAt0 c n (Nat.lt_of_succ_lt hn)).2.2.2,
       out0_mid_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1 (outsAt0 c n (Nat.lt_of_succ_lt hn)).2.2.2,
       sout0_mid_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1 (outsAt0 c n (Nat.lt_of_succ_lt hn)).2.2.2,
       sout0_mid_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1 (outsAt0 c n (Nat.lt_of_succ_lt hn)).2.2.2)

/-- `outsAt0` at a first hidden tile: that case's contents. -/
theorem outsAt0_first (c : Dev nD) (t : Fin cfg0.N) (h1 : t.val % 8 = 0) (h2 : ¬t.val % 8 = 7) :
    outsAt0 m c t.val t.isLt =
      (out0_first_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t),
       out0_first_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t),
       sout0_first_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t),
       sout0_first_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t)) := by
  obtain ⟨n, hn⟩ := t
  cases n with
  | zero => exact rfl
  | succ n => exact (dif_pos h1).trans ((dif_neg h2).trans rfl)

/-- `outsAt0` at a middle hidden tile: that case's contents, over what the point before left. -/
theorem outsAt0_mid (c : Dev nD) (t : Fin cfg0.N) (h1 : ¬t.val % 8 = 0) (h2 : ¬t.val % 8 = 7) :
    outsAt0 m c t.val t.isLt =
      (out0_mid_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2,
       out0_mid_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2,
       sout0_mid_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2,
       sout0_mid_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h1); exact absurd (Nat.zero_mod _) h1)
  | succ n => exact (dif_neg h1).trans ((dif_neg h2).trans rfl)

/-- `outsAt0` at a last hidden tile: that case's contents, over what the point before left. -/
theorem outsAt0_last (c : Dev nD) (t : Fin cfg0.N) (h1 : ¬t.val % 8 = 0) (h2 : t.val % 8 = 7) :
    outsAt0 m c t.val t.isLt =
      (out0_last_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2,
       out0_last_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2,
       sout0_last_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2,
       sout0_last_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h1); exact absurd (Nat.zero_mod _) h1)
  | succ n => exact (dif_neg h1).trans ((dif_pos h2).trans rfl)

/-- The invariant between points: before the first point what the launch hands over (both scratch buffers at anything);
    afterwards the cached first layer and the accumulator at what the point before left, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The proof data of the launch -/

/-- On core `c`: the arrays as the launch finds them; after the body at point `t` each input's buffer at its block, the
    new state's at `outsAt0`'s first component, the table's at its second; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
    | ⟨11, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
/-- After the body at `t` the new state's staging buffer holds `outsAt0`'s first component, -/
theorem after0_10 (c : Dev nD) (t : Fin cfg0.N) : (dats m 0 c).after 10 t = (outsAt0 m c t.val t.isLt).1 := by dsimp only [dats]
/-- and the table's staging buffer its second. -/
theorem after0_11 (c : Dev nD) (t : Fin cfg0.N) : (dats m 0 c).after 11 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 16000000 in
/-- The body at any point. The inputs' buffers hold their blocks; the closed forms of the two conditionals say which of the
    three cases the point is in, and that case's run applies: it is handed the two scratch buffers at what the point before
    left (at anything at the very first point, and a first tile forgets what it is handed), and gives them back at this
    point's contents, the stored pieces covering each buffer they were stored into. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  by_cases h1 : t.val % 8 = 0
  · by_cases h2 : t.val % 8 = 7
    · exfalso; omega
    · -- a first hidden tile
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [show (dats m 0 c).leavesExact 9 t = owns (c : Thread nD τ) (ms0_9 t) fullShare ((dats m 0 c).after 9 t) from by
        unfold Dat.leavesExact; rw [liveAt0_9 t], after0_9]
      rw [show (dats m 0 c).leavesExact 10 t = owns (c : Thread nD τ) (ms0_10 t) fullShare ((dats m 0 c).after 10 t) from by
        unfold Dat.leavesExact; rw [liveAt0_10 t], after0_10]
      rw [Dat.leavesExact_idle (dats m 0 c) 11 t (idleAt0_11 t (fun h => h2 ((hcond0_2 t).mp h))) (noFlush0_11 t (fun h => h2 ((hcond0_2 t).mp h)))]
      rw [outsAt0_first m c t h1 h2]
      unfold out0_first_10 sout0_first_0 sout0_first_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_first c (grid0.coords t) _ _ _ _ _ _ _ _ _ _ _ _ _ _ _ _ _ _ _ _ _ _ _ _ _ _ _ _ ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexact H11
        isplitl [HS0]; · iexact HS0
        isplitl [HS1]; · iexact HS1
        iintro ⟨H0, H1, H2, H3, H4, H5, H6, H7, H8, H9, ⟨%e10, H10⟩, H11, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_first_0 c _ _ _ _ _ _ _ _ _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_first_1 c _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (cover0_first_10 c _ _ _ _ _ _ _ _ _ _ _ _ _ _ _ _ _ _ _ _ _ _ _ _ _ _ _ _ _ _ _ _ _ _ _ _ _ _ _ _ _)
        iexists _; iexact H11
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_first c (grid0.coords t) _ _ _ _ _ _ _ _ _ _ _ _ _ _ _ _ _ _ _ _ _ _ _ _ _ _ _ _ ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexact H11
        isplitl [HS0]; · iexists _; iexact HS0
        isplitl [HS1]; · iexists _; iexact HS1
        iintro ⟨H0, H1, H2, H3, H4, H5, H6, H7, H8, H9, ⟨%e10, H10⟩, H11, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_first_0 c _ _ _ _ _ _ _ _ _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_first_1 c _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (cover0_first_10 c _ _ _ _ _ _ _ _ _ _ _ _ _ _ _ _ _ _ _ _ _ _ _ _ _ _ _ _ _ _ _ _ _ _ _ _ _ _ _ _ _)
        iexists _; iexact H11

  · by_cases h2 : t.val % 8 = 7
    · -- the last hidden tile
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [show (dats m 0 c).leavesExact 9 t = owns (c : Thread nD τ) (ms0_9 t) fullShare ((dats m 0 c).after 9 t) from by
        unfold Dat.leavesExact; rw [liveAt0_9 t], after0_9]
      rw [show (dats m 0 c).leavesExact 10 t = owns (c : Thread nD τ) (ms0_10 t) fullShare ((dats m 0 c).after 10 t) from by
        unfold Dat.leavesExact; rw [liveAt0_10 t], after0_10]
      rw [show (dats m 0 c).leavesExact 11 t = owns (c : Thread nD τ) (ms0_11 t) fullShare ((dats m 0 c).after 11 t) from by
        unfold Dat.leavesExact; rw [liveAt0_11 t ((hcond0_2 t).mpr h2)], after0_11]
      rw [outsAt0_last m c t h1 h2]
      unfold out0_last_10 out0_last_11 sout0_last_0 sout0_last_1; (try dsimp only)
      have hz : t.val ≠ 0 := fun e => h1 (by rw [e])
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_last c (grid0.coords t) _ _ _ _ _ _ _ _ _ _ _ _ _ _ _ _ _ _ _ _ _ _ _ _ _ _ _ _ (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [HS0]; · iexact HS0
        isplitl [HS1]; · iexact HS1
        iintro ⟨H0, H1, H2, H3, H4, H5, H6, H7, H8, H9, ⟨%e10, H10⟩, ⟨%e11, H11⟩, HS0, ⟨%es1, HS1⟩⟩
        isplitl [HS0 HS1 Hg]
        · isplitl [HS0 HS1]
          · isplitl [HS0]
            · iexact HS0
            · unfold owns; iexists _; isplitr
              swap; · iexact HS1
              ipureintro; exact View.read_writes_of_cover _ _ _ _ _ (scover0_last_1 c _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (cover0_last_10 c _ _ _ _ _ _ _ _ _ _ _ _ _ _ _ _ _ _ _ _ _ _ _ _ _ _ _ _ _ _ _ _ _ _ _ _ _ _ _ _ _ _ _)
        · unfold owns; iexists _; isplitr
          swap; · iexact H11
          ipureintro; exact View.read_writes_of_cover _ _ _ _ _ (cover0_last_11 c _ _ _ _ _ _ _ _ _ _ _ _ _ _ _ _ _ _ _ _ _ _ _ _ _ _ _ _ _ _ _ _ _ _ _ _ _ _ _ _ _ _ _)

    · -- a middle hidden tile
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [show (dats m 0 c).leavesExact 9 t = owns (c : Thread nD τ) (ms0_9 t) fullShare ((dats m 0 c).after 9 t) from by
        unfold Dat.leavesExact; rw [liveAt0_9 t], after0_9]
      rw [show (dats m 0 c).leavesExact 10 t = owns (c : Thread nD τ) (ms0_10 t) fullShare ((dats m 0 c).after 10 t) from by
        unfold Dat.leavesExact; rw [liveAt0_10 t], after0_10]
      rw [Dat.leavesExact_idle (dats m 0 c) 11 t (idleAt0_11 t (fun h => h2 ((hcond0_2 t).mp h))) (noFlush0_11 t (fun h => h2 ((hcond0_2 t).mp h)))]
      rw [outsAt0_mid m c t h1 h2]
      unfold out0_mid_10 sout0_mid_0 sout0_mid_1; (try dsimp only)
      have hz : t.val ≠ 0 := fun e => h1 (by rw [e])
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_mid c (grid0.coords t) _ _ _ _ _ _ _ _ _ _ _ _ _ _ _ _ _ _ _ _ _ _ _ _ _ _ _ _ (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) _ _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexact H11
        isplitl [HS0]; · iexact HS0
        isplitl [HS1]; · iexact HS1
        iintro ⟨H0, H1, H2, H3, H4, H5, H6, H7, H8, H9, ⟨%e10, H10⟩, H11, HS0, ⟨%es1, HS1⟩⟩
        isplitl [HS0 HS1 Hg]
        · isplitl [HS0 HS1]
          · isplitl [HS0]
            · iexact HS0
            · unfold owns; iexists _; isplitr
              swap; · iexact HS1
              ipureintro; exact View.read_writes_of_cover _ _ _ _ _ (scover0_mid_1 c _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (cover0_mid_10 c _ _ _ _ _ _ _ _ _ _ _ _ _ _ _ _ _ _ _ _ _ _ _ _ _ _ _ _ _ _ _ _ _ _ _ _ _ _ _ _ _ _ _)
        iexists _; iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands over is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives back what the launch handed over: the scratch buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- For any values, from any memory with zero counters: every weakly fair execution of @main terminates, and every final
    state has every array of the launch at what the proof data computes and every other unscoped buffer as the host lines
    after the launch leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

/-- THE FRAME: the program runs and its ten argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.HF

end
-- ==== Proof.KI.CaseValues.lean ====
/-
  What each of the body's three cases leaves behind, as the body's own arithmetic of the blocks it was handed.
  At the first hidden tile of a batch tile the first layer is computed and cached, the accumulator restarts from zero,
  and the tile of the new hidden state is stored; at the later tiles the cached layer and the accumulator are the ones
  the tile before left; at the last tile the accumulator plus the bias is also stored as the second layer's tile.
  The columns of the old hidden state that the body re-reads are those starting at the tile's offset.
-/
import proofs.«145547_j6897717478082_2_alg».proof.Proof.KI.RunFirst
import proofs.«145547_j6897717478082_2_alg».proof.Proof.KI.RunMid
import proofs.«145547_j6897717478082_2_alg».proof.Proof.KI.RunLast
import Idealize.ShloMosaic.Lib.Pipeline.Value

noncomputable section

namespace Cert.KernelIdeal.HF

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := funext fun a => by fin_cases a <;> rfl

/-- The 256 columns of the old hidden state's block that start at the hidden tile's offset. -/
def hidCols (i : grid0.Coords) (x3 : Vec F S128x2048 .f32) : Vec F S128x256 .f32 :=
  View.ld x3 (Rect.unit (k0_off1 i) S128x256.size (k0_off1_inb i))

/-! ## The first hidden tile -/

theorem first_10 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : cond0_1 i) (hc2 : ¬cond0_2 i) (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) :
    VO0_10.read (Elt F) (VO0_10.writes (Elt F) VO0_10.junk (kernelRun0_first c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9).1)
      = k0_pay1 (k0_pay8 (k0_pay4 x0 x1 x2) x3 x4 x5 x6 x7) (k0_pay9 (k0_pay4 x0 x1 x2) x3 x4 x5 x6 x7) (hidCols i x3) k0_pay10 := by
  unfold kernelRun0_first
  dsimp only
  sl_unfold_run_names
  rw [View.read_writes_eq_canon _ _ _ (fun y => View.cover_of_tiledL _ S128x256.size (by sl_kernel_rfl) y)]
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread,
    View.ld_unit_zero (S := S128x1024) hz2, View.ld_unit_zero (S := S2048x1024) hz2, View.ld_unit_zero (S := S1x2048) hz2, View.ld_unit_zero (S := S128x2048) hz2,
    View.ld_unit_zero (S := S768x2048) hz2, View.ld_unit_zero (S := S1x768) hz2, View.ld_unit_zero (S := S4096x256) hz2, View.ld_unit_zero (S := S1x4096) hz2,
    View.ld_unit_zero (S := S128x4096) hz2, View.ld_unit_zero (S := S128x256) hz2,
    View.readCov_unit_zero (S := S128x2048) _ hz2, View.readCov_unit_zero (S := S128x4096) _ hz2]
  rfl

theorem first_s0 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : cond0_1 i) (hc2 : ¬cond0_2 i) (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) :
    VS0_0.read (Elt F) (VS0_0.writes (Elt F) VS0_0.junk (kernelRun0_first c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9).2.1)
      = k0_pay4 x0 x1 x2 := by
  unfold kernelRun0_first
  dsimp only
  sl_unfold_run_names
  rw [View.read_writes_eq_canon _ _ _ (fun y => View.cover_of_tiledL _ S128x2048.size (by sl_kernel_rfl) y)]
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread,
    View.ld_unit_zero (S := S128x1024) hz2, View.ld_unit_zero (S := S2048x1024) hz2, View.ld_unit_zero (S := S1x2048) hz2, View.ld_unit_zero (S := S128x2048) hz2,
    View.ld_unit_zero (S := S768x2048) hz2, View.ld_unit_zero (S := S1x768) hz2, View.ld_unit_zero (S := S4096x256) hz2, View.ld_unit_zero (S := S1x4096) hz2,
    View.ld_unit_zero (S := S128x4096) hz2, View.ld_unit_zero (S := S128x256) hz2,
    View.readCov_unit_zero (S := S128x2048) _ hz2, View.readCov_unit_zero (S := S128x4096) _ hz2]

theorem first_s1 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : cond0_1 i) (hc2 : ¬cond0_2 i) (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) :
    VS0_1.read (Elt F) (VS0_1.writes (Elt F) VS0_1.junk (kernelRun0_first c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9).2.2.1)
      = k0_pay2 (k0_pay8 (k0_pay4 x0 x1 x2) x3 x4 x5 x6 x7) (k0_pay9 (k0_pay4 x0 x1 x2) x3 x4 x5 x6 x7) (hidCols i x3) k0_pay10 x8 k0_pay5 := by
  unfold kernelRun0_first
  dsimp only
  sl_unfold_run_names
  rw [View.read_writes_eq_canon _ _ _ (fun y => View.cover_of_tiledL _ S128x4096.size (by sl_kernel_rfl) y)]
  rw [View.canon_cons_unit_zero (S := S128x4096) hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread,
    View.ld_unit_zero (S := S128x1024) hz2, View.ld_unit_zero (S := S2048x1024) hz2, View.ld_unit_zero (S := S1x2048) hz2, View.ld_unit_zero (S := S128x2048) hz2,
    View.ld_unit_zero (S := S768x2048) hz2, View.ld_unit_zero (S := S1x768) hz2, View.ld_unit_zero (S := S4096x256) hz2, View.ld_unit_zero (S := S1x4096) hz2,
    View.ld_unit_zero (S := S128x4096) hz2, View.ld_unit_zero (S := S128x256) hz2,
    View.readCov_unit_zero (S := S128x2048) _ hz2, View.readCov_unit_zero (S := S128x4096) _ hz2]
  rfl

/-! ## A middle hidden tile -/

theorem mid_10 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : ¬cond0_2 i) (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) :
    VO0_10.read (Elt F) (VO0_10.writes (Elt F) VO0_10.junk (kernelRun0_mid c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).1)
      = k0_pay1 (k0_pay8 xs0 x3 x4 x5 x6 x7) (k0_pay9 xs0 x3 x4 x5 x6 x7) (hidCols i x3) k0_pay10 := by
  unfold kernelRun0_mid
  dsimp only
  sl_unfold_run_names
  rw [View.read_writes_eq_canon _ _ _ (fun y => View.cover_of_tiledL _ S128x256.size (by sl_kernel_rfl) y)]
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread,
    View.ld_unit_zero (S := S128x1024) hz2, View.ld_unit_zero (S := S2048x1024) hz2, View.ld_unit_zero (S := S1x2048) hz2, View.ld_unit_zero (S := S128x2048) hz2,
    View.ld_unit_zero (S := S768x2048) hz2, View.ld_unit_zero (S := S1x768) hz2, View.ld_unit_zero (S := S4096x256) hz2, View.ld_unit_zero (S := S1x4096) hz2,
    View.ld_unit_zero (S := S128x4096) hz2, View.ld_unit_zero (S := S128x256) hz2,
    View.readCov_unit_zero (S := S128x2048) _ hz2, View.readCov_unit_zero (S := S128x4096) _ hz2]
  rfl

theorem mid_s1 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : ¬cond0_2 i) (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) :
    VS0_1.read (Elt F) (VS0_1.writes (Elt F) VS0_1.junk (kernelRun0_mid c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).2.1)
      = k0_pay2 (k0_pay8 xs0 x3 x4 x5 x6 x7) (k0_pay9 xs0 x3 x4 x5 x6 x7) (hidCols i x3) k0_pay10 x8 xs1 := by
  unfold kernelRun0_mid
  dsimp only
  sl_unfold_run_names
  rw [View.read_writes_eq_canon _ _ _ (fun y => View.cover_of_tiledL _ S128x4096.size (by sl_kernel_rfl) y)]
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread,
    View.ld_unit_zero (S := S128x1024) hz2, View.ld_unit_zero (S := S2048x1024) hz2, View.ld_unit_zero (S := S1x2048) hz2, View.ld_unit_zero (S := S128x2048) hz2,
    View.ld_unit_zero (S := S768x2048) hz2, View.ld_unit_zero (S := S1x768) hz2, View.ld_unit_zero (S := S4096x256) hz2, View.ld_unit_zero (S := S1x4096) hz2,
    View.ld_unit_zero (S := S128x4096) hz2, View.ld_unit_zero (S := S128x256) hz2,
    View.readCov_unit_zero (S := S128x2048) _ hz2, View.readCov_unit_zero (S := S128x4096) _ hz2]
  rfl

/-! ## The last hidden tile -/

theorem last_10 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : cond0_2 i) (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) :
    VO0_10.read (Elt F) (VO0_10.writes (Elt F) VO0_10.junk (kernelRun0_last c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).1)
      = k0_pay1 (k0_pay8 xs0 x3 x4 x5 x6 x7) (k0_pay9 xs0 x3 x4 x5 x6 x7) (hidCols i x3) k0_pay10 := by
  unfold kernelRun0_last
  dsimp only
  sl_unfold_run_names
  rw [View.read_writes_eq_canon _ _ _ (fun y => View.cover_of_tiledL _ S128x256.size (by sl_kernel_rfl) y)]
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread,
    View.ld_unit_zero (S := S128x1024) hz2, View.ld_unit_zero (S := S2048x1024) hz2, View.ld_unit_zero (S := S1x2048) hz2, View.ld_unit_zero (S := S128x2048) hz2,
    View.ld_unit_zero (S := S768x2048) hz2, View.ld_unit_zero (S := S1x768) hz2, View.ld_unit_zero (S := S4096x256) hz2, View.ld_unit_zero (S := S1x4096) hz2,
    View.ld_unit_zero (S := S128x4096) hz2, View.ld_unit_zero (S := S128x256) hz2,
    View.readCov_unit_zero (S := S128x2048) _ hz2, View.readCov_unit_zero (S := S128x4096) _ hz2]
  rfl

theorem last_11 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : cond0_2 i) (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) :
    VO0_11.read (Elt F) (VO0_11.writes (Elt F) VO0_11.junk (kernelRun0_last c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).2.1)
      = k0_pay3 (k0_pay2 (k0_pay8 xs0 x3 x4 x5 x6 x7) (k0_pay9 xs0 x3 x4 x5 x6 x7) (hidCols i x3) k0_pay10 x8 xs1) x9 := by
  unfold kernelRun0_last
  dsimp only
  sl_unfold_run_names
  rw [View.read_writes_eq_canon _ _ _ (fun y => View.cover_of_tiledL _ S128x4096.size (by sl_kernel_rfl) y)]
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread,
    View.ld_unit_zero (S := S128x1024) hz2, View.ld_unit_zero (S := S2048x1024) hz2, View.ld_unit_zero (S := S1x2048) hz2, View.ld_unit_zero (S := S128x2048) hz2,
    View.ld_unit_zero (S := S768x2048) hz2, View.ld_unit_zero (S := S1x768) hz2, View.ld_unit_zero (S := S4096x256) hz2, View.ld_unit_zero (S := S1x4096) hz2,
    View.ld_unit_zero (S := S128x4096) hz2, View.ld_unit_zero (S := S128x256) hz2,
    View.readCov_unit_zero (S := S128x2048) _ hz2, View.readCov_unit_zero (S := S128x4096) _ hz2]
  rfl

theorem last_s1 (c : Dev nD) (i : grid0.Coords) (arg2 : Memref sig .tc .vmem S128x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S128x2048 .f32) (harg5 : arg5.IsWhole) (arg6 : Memref sig .tc .vmem S768x2048 .bf16) (harg6 : arg6.IsWhole) (arg7 : Memref sig .tc .vmem S768x2048 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S4096x256 .bf16) (harg10 : arg10.IsWhole) (arg11 : Memref sig .tc .vmem S1x4096 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x2048 .bf16) (harg14 : arg14.IsWhole) (arg15 : Memref sig .tc .vmem S128x4096 .f32) (harg15 : arg15.IsWhole) (hc1 : ¬cond0_1 i) (hc2 : cond0_2 i) (x0 : Vec F S128x1024 .bf16) (x1 : Vec F S2048x1024 .bf16) (x2 : Vec F S1x2048 .f32) (x3 : Vec F S128x2048 .f32) (x4 : Vec F S768x2048 .bf16) (x5 : Vec F S768x2048 .bf16) (x6 : Vec F S1x768 .f32) (x7 : Vec F S1x768 .f32) (x8 : Vec F S4096x256 .bf16) (x9 : Vec F S1x4096 .f32) (xs0 : Vec F S128x2048 .bf16) (xs1 : Vec F S128x4096 .f32) :
    VS0_1.read (Elt F) (VS0_1.writes (Elt F) VS0_1.junk (kernelRun0_last c i arg2 harg2 arg3 harg3 arg4 harg4 arg5 harg5 arg6 harg6 arg7 harg7 arg8 harg8 arg9 harg9 arg10 harg10 arg11 harg11 arg12 harg12 arg13 harg13 arg14 harg14 arg15 harg15 hc1 hc2 x0 x1 x2 x3 x4 x5 x6 x7 x8 x9 xs0 xs1).2.2.1)
      = k0_pay2 (k0_pay8 xs0 x3 x4 x5 x6 x7) (k0_pay9 xs0 x3 x4 x5 x6 x7) (hidCols i x3) k0_pay10 x8 xs1 := by
  unfold kernelRun0_last
  dsimp only
  sl_unfold_run_names
  rw [View.read_writes_eq_canon _ _ _ (fun y => View.cover_of_tiledL _ S128x4096.size (by sl_kernel_rfl) y)]
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread,
    View.ld_unit_zero (S := S128x1024) hz2, View.ld_unit_zero (S := S2048x1024) hz2, View.ld_unit_zero (S := S1x2048) hz2, View.ld_unit_zero (S := S128x2048) hz2,
    View.ld_unit_zero (S := S768x2048) hz2, View.ld_unit_zero (S := S1x768) hz2, View.ld_unit_zero (S := S4096x256) hz2, View.ld_unit_zero (S := S1x4096) hz2,
    View.ld_unit_zero (S := S128x4096) hz2, View.ld_unit_zero (S := S128x256) hz2,
    View.readCov_unit_zero (S := S128x2048) _ hz2, View.readCov_unit_zero (S := S128x4096) _ hz2]
  rfl

end Cert.KernelIdeal.HF

end
-- ==== Proof.Spec.lean ====
/-
  The result of the network as ONE function of its ten argument arrays, index by index, on the extended reals:
  a dense layer with ReLU, a GRU cell, a second dense layer, and a two-headed decode of its 4096 outputs by maxima.
  Both programs are shown to compute these functions; nothing here mentions a program.

    x[b,h]   = max (Σ_k inp[b,k]·W1[h,k] + b1[h]) 0                                   (k < 1024)
    gi[b,g]  = Σ_k x[b,k]·Wih[g,k] + bih[g],   gh[b,g] = Σ_k hid[b,k]·Whh[g,k] + bhh[g]   (k < 2048, g < 6144)
    r = σ(gi[b,h] + gh[b,h]),  z = σ(gi[b,2048+h] + gh[b,2048+h]),  n = tanh(gi[b,4096+h] + r·gh[b,4096+h])
    hnew[b,h] = (1 − z)·n + z·hid[b,h]
    q[b,a]   = Σ_k hnew[b,k]·W2[a,k] + b2[a]                                           (k < 2048, a < 4096)
    q1[b,i]  = max_{j<64} q[b, i+j],      q2[b,i] = max_{j<64} q[b, (i + 64·j − 1) mod 4096]   (i < 64)
    out[2b,i] = q1[b,i],  out[2b+1,i] = q2[b,i]
-/
import Idealize.ShloMosaic.PureOps.Ideal
import Idealize.ShloMosaic.Lib.ValueIdx

noncomputable section

namespace Cert.Spec

open Idealize.ShloMosaic Idealize.ShloMosaic.ValueIdx

/-- The ten argument arrays, as functions of an index of literal extents. -/
structure Args where
  inp : FVec Ideal ⟨2, ![4096, 1024]⟩ .f32
  hid : FVec Ideal ⟨2, ![4096, 2048]⟩ .f32
  W1  : FVec Ideal ⟨2, ![2048, 1024]⟩ .f32
  b1  : FVec Ideal ⟨1, ![2048]⟩ .f32
  Wih : FVec Ideal ⟨2, ![6144, 2048]⟩ .f32
  Whh : FVec Ideal ⟨2, ![6144, 2048]⟩ .f32
  bih : FVec Ideal ⟨1, ![6144]⟩ .f32
  bhh : FVec Ideal ⟨1, ![6144]⟩ .f32
  W2  : FVec Ideal ⟨2, ![4096, 2048]⟩ .f32
  b2  : FVec Ideal ⟨1, ![4096]⟩ .f32

variable (A : Args)

/-- The first dense layer followed by ReLU, at batch row `b` and hidden unit `h`. The zero of the maximum is kept as
    the float word both programs print. -/
def x (b : Fin 4096) (h : Fin 2048) : EReal :=
  max ((∑ k : Fin 1024, A.inp (ix2 b k) * A.W1 (ix2 h k)) + A.b1 (ix1 h)) (Ideal.ofBits .f32 0x00000000#32)

/-- The input-side pre-activation of gate row `g` (the three gates are the three consecutive runs of 2048 rows). -/
def gi (b : Fin 4096) (g : Fin 6144) : EReal :=
  (∑ k : Fin 2048, x A b k * A.Wih (ix2 g k)) + A.bih (ix1 g)

/-- The hidden-side pre-activation of gate row `g`. -/
def gh (b : Fin 4096) (g : Fin 6144) : EReal :=
  (∑ k : Fin 2048, A.hid (ix2 b k) * A.Whh (ix2 g k)) + A.bhh (ix1 g)

/-- Row `h` of gate number `s` (0 reset, 1 update, 2 candidate) among the 6144 gate rows. -/
def gateRow (s : Fin 3) (h : Fin 2048) : Fin 6144 := ⟨s.val * 2048 + h.val, by omega⟩

/-- The reset gate. -/
def r (b : Fin 4096) (h : Fin 2048) : EReal := Ideal.logistic (gi A b (gateRow 0 h) + gh A b (gateRow 0 h))
/-- The update gate. -/
def z (b : Fin 4096) (h : Fin 2048) : EReal := Ideal.logistic (gi A b (gateRow 1 h) + gh A b (gateRow 1 h))
/-- The candidate state. -/
def n (b : Fin 4096) (h : Fin 2048) : EReal := Ideal.tanh (gi A b (gateRow 2 h) + r A b h * gh A b (gateRow 2 h))

/-- The new hidden state. The one is kept as the float word both programs print. -/
def hnew (b : Fin 4096) (h : Fin 2048) : EReal :=
  (Ideal.ofBits .f32 0x3F800000#32 - z A b h) * n A b h + z A b h * A.hid (ix2 b h)

/-- The second dense layer over the new hidden state. -/
def q (b : Fin 4096) (a : Fin 4096) : EReal :=
  (∑ k : Fin 2048, hnew A b k * A.W2 (ix2 a k)) + A.b2 (ix1 a)

/-- First head: the maximum of 64 consecutive entries starting at `i`. -/
def q1 (qq : Fin 4096 → EReal) (i : Fin 64) : EReal :=
  Finset.univ.sup fun j : Fin 64 => qq ⟨i.val + j.val, by omega⟩

/-- Second head: the maximum over the 64 entries `i + 64·j − 1` taken modulo 4096. -/
def q2 (qq : Fin 4096 → EReal) (i : Fin 64) : EReal :=
  Finset.univ.sup fun j : Fin 64 => qq ⟨(i.val + 64 * j.val + 4095) % 4096, Nat.mod_lt _ (by norm_num)⟩

/-- The decode at output row `r` (row `2b` is the first head of batch row `b`, row `2b + 1` the second) and column `i`. -/
def decodeAt (Q : FVec Ideal ⟨2, ![4096, 4096]⟩ .f32) (r : Fin 8192) (i : Fin 64) : EReal :=
  if r.val % 2 = 0
  then q1 (fun a => Q (ix2 (⟨r.val / 2, by omega⟩ : Fin 4096) a)) i
  else q2 (fun a => Q (ix2 (⟨r.val / 2, by omega⟩ : Fin 4096) a)) i

/-- The decode of a whole [4096, 4096] array: the two heads interleaved row by row. -/
def decode (Q : FVec Ideal ⟨2, ![4096, 4096]⟩ .f32) : FVec Ideal ⟨2, ![8192, 64]⟩ .f32 := fun j =>
  decodeAt Q (j 0) (j 1)

/-- The second result: the new hidden state as an array. -/
def H : FVec Ideal ⟨2, ![4096, 2048]⟩ .f32 := fun j => hnew A (j 0) (j 1)

/-- The second dense layer's output as an array. -/
def Q : FVec Ideal ⟨2, ![4096, 4096]⟩ .f32 := fun j => q A (j 0) (j 1)

/-- The first result: the decode of the second dense layer's output. -/
def OUT : FVec Ideal ⟨2, ![8192, 64]⟩ .f32 := decode (Q A)

end Cert.Spec

end
-- ==== Proof.KI.PackRow.lean ====
/-
  The wrapper re-orders the 6144 gate rows (three runs of 2048: reset, update, candidate) into 8 blocks of 768 rows,
  block j holding rows [256·j, 256·j + 256) of each gate in turn. Row r = 768·j + 256·s + c of the re-ordered matrix
  is row 2048·s + 256·j + c of the argument.
-/
import proofs.«145547_j6897717478082_2_alg».proof.Proof.Spec

namespace Cert.KernelIdeal.HostPre

/-- Which argument row the re-ordered matrix holds at row `r`. -/
def packRow (r : Fin 6144) : Fin 6144 :=
  ⟨(r.val % 768 / 256) * 2048 + (r.val / 768) * 256 + r.val % 256, by omega⟩

/-- Block `j`, gate `s`, column `c`: the row of gate `s` for hidden unit `256·j + c`. -/
theorem packRow_block (j : Fin 8) (s : Fin 3) (c : Fin 256) (h : 768 * j.val + 256 * s.val + c.val < 6144) :
    packRow ⟨768 * j.val + 256 * s.val + c.val, h⟩ = Cert.Spec.gateRow s ⟨256 * j.val + c.val, by omega⟩ := by
  apply Fin.ext
  simp only [packRow, Cert.Spec.gateRow]
  have hs := s.isLt; have hc := c.isLt; have hj := j.isLt
  omega

end Cert.KernelIdeal.HostPre
-- ==== Proof.KI.PackRead.lean ====
/-
  The re-ordering of the gate rows, read at an index.

  The host program cuts a [6144, ·] array into its three runs of 2048 rows (reset, update, candidate),
  writes each run as 8 blocks of 256 rows, puts the three runs side by side on a new axis of
  length 3 and flattens again: row r = 768·j + 256·s + c of the result is block j, run s, row c,
  that is row 2048·s + 256·j + c of the array it started from.  Each step reads its operand at ONE
  index; the steps are composed here for a matrix (rows of 2048 entries) and for a vector (written
  as one row), over any element type.
-/
import Idealize.ShloMosaic.Lib.ValueLayout
import Idealize.ShloMosaic.Lib.StableHlo.Run
import proofs.«145547_j6897717478082_2_alg».proof.Proof.KI.PackRow

noncomputable section

namespace Cert.KernelIdeal.HostPre

open Idealize.ShloMosaic Idealize.ShloMosaic.ValueIdx

/-! ## A three-operand operation's result, with each operand's contents at its own reference -/

section Nary3
variable {τ : Topo} {sig : RefSig} {Val : EltTy → Type} {x a b y : Ref sig .tc}

/-- The result of a three-operand host operation reads its operands' contents one by one. -/
theorem nary3_result
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- The same, stated for a rewriting pass that does not index the result reference. -/
theorem nary3_result'
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Nary3

variable {α : Type}

/-! ## The matrix: [6144, 2048] -/

theorem cat4_0 (Y0 Y1 Y2 : (⟨4, ![8, 1, 256, 2048]⟩ : Shape).Idx → α) (hcat : Shape.Concatenates [(⟨4, ![8, 1, 256, 2048]⟩ : Shape), (⟨4, ![8, 1, 256, 2048]⟩ : Shape), (⟨4, ![8, 1, 256, 2048]⟩ : Shape)] (⟨4, ![8, 3, 256, 2048]⟩ : Shape) 1)
    (j : Fin 8) (c : Fin 256) (k : Fin 2048) :
    concatenate (⟨4, ![8, 3, 256, 2048]⟩ : Shape) 1 [⟨(⟨4, ![8, 1, 256, 2048]⟩ : Shape), Y0⟩, ⟨(⟨4, ![8, 1, 256, 2048]⟩ : Shape), Y1⟩, ⟨(⟨4, ![8, 1, 256, 2048]⟩ : Shape), Y2⟩] hcat (ix4 j (0 : Fin 3) c k) = Y0 (ix4 j (0 : Fin 1) c k) :=
  concatenate_apply_piece (1 : Fin (⟨4, ![8, 3, 256, 2048]⟩ : Shape).rank) [⟨(⟨4, ![8, 1, 256, 2048]⟩ : Shape), Y0⟩, ⟨(⟨4, ![8, 1, 256, 2048]⟩ : Shape), Y1⟩, ⟨(⟨4, ![8, 1, 256, 2048]⟩ : Shape), Y2⟩] hcat (ix4 j (0 : Fin 3) c k) 0 (by show (0 : Nat) < 3; omega) (⟨4, ![8, 1, 256, 2048]⟩ : Shape) Y0 rfl rfl 0 (by first | rfl | decide | simp)
    (ix4 j (0 : Fin 1) c k)
    (fun b => match b with
      | ⟨0, _⟩ => fun _ => rfl
      | ⟨1, _⟩ => fun hne => absurd (Fin.ext rfl) hne
      | ⟨2, _⟩ => fun _ => rfl
      | ⟨3, _⟩ => fun _ => rfl)
    (by first | rfl | decide | simp)

theorem cat4_1 (Y0 Y1 Y2 : (⟨4, ![8, 1, 256, 2048]⟩ : Shape).Idx → α) (hcat : Shape.Concatenates [(⟨4, ![8, 1, 256, 2048]⟩ : Shape), (⟨4, ![8, 1, 256, 2048]⟩ : Shape), (⟨4, ![8, 1, 256, 2048]⟩ : Shape)] (⟨4, ![8, 3, 256, 2048]⟩ : Shape) 1)
    (j : Fin 8) (c : Fin 256) (k : Fin 2048) :
    concatenate (⟨4, ![8, 3, 256, 2048]⟩ : Shape) 1 [⟨(⟨4, ![8, 1, 256, 2048]⟩ : Shape), Y0⟩, ⟨(⟨4, ![8, 1, 256, 2048]⟩ : Shape), Y1⟩, ⟨(⟨4, ![8, 1, 256, 2048]⟩ : Shape), Y2⟩] hcat (ix4 j (1 : Fin 3) c k) = Y1 (ix4 j (0 : Fin 1) c k) :=
  concatenate_apply_piece (1 : Fin (⟨4, ![8, 3, 256, 2048]⟩ : Shape).rank) [⟨(⟨4, ![8, 1, 256, 2048]⟩ : Shape), Y0⟩, ⟨(⟨4, ![8, 1, 256, 2048]⟩ : Shape), Y1⟩, ⟨(⟨4, ![8, 1, 256, 2048]⟩ : Shape), Y2⟩] hcat (ix4 j (1 : Fin 3) c k) 1 (by show (1 : Nat) < 3; omega) (⟨4, ![8, 1, 256, 2048]⟩ : Shape) Y1 rfl rfl 1 (by first | rfl | decide | simp)
    (ix4 j (0 : Fin 1) c k)
    (fun b => match b with
      | ⟨0, _⟩ => fun _ => rfl
      | ⟨1, _⟩ => fun hne => absurd (Fin.ext rfl) hne
      | ⟨2, _⟩ => fun _ => rfl
      | ⟨3, _⟩ => fun _ => rfl)
    (by first | rfl | decide | simp)

theorem cat4_2 (Y0 Y1 Y2 : (⟨4, ![8, 1, 256, 2048]⟩ : Shape).Idx → α) (hcat : Shape.Concatenates [(⟨4, ![8, 1, 256, 2048]⟩ : Shape), (⟨4, ![8, 1, 256, 2048]⟩ : Shape), (⟨4, ![8, 1, 256, 2048]⟩ : Shape)] (⟨4, ![8, 3, 256, 2048]⟩ : Shape) 1)
    (j : Fin 8) (c : Fin 256) (k : Fin 2048) :
    concatenate (⟨4, ![8, 3, 256, 2048]⟩ : Shape) 1 [⟨(⟨4, ![8, 1, 256, 2048]⟩ : Shape), Y0⟩, ⟨(⟨4, ![8, 1, 256, 2048]⟩ : Shape), Y1⟩, ⟨(⟨4, ![8, 1, 256, 2048]⟩ : Shape), Y2⟩] hcat (ix4 j (2 : Fin 3) c k) = Y2 (ix4 j (0 : Fin 1) c k) :=
  concatenate_apply_piece (1 : Fin (⟨4, ![8, 3, 256, 2048]⟩ : Shape).rank) [⟨(⟨4, ![8, 1, 256, 2048]⟩ : Shape), Y0⟩, ⟨(⟨4, ![8, 1, 256, 2048]⟩ : Shape), Y1⟩, ⟨(⟨4, ![8, 1, 256, 2048]⟩ : Shape), Y2⟩] hcat (ix4 j (2 : Fin 3) c k) 2 (by show (2 : Nat) < 3; omega) (⟨4, ![8, 1, 256, 2048]⟩ : Shape) Y2 rfl rfl 2 (by first | rfl | decide | simp)
    (ix4 j (0 : Fin 1) c k)
    (fun b => match b with
      | ⟨0, _⟩ => fun _ => rfl
      | ⟨1, _⟩ => fun hne => absurd (Fin.ext rfl) hne
      | ⟨2, _⟩ => fun _ => rfl
      | ⟨3, _⟩ => fun _ => rfl)
    (by first | rfl | decide | simp)

/-- The new unit axis read away. -/
theorem bcast4 (Z : (⟨3, ![8, 256, 2048]⟩ : Shape).Idx → α) (hb : (⟨3, ![8, 256, 2048]⟩ : Shape).BroadcastsInDim (⟨4, ![8, 1, 256, 2048]⟩ : Shape) ![0, 2, 3])
    (j : Fin 8) (c : Fin 256) (k : Fin 2048) :
    broadcastInDim (⟨4, ![8, 1, 256, 2048]⟩ : Shape) ![0, 2, 3] hb Z (ix4 j (0 : Fin 1) c k) = Z (ix3 j c k) :=
  broadcastInDim_apply _ hb Z _ (ix3 j c k) (fun ax => match ax with
    | ⟨0, _⟩ => by first | rfl | simp
    | ⟨1, _⟩ => by first | rfl | simp
    | ⟨2, _⟩ => by first | rfl | simp)

/-- Block j, row c of a run is its row 256·j + c. -/
theorem cast3 (W : (⟨2, ![2048, 2048]⟩ : Shape).Idx → α) (hc : (⟨2, ![2048, 2048]⟩ : Shape).ShapeCasts (⟨3, ![8, 256, 2048]⟩ : Shape)) (j : Fin 8) (c : Fin 256) (k : Fin 2048) :
    shapeCast (⟨3, ![8, 256, 2048]⟩ : Shape) W hc (ix3 j c k) = W (ix2 (⟨256 * j.val + c.val, by omega⟩ : Fin 2048) k) :=
  shapeCast_apply W hc _ _ (by
    rw [Shape.rowMajor_val_two, Shape.rowMajor_val_three]
    show (256 * j.val + c.val) * 2048 + k.val = (j.val * 256 + c.val) * 2048 + k.val
    omega)

/-- **The re-ordered matrix at (r, k)** is the matrix it was cut from at (packRow r, k). -/
theorem packMat_apply (X : (⟨2, ![6144, 2048]⟩ : Shape).Idx → α)
    (h0 : (⟨2, ![6144, 2048]⟩ : Shape).Slices ![0, 0] (⟨2, ![2048, 2048]⟩ : Shape)) (h1 : (⟨2, ![6144, 2048]⟩ : Shape).Slices ![2048, 0] (⟨2, ![2048, 2048]⟩ : Shape)) (h2 : (⟨2, ![6144, 2048]⟩ : Shape).Slices ![4096, 0] (⟨2, ![2048, 2048]⟩ : Shape))
    (hc : (⟨2, ![2048, 2048]⟩ : Shape).ShapeCasts (⟨3, ![8, 256, 2048]⟩ : Shape)) (hb : (⟨3, ![8, 256, 2048]⟩ : Shape).BroadcastsInDim (⟨4, ![8, 1, 256, 2048]⟩ : Shape) ![0, 2, 3])
    (hcat : Shape.Concatenates [(⟨4, ![8, 1, 256, 2048]⟩ : Shape), (⟨4, ![8, 1, 256, 2048]⟩ : Shape), (⟨4, ![8, 1, 256, 2048]⟩ : Shape)] (⟨4, ![8, 3, 256, 2048]⟩ : Shape) 1) (hr : (⟨4, ![8, 3, 256, 2048]⟩ : Shape).ShapeCasts (⟨2, ![6144, 2048]⟩ : Shape))
    (r : Fin 6144) (k : Fin 2048) :
    shapeCast (⟨2, ![6144, 2048]⟩ : Shape) (concatenate (⟨4, ![8, 3, 256, 2048]⟩ : Shape) 1
        [⟨(⟨4, ![8, 1, 256, 2048]⟩ : Shape), broadcastInDim (⟨4, ![8, 1, 256, 2048]⟩ : Shape) ![0, 2, 3] hb (shapeCast (⟨3, ![8, 256, 2048]⟩ : Shape) (extractStridedSlice (⟨2, ![2048, 2048]⟩ : Shape) ![0, 0] X h0) hc)⟩,
         ⟨(⟨4, ![8, 1, 256, 2048]⟩ : Shape), broadcastInDim (⟨4, ![8, 1, 256, 2048]⟩ : Shape) ![0, 2, 3] hb (shapeCast (⟨3, ![8, 256, 2048]⟩ : Shape) (extractStridedSlice (⟨2, ![2048, 2048]⟩ : Shape) ![2048, 0] X h1) hc)⟩,
         ⟨(⟨4, ![8, 1, 256, 2048]⟩ : Shape), broadcastInDim (⟨4, ![8, 1, 256, 2048]⟩ : Shape) ![0, 2, 3] hb (shapeCast (⟨3, ![8, 256, 2048]⟩ : Shape) (extractStridedSlice (⟨2, ![2048, 2048]⟩ : Shape) ![4096, 0] X h2) hc)⟩] hcat) hr (ix2 r k) = X (ix2 (packRow r) k) := by
  have hr' := r.isLt
  have hj : r.val / 768 < 8 := by omega
  have hcc : r.val % 256 < 256 := by omega
  obtain hs | hs | hs : r.val % 768 / 256 = 0 ∨ r.val % 768 / 256 = 1 ∨ r.val % 768 / 256 = 2 := by omega
  · refine (shapeCast_apply _ hr (ix2 r k) (ix4 (⟨r.val / 768, hj⟩ : Fin 8) (0 : Fin 3) (⟨r.val % 256, hcc⟩ : Fin 256) k) ?_).trans ?_
    · rw [Shape.rowMajor_val_four, Shape.rowMajor_val_two]
      show ((r.val / 768 * 3 + 0) * 256 + r.val % 256) * 2048 + k.val = r.val * 2048 + k.val
      omega
    · refine (cat4_0 _ _ _ hcat _ _ _).trans ?_
      refine (bcast4 _ hb _ _ _).trans ?_
      refine (cast3 _ hc _ _ _).trans ?_
      refine (slice2_axis0_apply 0 X h0 _ k (⟨0 + (256 * (r.val / 768) + r.val % 256), by omega⟩ : Fin 6144) rfl).trans ?_
      exact congrArg X (congrArg (fun q => ix2 q k) (Fin.ext (by simp only [packRow]; omega)))
  · refine (shapeCast_apply _ hr (ix2 r k) (ix4 (⟨r.val / 768, hj⟩ : Fin 8) (1 : Fin 3) (⟨r.val % 256, hcc⟩ : Fin 256) k) ?_).trans ?_
    · rw [Shape.rowMajor_val_four, Shape.rowMajor_val_two]
      show ((r.val / 768 * 3 + 1) * 256 + r.val % 256) * 2048 + k.val = r.val * 2048 + k.val
      omega
    · refine (cat4_1 _ _ _ hcat _ _ _).trans ?_
      refine (bcast4 _ hb _ _ _).trans ?_
      refine (cast3 _ hc _ _ _).trans ?_
      refine (slice2_axis0_apply 2048 X h1 _ k (⟨2048 + (256 * (r.val / 768) + r.val % 256), by omega⟩ : Fin 6144) rfl).trans ?_
      exact congrArg X (congrArg (fun q => ix2 q k) (Fin.ext (by simp only [packRow]; omega)))
  · refine (shapeCast_apply _ hr (ix2 r k) (ix4 (⟨r.val / 768, hj⟩ : Fin 8) (2 : Fin 3) (⟨r.val % 256, hcc⟩ : Fin 256) k) ?_).trans ?_
    · rw [Shape.rowMajor_val_four, Shape.rowMajor_val_two]
      show ((r.val / 768 * 3 + 2) * 256 + r.val % 256) * 2048 + k.val = r.val * 2048 + k.val
      omega
    · refine (cat4_2 _ _ _ hcat _ _ _).trans ?_
      refine (bcast4 _ hb _ _ _).trans ?_
      refine (cast3 _ hc _ _ _).trans ?_
      refine (slice2_axis0_apply 4096 X h2 _ k (⟨4096 + (256 * (r.val / 768) + r.val % 256), by omega⟩ : Fin 6144) rfl).trans ?_
      exact congrArg X (congrArg (fun q => ix2 q k) (Fin.ext (by simp only [packRow]; omega)))

/-! ## The vector: [6144], written as one row -/

theorem cat3_0 (Y0 Y1 Y2 : (⟨3, ![8, 1, 256]⟩ : Shape).Idx → α) (hcat : Shape.Concatenates [(⟨3, ![8, 1, 256]⟩ : Shape), (⟨3, ![8, 1, 256]⟩ : Shape), (⟨3, ![8, 1, 256]⟩ : Shape)] (⟨3, ![8, 3, 256]⟩ : Shape) 1)
    (j : Fin 8) (c : Fin 256) :
    concatenate (⟨3, ![8, 3, 256]⟩ : Shape) 1 [⟨(⟨3, ![8, 1, 256]⟩ : Shape), Y0⟩, ⟨(⟨3, ![8, 1, 256]⟩ : Shape), Y1⟩, ⟨(⟨3, ![8, 1, 256]⟩ : Shape), Y2⟩] hcat (ix3 j (0 : Fin 3) c) = Y0 (ix3 j (0 : Fin 1) c) :=
  concatenate_apply_piece (1 : Fin (⟨3, ![8, 3, 256]⟩ : Shape).rank) [⟨(⟨3, ![8, 1, 256]⟩ : Shape), Y0⟩, ⟨(⟨3, ![8, 1, 256]⟩ : Shape), Y1⟩, ⟨(⟨3, ![8, 1, 256]⟩ : Shape), Y2⟩] hcat (ix3 j (0 : Fin 3) c) 0 (by show (0 : Nat) < 3; omega) (⟨3, ![8, 1, 256]⟩ : Shape) Y0 rfl rfl 0 (by first | rfl | decide | simp)
    (ix3 j (0 : Fin 1) c)
    (fun b => match b with
      | ⟨0, _⟩ => fun _ => rfl
      | ⟨1, _⟩ => fun hne => absurd (Fin.ext rfl) hne
      | ⟨2, _⟩ => fun _ => rfl)
    (by first | rfl | decide | simp)

theorem cat3_1 (Y0 Y1 Y2 : (⟨3, ![8, 1, 256]⟩ : Shape).Idx → α) (hcat : Shape.Concatenates [(⟨3, ![8, 1, 256]⟩ : Shape), (⟨3, ![8, 1, 256]⟩ : Shape), (⟨3, ![8, 1, 256]⟩ : Shape)] (⟨3, ![8, 3, 256]⟩ : Shape) 1)
    (j : Fin 8) (c : Fin 256) :
    concatenate (⟨3, ![8, 3, 256]⟩ : Shape) 1 [⟨(⟨3, ![8, 1, 256]⟩ : Shape), Y0⟩, ⟨(⟨3, ![8, 1, 256]⟩ : Shape), Y1⟩, ⟨(⟨3, ![8, 1, 256]⟩ : Shape), Y2⟩] hcat (ix3 j (1 : Fin 3) c) = Y1 (ix3 j (0 : Fin 1) c) :=
  concatenate_apply_piece (1 : Fin (⟨3, ![8, 3, 256]⟩ : Shape).rank) [⟨(⟨3, ![8, 1, 256]⟩ : Shape), Y0⟩, ⟨(⟨3, ![8, 1, 256]⟩ : Shape), Y1⟩, ⟨(⟨3, ![8, 1, 256]⟩ : Shape), Y2⟩] hcat (ix3 j (1 : Fin 3) c) 1 (by show (1 : Nat) < 3; omega) (⟨3, ![8, 1, 256]⟩ : Shape) Y1 rfl rfl 1 (by first | rfl | decide | simp)
    (ix3 j (0 : Fin 1) c)
    (fun b => match b with
      | ⟨0, _⟩ => fun _ => rfl
      | ⟨1, _⟩ => fun hne => absurd (Fin.ext rfl) hne
      | ⟨2, _⟩ => fun _ => rfl)
    (by first | rfl | decide | simp)

theorem cat3_2 (Y0 Y1 Y2 : (⟨3, ![8, 1, 256]⟩ : Shape).Idx → α) (hcat : Shape.Concatenates [(⟨3, ![8, 1, 256]⟩ : Shape), (⟨3, ![8, 1, 256]⟩ : Shape), (⟨3, ![8, 1, 256]⟩ : Shape)] (⟨3, ![8, 3, 256]⟩ : Shape) 1)
    (j : Fin 8) (c : Fin 256) :
    concatenate (⟨3, ![8, 3, 256]⟩ : Shape) 1 [⟨(⟨3, ![8, 1, 256]⟩ : Shape), Y0⟩, ⟨(⟨3, ![8, 1, 256]⟩ : Shape), Y1⟩, ⟨(⟨3, ![8, 1, 256]⟩ : Shape), Y2⟩] hcat (ix3 j (2 : Fin 3) c) = Y2 (ix3 j (0 : Fin 1) c) :=
  concatenate_apply_piece (1 : Fin (⟨3, ![8, 3, 256]⟩ : Shape).rank) [⟨(⟨3, ![8, 1, 256]⟩ : Shape), Y0⟩, ⟨(⟨3, ![8, 1, 256]⟩ : Shape), Y1⟩, ⟨(⟨3, ![8, 1, 256]⟩ : Shape), Y2⟩] hcat (ix3 j (2 : Fin 3) c) 2 (by show (2 : Nat) < 3; omega) (⟨3, ![8, 1, 256]⟩ : Shape) Y2 rfl rfl 2 (by first | rfl | decide | simp)
    (ix3 j (0 : Fin 1) c)
    (fun b => match b with
      | ⟨0, _⟩ => fun _ => rfl
      | ⟨1, _⟩ => fun hne => absurd (Fin.ext rfl) hne
      | ⟨2, _⟩ => fun _ => rfl)
    (by first | rfl | decide | simp)

theorem bcast3 (Z : (⟨2, ![8, 256]⟩ : Shape).Idx → α) (hb : (⟨2, ![8, 256]⟩ : Shape).BroadcastsInDim (⟨3, ![8, 1, 256]⟩ : Shape) ![0, 2]) (j : Fin 8) (c : Fin 256) :
    broadcastInDim (⟨3, ![8, 1, 256]⟩ : Shape) ![0, 2] hb Z (ix3 j (0 : Fin 1) c) = Z (ix2 j c) :=
  broadcastInDim_apply _ hb Z _ (ix2 j c) (fun ax => match ax with
    | ⟨0, _⟩ => by first | rfl | simp
    | ⟨1, _⟩ => by first | rfl | simp)

theorem cast2 (W : (⟨1, ![2048]⟩ : Shape).Idx → α) (hc : (⟨1, ![2048]⟩ : Shape).ShapeCasts (⟨2, ![8, 256]⟩ : Shape)) (j : Fin 8) (c : Fin 256) :
    shapeCast (⟨2, ![8, 256]⟩ : Shape) W hc (ix2 j c) = W (ix1 (⟨256 * j.val + c.val, by omega⟩ : Fin 2048)) :=
  shapeCast_apply W hc _ _ (by
    rw [Shape.rowMajor_val_one, Shape.rowMajor_val_two]
    show 256 * j.val + c.val = j.val * 256 + c.val
    omega)

/-- A run of a vector from `o` reads, at `q`, the vector at `o + q`. -/
theorem slice1 (o : Nat) (X : (⟨1, ![6144]⟩ : Shape).Idx → α) (h : (⟨1, ![6144]⟩ : Shape).Slices ![o] (⟨1, ![2048]⟩ : Shape)) (q : Fin 2048) (k : Fin 6144)
    (hk : k.val = o + q.val) : extractStridedSlice (⟨1, ![2048]⟩ : Shape) ![o] X h (ix1 q) = X (ix1 k) :=
  extractStridedSlice_apply _ X h (ix1 q) (ix1 k) (fun ax => match ax with
    | ⟨0, _⟩ => hk)

/-- **The re-ordered vector at r** is the vector it was cut from at packRow r. -/
theorem packVec_apply (X : (⟨1, ![6144]⟩ : Shape).Idx → α)
    (h0 : (⟨1, ![6144]⟩ : Shape).Slices ![0] (⟨1, ![2048]⟩ : Shape)) (h1 : (⟨1, ![6144]⟩ : Shape).Slices ![2048] (⟨1, ![2048]⟩ : Shape)) (h2 : (⟨1, ![6144]⟩ : Shape).Slices ![4096] (⟨1, ![2048]⟩ : Shape))
    (hc : (⟨1, ![2048]⟩ : Shape).ShapeCasts (⟨2, ![8, 256]⟩ : Shape)) (hb : (⟨2, ![8, 256]⟩ : Shape).BroadcastsInDim (⟨3, ![8, 1, 256]⟩ : Shape) ![0, 2])
    (hcat : Shape.Concatenates [(⟨3, ![8, 1, 256]⟩ : Shape), (⟨3, ![8, 1, 256]⟩ : Shape), (⟨3, ![8, 1, 256]⟩ : Shape)] (⟨3, ![8, 3, 256]⟩ : Shape) 1) (hr : (⟨3, ![8, 3, 256]⟩ : Shape).ShapeCasts (⟨2, ![1, 6144]⟩ : Shape))
    (r : Fin 6144) :
    shapeCast (⟨2, ![1, 6144]⟩ : Shape) (concatenate (⟨3, ![8, 3, 256]⟩ : Shape) 1
        [⟨(⟨3, ![8, 1, 256]⟩ : Shape), broadcastInDim (⟨3, ![8, 1, 256]⟩ : Shape) ![0, 2] hb (shapeCast (⟨2, ![8, 256]⟩ : Shape) (extractStridedSlice (⟨1, ![2048]⟩ : Shape) ![0] X h0) hc)⟩,
         ⟨(⟨3, ![8, 1, 256]⟩ : Shape), broadcastInDim (⟨3, ![8, 1, 256]⟩ : Shape) ![0, 2] hb (shapeCast (⟨2, ![8, 256]⟩ : Shape) (extractStridedSlice (⟨1, ![2048]⟩ : Shape) ![2048] X h1) hc)⟩,
         ⟨(⟨3, ![8, 1, 256]⟩ : Shape), broadcastInDim (⟨3, ![8, 1, 256]⟩ : Shape) ![0, 2] hb (shapeCast (⟨2, ![8, 256]⟩ : Shape) (extractStridedSlice (⟨1, ![2048]⟩ : Shape) ![4096] X h2) hc)⟩] hcat) hr (ix2 (0 : Fin 1) r) = X (ix1 (packRow r)) := by
  have hr' := r.isLt
  have hj : r.val / 768 < 8 := by omega
  have hcc : r.val % 256 < 256 := by omega
  obtain hs | hs | hs : r.val % 768 / 256 = 0 ∨ r.val % 768 / 256 = 1 ∨ r.val % 768 / 256 = 2 := by omega
  · refine (shapeCast_apply _ hr (ix2 (0 : Fin 1) r) (ix3 (⟨r.val / 768, hj⟩ : Fin 8) (0 : Fin 3) (⟨r.val % 256, hcc⟩ : Fin 256)) ?_).trans ?_
    · rw [Shape.rowMajor_val_three, Shape.rowMajor_val_two]
      show (r.val / 768 * 3 + 0) * 256 + r.val % 256 = 0 * 6144 + r.val
      omega
    · refine (cat3_0 _ _ _ hcat _ _).trans ?_
      refine (bcast3 _ hb _ _).trans ?_
      refine (cast2 _ hc _ _).trans ?_
      refine (slice1 0 X h0 _ (⟨0 + (256 * (r.val / 768) + r.val % 256), by omega⟩ : Fin 6144) rfl).trans ?_
      exact congrArg X (congrArg (fun q => ix1 q) (Fin.ext (by simp only [packRow]; omega)))
  · refine (shapeCast_apply _ hr (ix2 (0 : Fin 1) r) (ix3 (⟨r.val / 768, hj⟩ : Fin 8) (1 : Fin 3) (⟨r.val % 256, hcc⟩ : Fin 256)) ?_).trans ?_
    · rw [Shape.rowMajor_val_three, Shape.rowMajor_val_two]
      show (r.val / 768 * 3 + 1) * 256 + r.val % 256 = 0 * 6144 + r.val
      omega
    · refine (cat3_1 _ _ _ hcat _ _).trans ?_
      refine (bcast3 _ hb _ _).trans ?_
      refine (cast2 _ hc _ _).trans ?_
      refine (slice1 2048 X h1 _ (⟨2048 + (256 * (r.val / 768) + r.val % 256), by omega⟩ : Fin 6144) rfl).trans ?_
      exact congrArg X (congrArg (fun q => ix1 q) (Fin.ext (by simp only [packRow]; omega)))
  · refine (shapeCast_apply _ hr (ix2 (0 : Fin 1) r) (ix3 (⟨r.val / 768, hj⟩ : Fin 8) (2 : Fin 3) (⟨r.val % 256, hcc⟩ : Fin 256)) ?_).trans ?_
    · rw [Shape.rowMajor_val_three, Shape.rowMajor_val_two]
      show (r.val / 768 * 3 + 2) * 256 + r.val % 256 = 0 * 6144 + r.val
      omega
    · refine (cat3_2 _ _ _ hcat _ _).trans ?_
      refine (bcast3 _ hb _ _).trans ?_
      refine (cast2 _ hc _ _).trans ?_
      refine (slice1 4096 X h2 _ (⟨4096 + (256 * (r.val / 768) + r.val % 256), by omega⟩ : Fin 6144) rfl).trans ?_
      exact congrArg X (congrArg (fun q => ix1 q) (Fin.ext (by simp only [packRow]; omega)))

end Cert.KernelIdeal.HostPre

end
-- ==== Proof.KI.HostPrefix.lean ====
/-
  The host lines before the region, read at an index, at the ideal (extended real) values.

  Before the kernel runs, the program rounds five matrices to bf16 (the identity on ideal values),
  writes three bias vectors as one-row matrices, and re-orders the 6144 gate rows: the argument
  holds them as [reset | update | candidate], each 2048 rows; the kernel wants, for each of the 8
  blocks j of 256 hidden units, the three gates of that block side by side.  Row
  r = 768·j + 256·s + c of the packed matrix is row 2048·s + 256·j + c of the argument.
-/
import proofs.«145547_j6897717478082_2_alg».proof.Proof.Gen.KernelIdeal.Launch
import proofs.«145547_j6897717478082_2_alg».proof.Proof.KI.PackRead
import Idealize.ShloMosaic.Lib.StableHlo.Run
import Idealize.ShloMosaic.Lib.ValueIdx
import Idealize.ShloMosaic.Lib.ValueLayout

noncomputable section

namespace Cert.KernelIdeal.HostPre

open Cert.KernelIdeal Cert.KernelIdeal.Gen Idealize.ShloMosaic Idealize.ShloMosaic.ValueIdx

/-- One rewriting pass over the host lines, read at one reference: each line's result at its own
    reference is its function of its operands' contents, and at any other reference what was there. -/
macro "host_results" : tactic =>
  `(tactic| (simp (disch := decide) only [StableHlo.after_cons, StableHlo.after_nil,
      StableHlo.unary_result', StableHlo.reshape_result', nary3_result',
      StableHlo.unary_result_ne', StableHlo.reshape_result_ne', StableHlo.nary_result_ne']))

variable (μ : Valuation τ sig (Elt Ideal))

/-- The rounded input is the input. -/
theorem pre_v0 : (StableHlo.after (hostOps0 (F := Ideal)) μ (Proc.devRef .tc main_v0) : S4096x1024.Idx → EReal)
    = (μ (Proc.devRef .tc main_arg0) : S4096x1024.Idx → EReal) := by
  dsimp only [hostOps0]
  host_results
  first | done | rfl | (funext i; rfl)

/-- The rounded first-layer weights are the weights. -/
theorem pre_v1 : (StableHlo.after (hostOps0 (F := Ideal)) μ (Proc.devRef .tc main_v1) : S2048x1024.Idx → EReal)
    = (μ (Proc.devRef .tc main_arg2) : S2048x1024.Idx → EReal) := by
  dsimp only [hostOps0]
  host_results
  first | done | rfl | (funext i; rfl)

/-- The rounded output-layer weights are the weights. -/
theorem pre_v49 : (StableHlo.after (hostOps0 (F := Ideal)) μ (Proc.devRef .tc main_v49) : S4096x2048.Idx → EReal)
    = (μ (Proc.devRef .tc main_arg8) : S4096x2048.Idx → EReal) := by
  dsimp only [hostOps0]
  host_results
  first | done | rfl | (funext i; rfl)

/-- The first-layer bias as one row. -/
theorem pre_v2 (h : Fin 2048) : (StableHlo.after (hostOps0 (F := Ideal)) μ (Proc.devRef .tc main_v2) : S1x2048.Idx → EReal) (ix2 0 h)
    = (μ (Proc.devRef .tc main_arg3) : S2048.Idx → EReal) (ix1 h) := by
  dsimp only [hostOps0]
  host_results
  exact shapeCast_a_1a_apply (μ (Proc.devRef .tc main_arg3) : S2048.Idx → EReal) _ 0 h

/-- The output-layer bias as one row. -/
theorem pre_v50 (a : Fin 4096) : (StableHlo.after (hostOps0 (F := Ideal)) μ (Proc.devRef .tc main_v50) : S1x4096.Idx → EReal) (ix2 0 a)
    = (μ (Proc.devRef .tc main_arg9) : S4096.Idx → EReal) (ix1 a) := by
  dsimp only [hostOps0]
  host_results
  exact shapeCast_a_1a_apply (μ (Proc.devRef .tc main_arg9) : S4096.Idx → EReal) _ 0 a

/-- The packed input-side gate weights. -/
theorem pre_v15 (r : Fin 6144) (k : Fin 2048) : (StableHlo.after (hostOps0 (F := Ideal)) μ (Proc.devRef .tc main_v15) : S6144x2048.Idx → EReal) (ix2 r k)
    = (μ (Proc.devRef .tc main_arg4) : S6144x2048.Idx → EReal) (ix2 (packRow r) k) := by
  dsimp only [hostOps0]
  host_results
  exact packMat_apply (α := EReal) (truncf (F := Ideal) .bf16 (μ (Proc.devRef .tc main_arg4) : FVec Ideal S6144x2048 .f32) bitsLt_bf16_f32)
    slices_S6144x2048_S2048x2048_0_0 slices_S6144x2048_S2048x2048_2048_0 slices_S6144x2048_S2048x2048_4096_0
    shapeCasts_S2048x2048_S8x256x2048 bcast_S8x256x2048_S8x1x256x2048_0_2_3
    concatenates_S8x1x256x2048_S8x1x256x2048_S8x1x256x2048_S8x3x256x2048_d1 shapeCasts_S8x3x256x2048_S6144x2048 r k

/-- The packed state-side gate weights. -/
theorem pre_v26 (r : Fin 6144) (k : Fin 2048) : (StableHlo.after (hostOps0 (F := Ideal)) μ (Proc.devRef .tc main_v26) : S6144x2048.Idx → EReal) (ix2 r k)
    = (μ (Proc.devRef .tc main_arg5) : S6144x2048.Idx → EReal) (ix2 (packRow r) k) := by
  dsimp only [hostOps0]
  host_results
  exact packMat_apply (α := EReal) (truncf (F := Ideal) .bf16 (μ (Proc.devRef .tc main_arg5) : FVec Ideal S6144x2048 .f32) bitsLt_bf16_f32)
    slices_S6144x2048_S2048x2048_0_0 slices_S6144x2048_S2048x2048_2048_0 slices_S6144x2048_S2048x2048_4096_0
    shapeCasts_S2048x2048_S8x256x2048 bcast_S8x256x2048_S8x1x256x2048_0_2_3
    concatenates_S8x1x256x2048_S8x1x256x2048_S8x1x256x2048_S8x3x256x2048_d1 shapeCasts_S8x3x256x2048_S6144x2048 r k

/-- The packed input-side gate bias, as one row. -/
theorem pre_v37 (r : Fin 6144) : (StableHlo.after (hostOps0 (F := Ideal)) μ (Proc.devRef .tc main_v37) : S1x6144.Idx → EReal) (ix2 0 r)
    = (μ (Proc.devRef .tc main_arg6) : S6144.Idx → EReal) (ix1 (packRow r)) := by
  dsimp only [hostOps0]
  host_results
  exact packVec_apply (α := EReal) (μ (Proc.devRef .tc main_arg6) : S6144.Idx → EReal)
    slices_S6144_S2048_0 slices_S6144_S2048_2048 slices_S6144_S2048_4096
    shapeCasts_S2048_S8x256 bcast_S8x256_S8x1x256_0_2
    concatenates_S8x1x256_S8x1x256_S8x1x256_S8x3x256_d1 shapeCasts_S8x3x256_S1x6144 r

/-- The packed state-side gate bias, as one row. -/
theorem pre_v48 (r : Fin 6144) : (StableHlo.after (hostOps0 (F := Ideal)) μ (Proc.devRef .tc main_v48) : S1x6144.Idx → EReal) (ix2 0 r)
    = (μ (Proc.devRef .tc main_arg7) : S6144.Idx → EReal) (ix1 (packRow r)) := by
  dsimp only [hostOps0]
  host_results
  exact packVec_apply (α := EReal) (μ (Proc.devRef .tc main_arg7) : S6144.Idx → EReal)
    slices_S6144_S2048_0 slices_S6144_S2048_2048 slices_S6144_S2048_4096
    shapeCasts_S2048_S8x256 bcast_S8x256_S8x1x256_0_2
    concatenates_S8x1x256_S8x1x256_S8x1x256_S8x3x256_d1 shapeCasts_S8x3x256_S1x6144 r

/-- No host line writes an argument. -/
theorem pre_keep (b : Ref sig .tc) (hb : b ∈ [main_arg0, main_arg1, main_arg2, main_arg3, main_arg4, main_arg5, main_arg6, main_arg7, main_arg8, main_arg9]) :
    StableHlo.after (hostOps0 (F := Ideal)) μ (Proc.devRef .tc b) = μ (Proc.devRef .tc b) := by
  simp only [List.mem_cons, List.not_mem_nil, or_false] at hb
  rcases hb with rfl | rfl | rfl | rfl | rfl | rfl | rfl | rfl | rfl | rfl <;>
    (dsimp only [hostOps0]; host_results)

end Cert.KernelIdeal.HostPre

end
-- ==== Proof.KI.Payloads.lean ====
/-
  The kernel body's arithmetic read at an index, at the ideal (extended real) values.

  Each named value the body stores or carries is a composition of pointwise operations, identity
  shape casts, one-row broadcasts, column slices and matrix products that contract the LAST axis of
  both operands.  Read at an entry (p, q) these are the textbook formulas:
    * the input layer   : max (Σ_k x(p,k)·W1(h,k) + b1(h)) 0
    * the gate rows     : Σ_k x(p,k)·W(g,k) + b(g)
    * reset / candidate : σ(gi + gh) on the second block of columns,
                          tanh(gi_n + σ(gi_r + gh_r)·gh_n) on the first and third
    * the new state     : (1 - z)·n + z·h   in the form   (one - z)·n + z·h
    * the output layer  : acc(p,a) + Σ_k hnew(p,k)·W2(a,k),  then  + b2(a).
-/
import proofs.«145547_j6897717478082_2_alg».proof.Proof.Gen.KernelIdeal.Skeleton
import Idealize.ShloMosaic.PureOps.Ideal.Laws
import Idealize.ShloMosaic.Lib.ValueIdx
import Idealize.ShloMosaic.Lib.ValueLayout

noncomputable section

namespace Cert.KernelIdeal.Pay

open Cert.KernelIdeal Cert.KernelIdeal.Gen Idealize.ShloMosaic Idealize.ShloMosaic.ValueIdx

/-! ## The constants and the pointwise state update -/

/-- The splat of the float word of zero. -/
theorem pay5_apply (j : S128x4096.Idx) : k0_pay5 (F := Ideal) j = Ideal.ofBits .f32 0x00000000#32 := rfl

/-- The splat of the float word of one. -/
theorem pay10_apply (j : S128x256.Idx) : k0_pay10 (F := Ideal) j = Ideal.ofBits .f32 0x3F800000#32 := rfl

/-- The new state, pointwise. -/
theorem pay1_apply (v29 v32 : FVec Ideal S128x256 .f32) (v36 : Vec Ideal S128x256 .f32) (v37 : FVec Ideal S128x256 .f32) (j : S128x256.Idx) :
    k0_pay1 (F := Ideal) v29 v32 v36 v37 j = (v37 j - v29 j) * v32 j + v29 j * v36 j := rfl

/-- The output layer's bias, one row broadcast over the batch. -/
theorem pay3_apply (v55 : Vec Ideal S128x4096 .f32) (v56 : Vec Ideal S1x4096 .f32) (p : Fin 128) (a : Fin 4096) :
    k0_pay3 (F := Ideal) v55 v56 (ix2 p a) = v55 (ix2 p a) + v56 (ix2 0 a) := by
  show v55 (ix2 p a) + broadcastTo S128x4096 (shapeCast S1x4096 v56 _) _ (ix2 p a) = _
  rw [shapeCast_self, broadcastTo_1b_ab_apply]

/-! ### The product `dot_S128x1024_S2048x1024_S128x2048_1_1_0_0_n_n`: out(p,q) = acc(p,q) + Σ_k lhs(p,k)·rhs(q,k) -/

private theorem mmIn_lhs0 (i : S128x2048.Idx) (q : dot_S128x1024_S2048x1024_S128x2048_1_1_0_0_n_n.contr.Idx) : (dot_S128x1024_S2048x1024_S128x2048_1_1_0_0_n_n.lhsIdx i q 0).val = (i 0).val := by
  unfold DotDims.lhsIdx
  rw [dif_neg (show ¬(0 : Fin S128x1024.rank) ∈ dot_S128x1024_S2048x1024_S128x2048_1_1_0_0_n_n.lhsBatch by decide), dif_pos (show (0 : Fin S128x1024.rank) ∈ dot_S128x1024_S2048x1024_S128x2048_1_1_0_0_n_n.lhsNonContracting by decide)]
  rfl
private theorem mmIn_lhs1 (i : S128x2048.Idx) (q : dot_S128x1024_S2048x1024_S128x2048_1_1_0_0_n_n.contr.Idx) : (dot_S128x1024_S2048x1024_S128x2048_1_1_0_0_n_n.lhsIdx i q 1).val = (q ⟨0, by decide⟩).val :=
  dot_S128x1024_S2048x1024_S128x2048_1_1_0_0_n_n.lhsIdx_val_of_single rfl i q
private theorem mmIn_rhs0 (i : S128x2048.Idx) (q : dot_S128x1024_S2048x1024_S128x2048_1_1_0_0_n_n.contr.Idx) : (dot_S128x1024_S2048x1024_S128x2048_1_1_0_0_n_n.rhsIdx i q 0).val = (i 1).val := by
  unfold DotDims.rhsIdx
  rw [dif_neg (show ¬(0 : Fin S2048x1024.rank) ∈ dot_S128x1024_S2048x1024_S128x2048_1_1_0_0_n_n.rhsBatch by decide), dif_pos (show (0 : Fin S2048x1024.rank) ∈ dot_S128x1024_S2048x1024_S128x2048_1_1_0_0_n_n.rhsNonContracting by decide)]
  rfl
private theorem mmIn_rhs1 (i : S128x2048.Idx) (q : dot_S128x1024_S2048x1024_S128x2048_1_1_0_0_n_n.contr.Idx) : (dot_S128x1024_S2048x1024_S128x2048_1_1_0_0_n_n.rhsIdx i q 1).val = (q ⟨0, by decide⟩).val :=
  dot_S128x1024_S2048x1024_S128x2048_1_1_0_0_n_n.rhsIdx_val_of_single rfl i q

/-- Read at entry (p, q): the accumulator there plus the sum over the shared last axis. -/
theorem mmIn_apply (x : FVec Ideal S128x1024 .bf16) (w : FVec Ideal S2048x1024 .bf16) (acc : FVec Ideal S128x2048 .f32) (p : Fin 128) (q : Fin 2048) :
    matmul dot_S128x1024_S2048x1024_S128x2048_1_1_0_0_n_n none x w acc (ix2 p q) = acc (ix2 p q) + ∑ k : Fin 1024, x (ix2 p k) * w (ix2 q k) := by
  simp only [matmul]
  rw [Ideal.matmul_apply, ← Equiv.sum_comp (contrEquiv1 dot_S128x1024_S2048x1024_S128x2048_1_1_0_0_n_n 1024 rfl rfl).symm]
  refine congrArg (acc (ix2 p q) + ·) (Finset.sum_congr rfl fun k _ => ?_)
  have hk := contrEquiv1_symm_val dot_S128x1024_S2048x1024_S128x2048_1_1_0_0_n_n 1024 rfl rfl k
  have el : dot_S128x1024_S2048x1024_S128x2048_1_1_0_0_n_n.lhsIdx (ix2 p q) ((contrEquiv1 dot_S128x1024_S2048x1024_S128x2048_1_1_0_0_n_n 1024 rfl rfl).symm k) = ix2 p k := funext fun ax => Fin.ext (by
    match ax with
    | ⟨0, _⟩ => exact mmIn_lhs0 _ _
    | ⟨1, _⟩ => exact (mmIn_lhs1 _ _).trans hk)
  have er : dot_S128x1024_S2048x1024_S128x2048_1_1_0_0_n_n.rhsIdx (ix2 p q) ((contrEquiv1 dot_S128x1024_S2048x1024_S128x2048_1_1_0_0_n_n 1024 rfl rfl).symm k) = ix2 q k := funext fun ax => Fin.ext (by
    match ax with
    | ⟨0, _⟩ => exact mmIn_rhs0 _ _
    | ⟨1, _⟩ => exact (mmIn_rhs1 _ _).trans hk)
  rw [el, er]

/-- Into the splat of zero: just the sum. -/
theorem mmIn_zero_apply (x : FVec Ideal S128x1024 .bf16) (w : FVec Ideal S2048x1024 .bf16) (p : Fin 128) (q : Fin 2048) :
    matmul dot_S128x1024_S2048x1024_S128x2048_1_1_0_0_n_n none x w (constant (F := Ideal) S128x2048 .f32 0x00000000#32) (ix2 p q) = ∑ k : Fin 1024, x (ix2 p k) * w (ix2 q k) := by
  rw [mmIn_apply]
  show Ideal.ofBits .f32 0x00000000#32 + _ = _
  rw [Ideal.ofBits_zero_f32, zero_add]

/-! ### The product `dot_S128x2048_S768x2048_S128x768_1_1_0_0_n_n`: out(p,q) = acc(p,q) + Σ_k lhs(p,k)·rhs(q,k) -/

private theorem mmGate_lhs0 (i : S128x768.Idx) (q : dot_S128x2048_S768x2048_S128x768_1_1_0_0_n_n.contr.Idx) : (dot_S128x2048_S768x2048_S128x768_1_1_0_0_n_n.lhsIdx i q 0).val = (i 0).val := by
  unfold DotDims.lhsIdx
  rw [dif_neg (show ¬(0 : Fin S128x2048.rank) ∈ dot_S128x2048_S768x2048_S128x768_1_1_0_0_n_n.lhsBatch by decide), dif_pos (show (0 : Fin S128x2048.rank) ∈ dot_S128x2048_S768x2048_S128x768_1_1_0_0_n_n.lhsNonContracting by decide)]
  rfl
private theorem mmGate_lhs1 (i : S128x768.Idx) (q : dot_S128x2048_S768x2048_S128x768_1_1_0_0_n_n.contr.Idx) : (dot_S128x2048_S768x2048_S128x768_1_1_0_0_n_n.lhsIdx i q 1).val = (q ⟨0, by decide⟩).val :=
  dot_S128x2048_S768x2048_S128x768_1_1_0_0_n_n.lhsIdx_val_of_single rfl i q
private theorem mmGate_rhs0 (i : S128x768.Idx) (q : dot_S128x2048_S768x2048_S128x768_1_1_0_0_n_n.contr.Idx) : (dot_S128x2048_S768x2048_S128x768_1_1_0_0_n_n.rhsIdx i q 0).val = (i 1).val := by
  unfold DotDims.rhsIdx
  rw [dif_neg (show ¬(0 : Fin S768x2048.rank) ∈ dot_S128x2048_S768x2048_S128x768_1_1_0_0_n_n.rhsBatch by decide), dif_pos (show (0 : Fin S768x2048.rank) ∈ dot_S128x2048_S768x2048_S128x768_1_1_0_0_n_n.rhsNonContracting by decide)]
  rfl
private theorem mmGate_rhs1 (i : S128x768.Idx) (q : dot_S128x2048_S768x2048_S128x768_1_1_0_0_n_n.contr.Idx) : (dot_S128x2048_S768x2048_S128x768_1_1_0_0_n_n.rhsIdx i q 1).val = (q ⟨0, by decide⟩).val :=
  dot_S128x2048_S768x2048_S128x768_1_1_0_0_n_n.rhsIdx_val_of_single rfl i q

/-- Read at entry (p, q): the accumulator there plus the sum over the shared last axis. -/
theorem mmGate_apply (x : FVec Ideal S128x2048 .bf16) (w : FVec Ideal S768x2048 .bf16) (acc : FVec Ideal S128x768 .f32) (p : Fin 128) (q : Fin 768) :
    matmul dot_S128x2048_S768x2048_S128x768_1_1_0_0_n_n none x w acc (ix2 p q) = acc (ix2 p q) + ∑ k : Fin 2048, x (ix2 p k) * w (ix2 q k) := by
  simp only [matmul]
  rw [Ideal.matmul_apply, ← Equiv.sum_comp (contrEquiv1 dot_S128x2048_S768x2048_S128x768_1_1_0_0_n_n 2048 rfl rfl).symm]
  refine congrArg (acc (ix2 p q) + ·) (Finset.sum_congr rfl fun k _ => ?_)
  have hk := contrEquiv1_symm_val dot_S128x2048_S768x2048_S128x768_1_1_0_0_n_n 2048 rfl rfl k
  have el : dot_S128x2048_S768x2048_S128x768_1_1_0_0_n_n.lhsIdx (ix2 p q) ((contrEquiv1 dot_S128x2048_S768x2048_S128x768_1_1_0_0_n_n 2048 rfl rfl).symm k) = ix2 p k := funext fun ax => Fin.ext (by
    match ax with
    | ⟨0, _⟩ => exact mmGate_lhs0 _ _
    | ⟨1, _⟩ => exact (mmGate_lhs1 _ _).trans hk)
  have er : dot_S128x2048_S768x2048_S128x768_1_1_0_0_n_n.rhsIdx (ix2 p q) ((contrEquiv1 dot_S128x2048_S768x2048_S128x768_1_1_0_0_n_n 2048 rfl rfl).symm k) = ix2 q k := funext fun ax => Fin.ext (by
    match ax with
    | ⟨0, _⟩ => exact mmGate_rhs0 _ _
    | ⟨1, _⟩ => exact (mmGate_rhs1 _ _).trans hk)
  rw [el, er]

/-- Into the splat of zero: just the sum. -/
theorem mmGate_zero_apply (x : FVec Ideal S128x2048 .bf16) (w : FVec Ideal S768x2048 .bf16) (p : Fin 128) (q : Fin 768) :
    matmul dot_S128x2048_S768x2048_S128x768_1_1_0_0_n_n none x w (constant (F := Ideal) S128x768 .f32 0x00000000#32) (ix2 p q) = ∑ k : Fin 2048, x (ix2 p k) * w (ix2 q k) := by
  rw [mmGate_apply]
  show Ideal.ofBits .f32 0x00000000#32 + _ = _
  rw [Ideal.ofBits_zero_f32, zero_add]

/-! ### The product `dot_S128x256_S4096x256_S128x4096_1_1_0_0_n_n`: out(p,q) = acc(p,q) + Σ_k lhs(p,k)·rhs(q,k) -/

private theorem mmOut_lhs0 (i : S128x4096.Idx) (q : dot_S128x256_S4096x256_S128x4096_1_1_0_0_n_n.contr.Idx) : (dot_S128x256_S4096x256_S128x4096_1_1_0_0_n_n.lhsIdx i q 0).val = (i 0).val := by
  unfold DotDims.lhsIdx
  rw [dif_neg (show ¬(0 : Fin S128x256.rank) ∈ dot_S128x256_S4096x256_S128x4096_1_1_0_0_n_n.lhsBatch by decide), dif_pos (show (0 : Fin S128x256.rank) ∈ dot_S128x256_S4096x256_S128x4096_1_1_0_0_n_n.lhsNonContracting by decide)]
  rfl
private theorem mmOut_lhs1 (i : S128x4096.Idx) (q : dot_S128x256_S4096x256_S128x4096_1_1_0_0_n_n.contr.Idx) : (dot_S128x256_S4096x256_S128x4096_1_1_0_0_n_n.lhsIdx i q 1).val = (q ⟨0, by decide⟩).val :=
  dot_S128x256_S4096x256_S128x4096_1_1_0_0_n_n.lhsIdx_val_of_single rfl i q
private theorem mmOut_rhs0 (i : S128x4096.Idx) (q : dot_S128x256_S4096x256_S128x4096_1_1_0_0_n_n.contr.Idx) : (dot_S128x256_S4096x256_S128x4096_1_1_0_0_n_n.rhsIdx i q 0).val = (i 1).val := by
  unfold DotDims.rhsIdx
  rw [dif_neg (show ¬(0 : Fin S4096x256.rank) ∈ dot_S128x256_S4096x256_S128x4096_1_1_0_0_n_n.rhsBatch by decide), dif_pos (show (0 : Fin S4096x256.rank) ∈ dot_S128x256_S4096x256_S128x4096_1_1_0_0_n_n.rhsNonContracting by decide)]
  rfl
private theorem mmOut_rhs1 (i : S128x4096.Idx) (q : dot_S128x256_S4096x256_S128x4096_1_1_0_0_n_n.contr.Idx) : (dot_S128x256_S4096x256_S128x4096_1_1_0_0_n_n.rhsIdx i q 1).val = (q ⟨0, by decide⟩).val :=
  dot_S128x256_S4096x256_S128x4096_1_1_0_0_n_n.rhsIdx_val_of_single rfl i q

/-- Read at entry (p, q): the accumulator there plus the sum over the shared last axis. -/
theorem mmOut_apply (x : FVec Ideal S128x256 .bf16) (w : FVec Ideal S4096x256 .bf16) (acc : FVec Ideal S128x4096 .f32) (p : Fin 128) (q : Fin 4096) :
    matmul dot_S128x256_S4096x256_S128x4096_1_1_0_0_n_n none x w acc (ix2 p q) = acc (ix2 p q) + ∑ k : Fin 256, x (ix2 p k) * w (ix2 q k) := by
  simp only [matmul]
  rw [Ideal.matmul_apply, ← Equiv.sum_comp (contrEquiv1 dot_S128x256_S4096x256_S128x4096_1_1_0_0_n_n 256 rfl rfl).symm]
  refine congrArg (acc (ix2 p q) + ·) (Finset.sum_congr rfl fun k _ => ?_)
  have hk := contrEquiv1_symm_val dot_S128x256_S4096x256_S128x4096_1_1_0_0_n_n 256 rfl rfl k
  have el : dot_S128x256_S4096x256_S128x4096_1_1_0_0_n_n.lhsIdx (ix2 p q) ((contrEquiv1 dot_S128x256_S4096x256_S128x4096_1_1_0_0_n_n 256 rfl rfl).symm k) = ix2 p k := funext fun ax => Fin.ext (by
    match ax with
    | ⟨0, _⟩ => exact mmOut_lhs0 _ _
    | ⟨1, _⟩ => exact (mmOut_lhs1 _ _).trans hk)
  have er : dot_S128x256_S4096x256_S128x4096_1_1_0_0_n_n.rhsIdx (ix2 p q) ((contrEquiv1 dot_S128x256_S4096x256_S128x4096_1_1_0_0_n_n 256 rfl rfl).symm k) = ix2 q k := funext fun ax => Fin.ext (by
    match ax with
    | ⟨0, _⟩ => exact mmOut_rhs0 _ _
    | ⟨1, _⟩ => exact (mmOut_rhs1 _ _).trans hk)
  rw [el, er]

/-- Into the splat of zero: just the sum. -/
theorem mmOut_zero_apply (x : FVec Ideal S128x256 .bf16) (w : FVec Ideal S4096x256 .bf16) (p : Fin 128) (q : Fin 4096) :
    matmul dot_S128x256_S4096x256_S128x4096_1_1_0_0_n_n none x w (constant (F := Ideal) S128x4096 .f32 0x00000000#32) (ix2 p q) = ∑ k : Fin 256, x (ix2 p k) * w (ix2 q k) := by
  rw [mmOut_apply]
  show Ideal.ofBits .f32 0x00000000#32 + _ = _
  rw [Ideal.ofBits_zero_f32, zero_add]

/-! ## The three layers -/

/-- The input layer: a product contracting the last axes, a one-row bias, and the maximum with zero. -/
theorem pay4_apply (v55 : Vec Ideal S128x1024 .bf16) (v57 : Vec Ideal S2048x1024 .bf16) (v60 : Vec Ideal S1x2048 .f32) (p : Fin 128) (h : Fin 2048) :
    k0_pay4 (F := Ideal) v55 v57 v60 (ix2 p h) = max ((∑ k : Fin 1024, v55 (ix2 p k) * v57 (ix2 h k)) + v60 (ix2 0 h)) (Ideal.ofBits .f32 0x00000000#32) := by
  unfold k0_pay4
  simp only [shapeCast_self]
  show max (matmul dot_S128x1024_S2048x1024_S128x2048_1_1_0_0_n_n none v55 v57 (constant (F := Ideal) S128x2048 .f32 0x00000000#32) (ix2 p h)
      + broadcastTo S128x2048 v60 _ (ix2 p h)) (Ideal.ofBits .f32 0x00000000#32) = _
  rw [mmIn_zero_apply, broadcastTo_1b_ab_apply]

/-- The input-side gate rows. -/
theorem pay6_apply (v3 : Vec Ideal S128x2048 .bf16) (v6 : Vec Ideal S768x2048 .bf16) (v11 : Vec Ideal S1x768 .f32) (p : Fin 128) (g : Fin 768) :
    k0_pay6 (F := Ideal) v3 v6 v11 (ix2 p g) = (∑ k : Fin 2048, v3 (ix2 p k) * v6 (ix2 g k)) + v11 (ix2 0 g) := by
  show matmul dot_S128x2048_S768x2048_S128x768_1_1_0_0_n_n none v3 (shapeCast S768x2048 v6 _) (constant (F := Ideal) S128x768 .f32 0x00000000#32) (ix2 p g)
      + broadcastTo S128x768 (shapeCast S1x768 v11 _) _ (ix2 p g) = _
  rw [shapeCast_self, shapeCast_self, mmGate_zero_apply, broadcastTo_1b_ab_apply]

/-- The state-side gate rows (rounding the state to bf16 is the identity on ideal values). -/
theorem pay7_apply (v4 : Vec Ideal S128x2048 .f32) (v8 : Vec Ideal S768x2048 .bf16) (v16 : Vec Ideal S1x768 .f32) (p : Fin 128) (g : Fin 768) :
    k0_pay7 (F := Ideal) v4 v8 v16 (ix2 p g) = (∑ k : Fin 2048, v4 (ix2 p k) * v8 (ix2 g k)) + v16 (ix2 0 g) := by
  show matmul dot_S128x2048_S768x2048_S128x768_1_1_0_0_n_n none (truncf .bf16 v4 _) (shapeCast S768x2048 v8 _) (constant (F := Ideal) S128x768 .f32 0x00000000#32) (ix2 p g)
      + broadcastTo S128x768 (shapeCast S1x768 v16 _) _ (ix2 p g) = _
  rw [shapeCast_self, shapeCast_self, mmGate_zero_apply, broadcastTo_1b_ab_apply]
  rfl

/-- The update gate: the logistic of the second block of columns of the two gate rows' sum. -/
theorem pay8_apply (v3 : Vec Ideal S128x2048 .bf16) (v4 : Vec Ideal S128x2048 .f32) (v6 : Vec Ideal S768x2048 .bf16) (v8 : Vec Ideal S768x2048 .bf16) (v11 : Vec Ideal S1x768 .f32) (v16 : Vec Ideal S1x768 .f32) (p : Fin 128) (c : Fin 256) :
    k0_pay8 (F := Ideal) v3 v4 v6 v8 v11 v16 (ix2 p c) = Ideal.logistic (k0_pay6 (F := Ideal) v3 v6 v11 (ix2 p ⟨256 + c.val, by omega⟩) + k0_pay7 (F := Ideal) v4 v8 v16 (ix2 p ⟨256 + c.val, by omega⟩)) := by
  show Ideal.logistic (extractStridedSlice S128x256 ![0, 256] (k0_pay6 (F := Ideal) v3 v6 v11) _ (ix2 p c)
      + extractStridedSlice S128x256 ![0, 256] (k0_pay7 (F := Ideal) v4 v8 v16) _ (ix2 p c)) = _
  exact congrArg Ideal.logistic (congrArg₂ (· + ·)
    (slice2_axis1_apply 256 _ _ p c ⟨256 + c.val, by omega⟩ rfl) (slice2_axis1_apply 256 _ _ p c ⟨256 + c.val, by omega⟩ rfl))

/-- The candidate: tanh of the third block plus the reset gate (first block) times the state side's third block. -/
theorem pay9_apply (v3 : Vec Ideal S128x2048 .bf16) (v4 : Vec Ideal S128x2048 .f32) (v6 : Vec Ideal S768x2048 .bf16) (v8 : Vec Ideal S768x2048 .bf16) (v11 : Vec Ideal S1x768 .f32) (v16 : Vec Ideal S1x768 .f32) (p : Fin 128) (c : Fin 256) :
    k0_pay9 (F := Ideal) v3 v4 v6 v8 v11 v16 (ix2 p c) = Ideal.tanh (k0_pay6 (F := Ideal) v3 v6 v11 (ix2 p ⟨512 + c.val, by omega⟩)
        + Ideal.logistic (k0_pay6 (F := Ideal) v3 v6 v11 (ix2 p ⟨c.val, by omega⟩) + k0_pay7 (F := Ideal) v4 v8 v16 (ix2 p ⟨c.val, by omega⟩)) * k0_pay7 (F := Ideal) v4 v8 v16 (ix2 p ⟨512 + c.val, by omega⟩)) := by
  show Ideal.tanh (extractStridedSlice S128x256 ![0, 512] (k0_pay6 (F := Ideal) v3 v6 v11) _ (ix2 p c)
      + Ideal.logistic (extractStridedSlice S128x256 ![0, 0] (k0_pay6 (F := Ideal) v3 v6 v11) _ (ix2 p c)
          + extractStridedSlice S128x256 ![0, 0] (k0_pay7 (F := Ideal) v4 v8 v16) _ (ix2 p c))
        * extractStridedSlice S128x256 ![0, 512] (k0_pay7 (F := Ideal) v4 v8 v16) _ (ix2 p c)) = _
  exact congrArg Ideal.tanh (congrArg₂ (· + ·)
    (slice2_axis1_apply 512 _ _ p c ⟨512 + c.val, by omega⟩ rfl)
    (congrArg₂ (· * ·)
      (congrArg Ideal.logistic (congrArg₂ (· + ·)
        (slice2_axis1_apply 0 _ _ p c ⟨c.val, by omega⟩ (Nat.zero_add _).symm)
        (slice2_axis1_apply 0 _ _ p c ⟨c.val, by omega⟩ (Nat.zero_add _).symm)))
      (slice2_axis1_apply 512 _ _ p c ⟨512 + c.val, by omega⟩ rfl)))

/-- The output layer's accumulation: what was there plus the new state's product with the block of weights. -/
theorem pay2_apply (v29 v32 : FVec Ideal S128x256 .f32) (v36 : Vec Ideal S128x256 .f32) (v37 : FVec Ideal S128x256 .f32) (v43 : Vec Ideal S4096x256 .bf16) (v45 : Vec Ideal S128x4096 .f32) (p : Fin 128) (a : Fin 4096) :
    k0_pay2 (F := Ideal) v29 v32 v36 v37 v43 v45 (ix2 p a) = v45 (ix2 p a) + ∑ k : Fin 256, k0_pay1 (F := Ideal) v29 v32 v36 v37 (ix2 p k) * v43 (ix2 a k) := by
  unfold k0_pay2
  simp only [shapeCast_self]
  show v45 (ix2 p a) + matmul dot_S128x256_S4096x256_S128x4096_1_1_0_0_n_n none (truncf .bf16 (k0_pay1 (F := Ideal) v29 v32 v36 v37) _) v43
      (constant (F := Ideal) S128x4096 .f32 0x00000000#32) (ix2 p a) = _
  rw [mmOut_zero_apply]
  rfl

end Cert.KernelIdeal.Pay

end
-- ==== Proof.LibChunkedSum.lean ====
/-
  Sums over a range of `n * b` positions cut into `n` chunks of `b`, in any commutative additive monoid (so also
  on the extended reals, where addition is commutative and associative although products do not distribute over it).

  * `pos n b j k` is position `j * b + k`: entry `k` of chunk `j`.
  * `sum_chunks`: summing chunk by chunk, and inside each chunk entry by entry, is summing over all positions.
    With `f i := A u i * B i c` this says that a matrix product whose contraction axis is cut into blocks is the sum
    of the blocks' partial products, whatever the block size.
  * `accum g n` is an accumulator that starts at zero and adds `g j` at step `j`; `accum_eq_sum` and
    `accum_eq_sum_fin` say that after `n` steps it holds the sum of the `n` addends.
  * `accum_chunks`: an accumulator fed one chunk's partial sum per step ends at the sum over all positions.
-/
import Mathlib.Algebra.BigOperators.Fin
import Mathlib.Logic.Equiv.Fin.Basic

namespace Cert.Lib.ChunkedSum

open Finset

variable {M : Type*} [AddCommMonoid M]

/-- Position `j * b + k` among `n * b`: entry `k` of chunk `j`, for `n` chunks of `b` entries each. -/
def pos (n b : ℕ) (j : Fin n) (k : Fin b) : Fin (n * b) :=
  ⟨j.val * b + k.val, by
    have hj := j.isLt
    have hk := k.isLt
    calc j.val * b + k.val < j.val * b + b := by omega
      _ = (j.val + 1) * b := (Nat.succ_mul j.val b).symm
      _ ≤ n * b := Nat.mul_le_mul_right b hj⟩

@[simp] theorem pos_val (n b : ℕ) (j : Fin n) (k : Fin b) : (pos n b j k).val = j.val * b + k.val := rfl

/-- Chunk by chunk, then entry by entry, is every position once. -/
theorem sum_chunks (n b : ℕ) (f : Fin (n * b) → M) :
    ∑ j : Fin n, ∑ k : Fin b, f (pos n b j k) = ∑ i : Fin (n * b), f i := by
  rw [← (finProdFinEquiv (m := n) (n := b)).sum_comp f, Fintype.sum_prod_type]
  refine Finset.sum_congr rfl fun j _ => Finset.sum_congr rfl fun k _ => congrArg f (Fin.ext ?_)
  simp only [pos_val, finProdFinEquiv_apply_val]
  rw [Nat.mul_comm b j.val, Nat.add_comm]

/-- An accumulator started at zero that adds `g j` at step `j`. -/
def accum (g : ℕ → M) : ℕ → M
  | 0 => 0
  | j + 1 => accum g j + g j

@[simp] theorem accum_zero (g : ℕ → M) : accum g 0 = 0 := rfl

theorem accum_succ (g : ℕ → M) (j : ℕ) : accum g (j + 1) = accum g j + g j := rfl

/-- After `n` steps the accumulator holds the sum of the first `n` addends. -/
theorem accum_eq_sum (g : ℕ → M) (n : ℕ) : accum g n = ∑ j ∈ Finset.range n, g j := by
  induction n with
  | zero => simp
  | succ n ih => rw [accum_succ, ih, Finset.sum_range_succ]

/-- The same with the steps indexed by `Fin n`. -/
theorem accum_eq_sum_fin (n : ℕ) (g : Fin n → M) (g' : ℕ → M) (hg : ∀ j : Fin n, g' j.val = g j) :
    accum g' n = ∑ j : Fin n, g j := by
  rw [accum_eq_sum, ← Fin.sum_univ_eq_sum_range]
  exact Finset.sum_congr rfl fun j _ => hg j

/-- An accumulator that adds, at step `j`, the partial sum of `f` over chunk `j`, ends at the sum of `f` over all
    `n * b` positions. -/
theorem accum_chunks (n b : ℕ) (f : Fin (n * b) → M) (g' : ℕ → M)
    (hg : ∀ j : Fin n, g' j.val = ∑ k : Fin b, f (pos n b j k)) :
    accum g' n = ∑ i : Fin (n * b), f i := by
  rw [accum_eq_sum_fin n (fun j => ∑ k : Fin b, f (pos n b j k)) g' hg, sum_chunks]

end Cert.Lib.ChunkedSum
-- ==== Proof.KI.Tile.lean ====
/-
  The body's arithmetic on the blocks it is handed, in the specification's terms. Batch tile `i` (128 rows) and hidden
  tile `j` (256 units): the cached first layer is `x` on the tile's rows; the fused gate products over the re-ordered
  768 rows of block `j` are the three gates' pre-activations at units 256·j + c; the stored tile is the new hidden state
  there; and the second layer's accumulator grows by the tile's partial product, so that after the eighth tile it
  holds the whole contraction (a sum over 2048 positions cut into 8 chunks of 256).
-/
import proofs.«145547_j6897717478082_2_alg».proof.Proof.KI.Payloads
import proofs.«145547_j6897717478082_2_alg».proof.Proof.KI.PackRow
import proofs.«145547_j6897717478082_2_alg».proof.Proof.LibChunkedSum

noncomputable section

namespace Cert.KernelIdeal.Tile

open Cert.KernelIdeal Cert.KernelIdeal.Gen Cert.KernelIdeal.Pay Cert.KernelIdeal.HostPre
open Idealize.ShloMosaic Idealize.ShloMosaic.ValueIdx

variable (A : Cert.Spec.Args)

/-- Row `p` of batch tile `i`. -/
def brow (i : Fin 32) (p : Fin 128) : Fin 4096 := ⟨128 * i.val + p.val, by omega⟩
/-- Unit `c` of hidden tile `j`. -/
def hcol (j : Fin 8) (c : Fin 256) : Fin 2048 := ⟨256 * j.val + c.val, by omega⟩
/-- Row `g` of block `j` of a re-ordered gate matrix. -/
def prow (j : Fin 8) (g : Fin 768) : Fin 6144 := ⟨768 * j.val + g.val, by omega⟩

/-! ## The blocks the body is handed -/

def bInp (i : Fin 32) : Vec Ideal S128x1024 .bf16 := fun y => A.inp (ix2 (brow i (y 0)) (y 1))
def bW1 : Vec Ideal S2048x1024 .bf16 := fun y => A.W1 (ix2 (y 0) (y 1))
def bB1 : Vec Ideal S1x2048 .f32 := fun y => A.b1 (ix1 (y 1))
def bHid (i : Fin 32) : Vec Ideal S128x2048 .f32 := fun y => A.hid (ix2 (brow i (y 0)) (y 1))
def bHidCols (i : Fin 32) (j : Fin 8) : Vec Ideal S128x256 .f32 := fun y => A.hid (ix2 (brow i (y 0)) (hcol j (y 1)))
def bWih (j : Fin 8) : Vec Ideal S768x2048 .bf16 := fun y => A.Wih (ix2 (packRow (prow j (y 0))) (y 1))
def bWhh (j : Fin 8) : Vec Ideal S768x2048 .bf16 := fun y => A.Whh (ix2 (packRow (prow j (y 0))) (y 1))
def bBih (j : Fin 8) : Vec Ideal S1x768 .f32 := fun y => A.bih (ix1 (packRow (prow j (y 1))))
def bBhh (j : Fin 8) : Vec Ideal S1x768 .f32 := fun y => A.bhh (ix1 (packRow (prow j (y 1))))
def bW2 (j : Fin 8) : Vec Ideal S4096x256 .bf16 := fun y => A.W2 (ix2 (y 0) (hcol j (y 1)))
def bB2 : Vec Ideal S1x4096 .f32 := fun y => A.b2 (ix1 (y 1))

/-! ## What the body computes from them -/

/-- The cached first layer on batch tile `i`. -/
def xTile (i : Fin 32) : FVec Ideal S128x2048 .bf16 := fun y => Cert.Spec.x A (brow i (y 0)) (y 1)

theorem pay4_tile (i : Fin 32) : k0_pay4 (F := Ideal) (bInp A i) (bW1 A) (bB1 A) = xTile A i := by
  funext y
  obtain ⟨p, h, rfl⟩ : ∃ (p : Fin 128) (h : Fin 2048), y = ix2 p h := ⟨y 0, y 1, eq_ix2 y⟩
  rw [pay4_apply]
  rfl

theorem pay6_tile (i : Fin 32) (j : Fin 8) (p : Fin 128) (g : Fin 768) :
    k0_pay6 (F := Ideal) (xTile A i) (bWih A j) (bBih A j) (ix2 p g) = Cert.Spec.gi A (brow i p) (packRow (prow j g)) := by
  rw [pay6_apply]
  rfl

theorem pay7_tile (i : Fin 32) (j : Fin 8) (p : Fin 128) (g : Fin 768) :
    k0_pay7 (F := Ideal) (bHid A i) (bWhh A j) (bBhh A j) (ix2 p g) = Cert.Spec.gh A (brow i p) (packRow (prow j g)) := by
  rw [pay7_apply]
  rfl

/-- Column `256·s + c` of block `j` is gate `s` at unit `256·j + c`. -/
theorem packRow_prow (j : Fin 8) (s : Fin 3) (c : Fin 256) (h : 256 * s.val + c.val < 768) :
    packRow (prow j ⟨256 * s.val + c.val, h⟩) = Cert.Spec.gateRow s (hcol j c) := by
  apply Fin.ext
  simp only [packRow, prow, hcol, Cert.Spec.gateRow]
  have hs := s.isLt; have hc := c.isLt; have hj := j.isLt
  omega

theorem pay8_tile (i : Fin 32) (j : Fin 8) (p : Fin 128) (c : Fin 256) :
    k0_pay8 (F := Ideal) (xTile A i) (bHid A i) (bWih A j) (bWhh A j) (bBih A j) (bBhh A j) (ix2 p c)
      = Cert.Spec.z A (brow i p) (hcol j c) := by
  rw [pay8_apply, pay6_tile, pay7_tile]
  have e : packRow (prow j ⟨256 + c.val, by omega⟩) = Cert.Spec.gateRow 1 (hcol j c) := by
    have := packRow_prow j 1 c (by have := c.isLt; simp; omega)
    simpa using this
  rw [e]
  rfl

theorem pay9_tile (i : Fin 32) (j : Fin 8) (p : Fin 128) (c : Fin 256) :
    k0_pay9 (F := Ideal) (xTile A i) (bHid A i) (bWih A j) (bWhh A j) (bBih A j) (bBhh A j) (ix2 p c)
      = Cert.Spec.n A (brow i p) (hcol j c) := by
  rw [pay9_apply, pay6_tile, pay6_tile, pay7_tile, pay7_tile]
  have e0 : packRow (prow j ⟨c.val, by omega⟩) = Cert.Spec.gateRow 0 (hcol j c) := by
    have := packRow_prow j 0 c (by have := c.isLt; simp; omega)
    simpa using this
  have e2 : packRow (prow j ⟨512 + c.val, by omega⟩) = Cert.Spec.gateRow 2 (hcol j c) := by
    have := packRow_prow j 2 c (by have := c.isLt; simp; omega)
    simpa using this
  rw [e0, e2]
  rfl

/-- The stored tile: the new hidden state at the tile's rows and units. -/
def hTile (i : Fin 32) (j : Fin 8) : FVec Ideal S128x256 .f32 := fun y => Cert.Spec.hnew A (brow i (y 0)) (hcol j (y 1))

theorem pay1_tile (i : Fin 32) (j : Fin 8) :
    k0_pay1 (F := Ideal) (k0_pay8 (F := Ideal) (xTile A i) (bHid A i) (bWih A j) (bWhh A j) (bBih A j) (bBhh A j))
      (k0_pay9 (F := Ideal) (xTile A i) (bHid A i) (bWih A j) (bWhh A j) (bBih A j) (bBhh A j)) (bHidCols A i j) (k0_pay10 (F := Ideal))
      = hTile A i j := by
  funext y
  obtain ⟨p, c, rfl⟩ : ∃ (p : Fin 128) (c : Fin 256), y = ix2 p c := ⟨y 0, y 1, eq_ix2 y⟩
  rw [pay1_apply, pay8_tile, pay9_tile, pay10_apply]
  rfl

/-! ## The second layer's accumulator -/

/-- The addend of the second layer's contraction at position `k`, for batch row `b` and output `a`. -/
def term (b : Fin 4096) (a : Fin 4096) (k : Fin (8 * 256)) : EReal := Cert.Spec.hnew A b k * A.W2 (ix2 a k)

/-- Tile `j`'s partial product. -/
def part (b : Fin 4096) (a : Fin 4096) (j : ℕ) : EReal :=
  if h : j < 8 then ∑ k : Fin 256, Cert.Spec.hnew A b (hcol ⟨j, h⟩ k) * A.W2 (ix2 a (hcol ⟨j, h⟩ k)) else 0

/-- The accumulator on batch tile `i` after `j` tiles. -/
def accTile (i : Fin 32) (j : ℕ) : Vec Ideal S128x4096 .f32 := fun y =>
  Cert.Lib.ChunkedSum.accum (part A (brow i (y 0)) (y 1)) j

theorem accTile_zero (i : Fin 32) : (k0_pay5 (F := Ideal) : FVec Ideal S128x4096 .f32) = accTile A i 0 := by
  funext y
  rw [pay5_apply]
  exact Ideal.ofBits_zero_f32

/-- One more tile: the accumulator grows by the tile's partial product. -/
theorem pay2_tile (i : Fin 32) (j : Fin 8) :
    k0_pay2 (F := Ideal) (k0_pay8 (F := Ideal) (xTile A i) (bHid A i) (bWih A j) (bWhh A j) (bBih A j) (bBhh A j))
      (k0_pay9 (F := Ideal) (xTile A i) (bHid A i) (bWih A j) (bWhh A j) (bBih A j) (bBhh A j)) (bHidCols A i j) (k0_pay10 (F := Ideal))
      (bW2 A j) (accTile A i j.val) = accTile A i (j.val + 1) := by
  funext y
  obtain ⟨p, a, rfl⟩ : ∃ (p : Fin 128) (a : Fin 4096), y = ix2 p a := ⟨y 0, y 1, eq_ix2 y⟩
  rw [pay2_apply, pay1_tile]
  show _ = Cert.Lib.ChunkedSum.accum (part A (brow i p) a) (j.val + 1)
  rw [Cert.Lib.ChunkedSum.accum_succ]
  congr 1
  simp only [part, j.isLt, dite_true]
  rfl

/-- After the eighth tile the accumulator holds the whole contraction. -/
theorem accTile_last (i : Fin 32) (p : Fin 128) (a : Fin 4096) :
    accTile A i 8 (ix2 p a) = ∑ k : Fin 2048, Cert.Spec.hnew A (brow i p) k * A.W2 (ix2 a k) := by
  show Cert.Lib.ChunkedSum.accum (part A (brow i p) a) 8 = _
  rw [Cert.Lib.ChunkedSum.accum_chunks 8 256 (term A (brow i p) a) (part A (brow i p) a)]
  · rfl
  · intro j
    simp only [part, j.isLt, dite_true]
    refine Finset.sum_congr rfl fun k _ => ?_
    have e : hcol ⟨j.val, j.isLt⟩ k = (Cert.Lib.ChunkedSum.pos 8 256 j k : Fin 2048) := by
      apply Fin.ext
      simp only [hcol, Cert.Lib.ChunkedSum.pos_val]
      omega
    rw [e]
    rfl

/-- The second layer's tile, written back at the last hidden tile. -/
def qTile (i : Fin 32) : FVec Ideal S128x4096 .f32 := fun y => Cert.Spec.q A (brow i (y 0)) (y 1)

theorem pay3_tile (i : Fin 32) : k0_pay3 (F := Ideal) (accTile A i 8) (bB2 A) = qTile A i := by
  funext y
  obtain ⟨p, a, rfl⟩ : ∃ (p : Fin 128) (a : Fin 4096), y = ix2 p a := ⟨y 0, y 1, eq_ix2 y⟩
  rw [pay3_apply, accTile_last]
  rfl

end Cert.KernelIdeal.Tile

end
-- ==== Proof.KI.Schedule.lean ====
/-
  Where each window's block sits at grid point t = 8·i + j (i the batch tile, j the hidden tile), decided once over the
  256 points: the batch-tiled windows move with i = t / 8, the hidden-tiled ones with j = t % 8, the resident ones stay.
-/
import proofs.«145547_j6897717478082_2_alg».proof.Proof.Gen.KernelIdeal.Launch

noncomputable section

namespace Cert.KernelIdeal.Sched

open Cert.KernelIdeal Cert.KernelIdeal.Gen Idealize.ShloMosaic

/-- The grid coordinates of point `t`. -/
theorem coords : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

/-- Rows of the batch tile: the input rows, the old hidden state, the new hidden state's tile and the second layer's. -/
theorem idx_batch : ∀ t : Fin cfg0.N,
    (win0_0.index t 0 = t.val / 8 ∧ win0_0.index t 1 = 0) ∧ (win0_3.index t 0 = t.val / 8 ∧ win0_3.index t 1 = 0)
    ∧ (win0_10.index t 0 = t.val / 8 ∧ win0_10.index t 1 = t.val % 8) ∧ (win0_11.index t 0 = t.val / 8 ∧ win0_11.index t 1 = 0) :=
  (by decide +kernel : ∀ t : Fin grid0.N,
    (win0_0.index t 0 = t.val / 8 ∧ win0_0.index t 1 = 0) ∧ (win0_3.index t 0 = t.val / 8 ∧ win0_3.index t 1 = 0)
    ∧ (win0_10.index t 0 = t.val / 8 ∧ win0_10.index t 1 = t.val % 8) ∧ (win0_11.index t 0 = t.val / 8 ∧ win0_11.index t 1 = 0))

/-- The hidden-tiled windows: the two re-ordered gate matrices and biases, and the second layer's columns. -/
theorem idx_hidden : ∀ t : Fin cfg0.N,
    (win0_4.index t 0 = t.val % 8 ∧ win0_4.index t 1 = 0) ∧ (win0_5.index t 0 = t.val % 8 ∧ win0_5.index t 1 = 0)
    ∧ (win0_6.index t 0 = 0 ∧ win0_6.index t 1 = t.val % 8) ∧ (win0_7.index t 0 = 0 ∧ win0_7.index t 1 = t.val % 8)
    ∧ (win0_8.index t 0 = 0 ∧ win0_8.index t 1 = t.val % 8) :=
  (by decide +kernel : ∀ t : Fin grid0.N,
    (win0_4.index t 0 = t.val % 8 ∧ win0_4.index t 1 = 0) ∧ (win0_5.index t 0 = t.val % 8 ∧ win0_5.index t 1 = 0)
    ∧ (win0_6.index t 0 = 0 ∧ win0_6.index t 1 = t.val % 8) ∧ (win0_7.index t 0 = 0 ∧ win0_7.index t 1 = t.val % 8)
    ∧ (win0_8.index t 0 = 0 ∧ win0_8.index t 1 = t.val % 8))

/-- The resident windows: the first layer's matrix and bias, and the second layer's bias. -/
theorem idx_resident : ∀ t : Fin cfg0.N,
    (win0_1.index t 0 = 0 ∧ win0_1.index t 1 = 0) ∧ (win0_2.index t 0 = 0 ∧ win0_2.index t 1 = 0)
    ∧ (win0_9.index t 0 = 0 ∧ win0_9.index t 1 = 0) :=
  (by decide +kernel : ∀ t : Fin grid0.N,
    (win0_1.index t 0 = 0 ∧ win0_1.index t 1 = 0) ∧ (win0_2.index t 0 = 0 ∧ win0_2.index t 1 = 0)
    ∧ (win0_9.index t 0 = 0 ∧ win0_9.index t 1 = 0))

/-- The columns of the old hidden state the body re-reads at a point: those of hidden tile j. -/
theorem off1 : ∀ t : Fin cfg0.N, k0_off1 (grid0.coords t) = ![0, 256 * (t.val % 8)] :=
  (by decide +kernel : ∀ t : Fin grid0.N, k0_off1 (grid0.coords t) = ![0, 256 * (t.val % 8)])

end Cert.KernelIdeal.Sched

end
-- ==== Proof.KI.Blocks.lean ====
/-
  What the body is handed at grid point t = 8·i + j: each input window's block, read through the host lines before
  the region, is the corresponding block of the argument arrays — rows 128·i.. of the inputs and of the old hidden
  state, rows 768·j.. of the re-ordered gate matrices (that is: rows 256·j.. of each gate), columns 256·j.. of the
  second layer's matrix, and the resident first-layer matrix and biases.
-/
import proofs.«145547_j6897717478082_2_alg».proof.Proof.KI.FrameKit
import proofs.«145547_j6897717478082_2_alg».proof.Proof.KI.HostPrefix
import proofs.«145547_j6897717478082_2_alg».proof.Proof.KI.Tile
import proofs.«145547_j6897717478082_2_alg».proof.Proof.KI.Schedule
import Idealize.ShloMosaic.Lib.Pipeline.Value

noncomputable section

namespace Cert.KernelIdeal.Value

open Cert.KernelIdeal Cert.KernelIdeal.Gen Cert.KernelIdeal.HF Cert.KernelIdeal.Tile Cert.KernelIdeal.HostPre Cert.KernelIdeal.Sched
open Idealize.ShloMosaic Idealize.ShloMosaic.TcCoe Idealize.ShloMosaic.ValueIdx Idealize.SL.Sem

variable (m : (ℓ : Loc nD τ sig) → Buf (Elt Ideal) ℓ)

/-- The ten argument arrays of core `c` as the specification's record. -/
def args (c : Dev nD) : Cert.Spec.Args where
  inp := m ((c : Thread nD τ).loc main_arg0)
  hid := m ((c : Thread nD τ).loc main_arg1)
  W1 := m ((c : Thread nD τ).loc main_arg2)
  b1 := m ((c : Thread nD τ).loc main_arg3)
  Wih := m ((c : Thread nD τ).loc main_arg4)
  Whh := m ((c : Thread nD τ).loc main_arg5)
  bih := m ((c : Thread nD τ).loc main_arg6)
  bhh := m ((c : Thread nD τ).loc main_arg7)
  W2 := m ((c : Thread nD τ).loc main_arg8)
  b2 := m ((c : Thread nD τ).loc main_arg9)

/-- The batch tile of point `t`. -/
def ti (t : Fin cfg0.N) : Fin 32 := ⟨t.val / 8, by have := t.isLt; have hN : cfg0.N = 256 := N_0; omega⟩
/-- The hidden tile of point `t`. -/
def tj (t : Fin cfg0.N) : Fin 8 := ⟨t.val % 8, by omega⟩

/-- The contents the region finds are the host lines' results over the launch memory. -/
theorem V0_eq (c : Dev nD) : V0 m c = StableHlo.after (hostOps0 (F := Ideal)) (fun b => m (c, b)) := by
  show StableHlo.after (List.flatten [hostOps0]) _ = _
  rw [List.flatten_cons, List.flatten_nil, List.append_nil]

theorem iblk0 (c : Dev nD) (t : Fin cfg0.N) : (iblk m c 0 t : S128x1024.Idx → EReal) = bInp (args m c) (ti t) := by
  funext y
  unfold iblk
  rw [View.read_apply]
  have hidx : ((cfg0.win 0).blk t).view.emb y = ix2 (brow (ti t) (y 0)) (y 1) := by
    obtain ⟨⟨e0, e1⟩, -⟩ := idx_batch t
    funext a; apply Fin.ext
    match a with
    | ⟨0, _⟩ => show win0_0.index t 0 * 128 + 1 * (y 0).val = 128 * (t.val / 8) + (y 0).val; rw [e0]; omega
    | ⟨1, _⟩ => show win0_0.index t 1 * 1024 + 1 * (y 1).val = (y 1).val; rw [e1]; omega
  rw [hidx]
  show V0 m c (Proc.devRef .tc main_v0) _ = _
  rw [V0_eq]
  exact congrFun (pre_v0 _) _

theorem iblk1 (c : Dev nD) (t : Fin cfg0.N) : (iblk m c 1 t : S2048x1024.Idx → EReal) = bW1 (args m c) := by
  funext y
  unfold iblk
  rw [View.read_apply]
  have hidx : ((cfg0.win 1).blk t).view.emb y = ix2 (y 0) (y 1) := by
    obtain ⟨⟨e0, e1⟩, -⟩ := idx_resident t
    funext a; apply Fin.ext
    match a with
    | ⟨0, _⟩ => show win0_1.index t 0 * 2048 + 1 * (y 0).val = (y 0).val; rw [e0]; omega
    | ⟨1, _⟩ => show win0_1.index t 1 * 1024 + 1 * (y 1).val = (y 1).val; rw [e1]; omega
  rw [hidx]
  show V0 m c (Proc.devRef .tc main_v1) _ = _
  rw [V0_eq]
  exact congrFun (pre_v1 _) _

theorem iblk2 (c : Dev nD) (t : Fin cfg0.N) : (iblk m c 2 t : S1x2048.Idx → EReal) = bB1 (args m c) := by
  funext y
  unfold iblk
  rw [View.read_apply]
  have hidx : ((cfg0.win 2).blk t).view.emb y = ix2 (0 : Fin 1) (y 1) := by
    obtain ⟨-, ⟨e0, e1⟩, -⟩ := idx_resident t
    have hy : (y 0).val < 1 := (y 0).isLt
    funext a; apply Fin.ext
    match a with
    | ⟨0, _⟩ => show win0_2.index t 0 * 1 + 1 * (y 0).val = 0; rw [e0]; omega
    | ⟨1, _⟩ => show win0_2.index t 1 * 2048 + 1 * (y 1).val = (y 1).val; rw [e1]; omega
  rw [hidx]
  show V0 m c (Proc.devRef .tc main_v2) _ = _
  rw [V0_eq]
  exact pre_v2 _ _

theorem iblk3 (c : Dev nD) (t : Fin cfg0.N) : (iblk m c 3 t : S128x2048.Idx → EReal) = bHid (args m c) (ti t) := by
  funext y
  unfold iblk
  rw [View.read_apply]
  have hidx : ((cfg0.win 3).blk t).view.emb y = ix2 (brow (ti t) (y 0)) (y 1) := by
    obtain ⟨-, ⟨e0, e1⟩, -⟩ := idx_batch t
    funext a; apply Fin.ext
    match a with
    | ⟨0, _⟩ => show win0_3.index t 0 * 128 + 1 * (y 0).val = 128 * (t.val / 8) + (y 0).val; rw [e0]; omega
    | ⟨1, _⟩ => show win0_3.index t 1 * 2048 + 1 * (y 1).val = (y 1).val; rw [e1]; omega
  rw [hidx]
  show V m c main_arg1 _ = _
  rw [V_main_arg1]
  rfl

theorem iblk4 (c : Dev nD) (t : Fin cfg0.N) : (iblk m c 4 t : S768x2048.Idx → EReal) = bWih (args m c) (tj t) := by
  funext y
  unfold iblk
  rw [View.read_apply]
  have hidx : ((cfg0.win 4).blk t).view.emb y = ix2 (prow (tj t) (y 0)) (y 1) := by
    obtain ⟨⟨e0, e1⟩, -⟩ := idx_hidden t
    funext a; apply Fin.ext
    match a with
    | ⟨0, _⟩ => show win0_4.index t 0 * 768 + 1 * (y 0).val = 768 * (t.val % 8) + (y 0).val; rw [e0]; omega
    | ⟨1, _⟩ => show win0_4.index t 1 * 2048 + 1 * (y 1).val = (y 1).val; rw [e1]; omega
  rw [hidx]
  show V0 m c (Proc.devRef .tc main_v15) _ = _
  rw [V0_eq]
  exact pre_v15 _ _ _

theorem iblk5 (c : Dev nD) (t : Fin cfg0.N) : (iblk m c 5 t : S768x2048.Idx → EReal) = bWhh (args m c) (tj t) := by
  funext y
  unfold iblk
  rw [View.read_apply]
  have hidx : ((cfg0.win 5).blk t).view.emb y = ix2 (prow (tj t) (y 0)) (y 1) := by
    obtain ⟨-, ⟨e0, e1⟩, -⟩ := idx_hidden t
    funext a; apply Fin.ext
    match a with
    | ⟨0, _⟩ => show win0_5.index t 0 * 768 + 1 * (y 0).val = 768 * (t.val % 8) + (y 0).val; rw [e0]; omega
    | ⟨1, _⟩ => show win0_5.index t 1 * 2048 + 1 * (y 1).val = (y 1).val; rw [e1]; omega
  rw [hidx]
  show V0 m c (Proc.devRef .tc main_v26) _ = _
  rw [V0_eq]
  exact pre_v26 _ _ _

theorem iblk6 (c : Dev nD) (t : Fin cfg0.N) : (iblk m c 6 t : S1x768.Idx → EReal) = bBih (args m c) (tj t) := by
  funext y
  unfold iblk
  rw [View.read_apply]
  have hidx : ((cfg0.win 6).blk t).view.emb y = ix2 (0 : Fin 1) (prow (tj t) (y 1)) := by
    obtain ⟨-, -, ⟨e0, e1⟩, -⟩ := idx_hidden t
    have hy : (y 0).val < 1 := (y 0).isLt
    funext a; apply Fin.ext
    match a with
    | ⟨0, _⟩ => show win0_6.index t 0 * 1 + 1 * (y 0).val = 0; rw [e0]; omega
    | ⟨1, _⟩ => show win0_6.index t 1 * 768 + 1 * (y 1).val = 768 * (t.val % 8) + (y 1).val; rw [e1]; omega
  rw [hidx]
  show V0 m c (Proc.devRef .tc main_v37) _ = _
  rw [V0_eq]
  exact pre_v37 _ _

theorem iblk7 (c : Dev nD) (t : Fin cfg0.N) : (iblk m c 7 t : S1x768.Idx → EReal) = bBhh (args m c) (tj t) := by
  funext y
  unfold iblk
  rw [View.read_apply]
  have hidx : ((cfg0.win 7).blk t).view.emb y = ix2 (0 : Fin 1) (prow (tj t) (y 1)) := by
    obtain ⟨-, -, -, ⟨e0, e1⟩, -⟩ := idx_hidden t
    have hy : (y 0).val < 1 := (y 0).isLt
    funext a; apply Fin.ext
    match a with
    | ⟨0, _⟩ => show win0_7.index t 0 * 1 + 1 * (y 0).val = 0; rw [e0]; omega
    | ⟨1, _⟩ => show win0_7.index t 1 * 768 + 1 * (y 1).val = 768 * (t.val % 8) + (y 1).val; rw [e1]; omega
  rw [hidx]
  show V0 m c (Proc.devRef .tc main_v48) _ = _
  rw [V0_eq]
  exact pre_v48 _ _

theorem iblk8 (c : Dev nD) (t : Fin cfg0.N) : (iblk m c 8 t : S4096x256.Idx → EReal) = bW2 (args m c) (tj t) := by
  funext y
  unfold iblk
  rw [View.read_apply]
  have hidx : ((cfg0.win 8).blk t).view.emb y = ix2 (y 0) (hcol (tj t) (y 1)) := by
    obtain ⟨-, -, -, -, ⟨e0, e1⟩⟩ := idx_hidden t
    funext a; apply Fin.ext
    match a with
    | ⟨0, _⟩ => show win0_8.index t 0 * 4096 + 1 * (y 0).val = (y 0).val; rw [e0]; omega
    | ⟨1, _⟩ => show win0_8.index t 1 * 256 + 1 * (y 1).val = 256 * (t.val % 8) + (y 1).val; rw [e1]; omega
  rw [hidx]
  show V0 m c (Proc.devRef .tc main_v49) _ = _
  rw [V0_eq]
  exact congrFun (pre_v49 _) _

theorem iblk9 (c : Dev nD) (t : Fin cfg0.N) : (iblk m c 9 t : S1x4096.Idx → EReal) = bB2 (args m c) := by
  funext y
  unfold iblk
  rw [View.read_apply]
  have hidx : ((cfg0.win 9).blk t).view.emb y = ix2 (0 : Fin 1) (y 1) := by
    obtain ⟨-, -, ⟨e0, e1⟩⟩ := idx_resident t
    have hy : (y 0).val < 1 := (y 0).isLt
    funext a; apply Fin.ext
    match a with
    | ⟨0, _⟩ => show win0_9.index t 0 * 1 + 1 * (y 0).val = 0; rw [e0]; omega
    | ⟨1, _⟩ => show win0_9.index t 1 * 4096 + 1 * (y 1).val = (y 1).val; rw [e1]; omega
  rw [hidx]
  show V0 m c (Proc.devRef .tc main_v50) _ = _
  rw [V0_eq]
  exact pre_v50 _ _

end Cert.KernelIdeal.Value

end
-- ==== Proof.KI.Invariant.lean ====
/-
  The grid runs batch tile by batch tile, and inside a batch tile over the eight hidden tiles. What the frame records
  after each point — the new hidden state's tile, the cached first layer, the second layer's accumulator, and at the
  eighth hidden tile the second layer's tile — is, by induction on the point, the specification's value there:
  the cache is the first layer on the tile's rows from the first hidden tile on, and the accumulator after hidden
  tile j is the sum of the first j + 1 partial products.
-/
import proofs.«145547_j6897717478082_2_alg».proof.Proof.KI.Frame
import proofs.«145547_j6897717478082_2_alg».proof.Proof.KI.CaseValues
import proofs.«145547_j6897717478082_2_alg».proof.Proof.KI.Blocks

noncomputable section

namespace Cert.KernelIdeal.Value

open Cert.KernelIdeal Cert.KernelIdeal.Gen Cert.KernelIdeal.HF Cert.KernelIdeal.Tile Cert.KernelIdeal.HostPre Cert.KernelIdeal.Sched
open Idealize.ShloMosaic Idealize.ShloMosaic.TcCoe Idealize.ShloMosaic.ValueIdx Idealize.SL.Sem

variable (m : (ℓ : Loc nD τ sig) → Buf (Elt Ideal) ℓ)

/-- The re-read columns of the old hidden state's block are those of the point's hidden tile. -/
theorem hidCols_eq (c : Dev nD) (t : Fin cfg0.N) :
    hidCols (F := Ideal) (grid0.coords t) (bHid (args m c) (ti t)) = bHidCols (args m c) (ti t) (tj t) := by
  funext y
  unfold hidCols
  show bHid (args m c) (ti t) ((Rect.unit (s := S128x2048) (k0_off1 (grid0.coords t)) S128x256.size (k0_off1_inb (grid0.coords t))).emb y) = _
  have hidx : (Rect.unit (s := S128x2048) (k0_off1 (grid0.coords t)) S128x256.size (k0_off1_inb (grid0.coords t))).emb y = ix2 (y 0) (hcol (tj t) (y 1)) := by
    have ho := off1 t
    funext a; apply Fin.ext
    match a with
    | ⟨0, _⟩ => show k0_off1 (grid0.coords t) 0 + 1 * (y 0).val = (y 0).val; rw [ho]; show 0 + 1 * (y 0).val = (y 0).val; omega
    | ⟨1, _⟩ => show k0_off1 (grid0.coords t) 1 + 1 * (y 1).val = 256 * (t.val % 8) + (y 1).val; rw [ho]; show 256 * (t.val % 8) + 1 * (y 1).val = _; omega
  rw [hidx]
  rfl

/-- The gates' payloads on the point's blocks, with the cached first layer `X`: the new hidden state's tile. -/
theorem tile_h (c : Dev nD) (t : Fin cfg0.N) :
    k0_pay1 (F := Ideal) (k0_pay8 (F := Ideal) (xTile (args m c) (ti t)) (iblk m c 3 t) (iblk m c 4 t) (iblk m c 5 t) (iblk m c 6 t) (iblk m c 7 t))
      (k0_pay9 (F := Ideal) (xTile (args m c) (ti t)) (iblk m c 3 t) (iblk m c 4 t) (iblk m c 5 t) (iblk m c 6 t) (iblk m c 7 t))
      (hidCols (F := Ideal) (grid0.coords t) (iblk m c 3 t)) (k0_pay10 (F := Ideal)) = hTile (args m c) (ti t) (tj t) := by
  have e3 := iblk3 m c t; have e4 := iblk4 m c t; have e5 := iblk5 m c t; have e6 := iblk6 m c t; have e7 := iblk7 m c t
  rw [e3, e4, e5, e6, e7, hidCols_eq]
  exact pay1_tile (args m c) (ti t) (tj t)

/-- The same for the accumulator: one more partial product. -/
theorem tile_acc (c : Dev nD) (t : Fin cfg0.N) (k : ℕ) (hk : k = (tj t).val) :
    k0_pay2 (F := Ideal) (k0_pay8 (F := Ideal) (xTile (args m c) (ti t)) (iblk m c 3 t) (iblk m c 4 t) (iblk m c 5 t) (iblk m c 6 t) (iblk m c 7 t))
      (k0_pay9 (F := Ideal) (xTile (args m c) (ti t)) (iblk m c 3 t) (iblk m c 4 t) (iblk m c 5 t) (iblk m c 6 t) (iblk m c 7 t))
      (hidCols (F := Ideal) (grid0.coords t) (iblk m c 3 t)) (k0_pay10 (F := Ideal)) (iblk m c 8 t) (accTile (args m c) (ti t) k)
      = accTile (args m c) (ti t) (k + 1) := by
  have e3 := iblk3 m c t; have e4 := iblk4 m c t; have e5 := iblk5 m c t; have e6 := iblk6 m c t; have e7 := iblk7 m c t
  have e8 := iblk8 m c t
  subst hk
  rw [e3, e4, e5, e6, e7, e8, hidCols_eq]
  exact pay2_tile (args m c) (ti t) (tj t)

/-- The first layer computed at the first hidden tile. -/
theorem tile_x (c : Dev nD) (t : Fin cfg0.N) :
    k0_pay4 (F := Ideal) (iblk m c 0 t) (iblk m c 1 t) (iblk m c 2 t) = xTile (args m c) (ti t) := by
  have e0 := iblk0 m c t; have e1 := iblk1 m c t; have e2 := iblk2 m c t
  rw [e0, e1, e2]
  exact pay4_tile (args m c) (ti t)

/-- WHAT EVERY POINT LEAVES: the new state's tile; at the eighth hidden tile the second layer's tile; the cached first
    layer; the accumulator after the point's partial product. -/
theorem inv (c : Dev nD) : ∀ (n : ℕ) (h : n < cfg0.N),
    (outsAt0 m c n h).1 = hTile (args m c) (ti ⟨n, h⟩) (tj ⟨n, h⟩)
    ∧ (n % 8 = 7 → (outsAt0 m c n h).2.1 = qTile (args m c) (ti ⟨n, h⟩))
    ∧ (outsAt0 m c n h).2.2.1 = xTile (args m c) (ti ⟨n, h⟩)
    ∧ (outsAt0 m c n h).2.2.2 = accTile (args m c) (ti ⟨n, h⟩) (n % 8 + 1) := by
  intro n
  induction n using Nat.strong_induction_on with
  | _ n ih =>
    intro h
    have hj : (tj ⟨n, h⟩).val = n % 8 := rfl
    by_cases h1 : n % 8 = 0
    · have h2 : ¬n % 8 = 7 := by omega
      have hc := outsAt0_first m c ⟨n, h⟩ h1 h2
      dsimp only at hc
      rw [hc]
      dsimp only
      refine ⟨?_, fun h7 => absurd h7 h2, ?_, ?_⟩
      · unfold out0_first_10
        rw [first_10, tile_x]
        exact tile_h m c ⟨n, h⟩
      · unfold sout0_first_0
        rw [first_s0]
        exact tile_x m c ⟨n, h⟩
      · unfold sout0_first_1
        rw [first_s1, tile_x, accTile_zero (args m c) (ti ⟨n, h⟩), h1]
        exact tile_acc m c ⟨n, h⟩ 0 (by rw [hj, h1])
    · have hn : 0 < n := by omega
      obtain ⟨_, _, px, pa⟩ := ih (n - 1) (by omega) (by omega)
      have hti : ti ⟨n - 1, by omega⟩ = ti ⟨n, h⟩ := by
        apply Fin.ext; show (n - 1) / 8 = n / 8; omega
      have hacc : (n - 1) % 8 + 1 = n % 8 := by omega
      rw [hti] at px pa
      rw [hacc] at pa
      by_cases h2 : n % 8 = 7
      · have hc := outsAt0_last m c ⟨n, h⟩ h1 h2
        dsimp only at hc
        rw [hc]
        dsimp only
        refine ⟨?_, fun _ => ?_, ?_, ?_⟩
        · unfold out0_last_10
          rw [last_10, px]
          exact tile_h m c ⟨n, h⟩
        · unfold out0_last_11
          rw [last_11, px, pa, tile_acc m c ⟨n, h⟩ (n % 8) hj.symm]
          have e9 := iblk9 m c ⟨n, h⟩
          rw [e9, h2]
          exact pay3_tile (args m c) (ti ⟨n, h⟩)
        · unfold sout0_last_0
          exact px
        · unfold sout0_last_1
          rw [last_s1, px, pa]
          exact tile_acc m c ⟨n, h⟩ (n % 8) hj.symm
      · have hc := outsAt0_mid m c ⟨n, h⟩ h1 h2
        dsimp only at hc
        rw [hc]
        dsimp only
        refine ⟨?_, fun h7 => absurd h7 h2, ?_, ?_⟩
        · unfold out0_mid_10
          rw [mid_10, px]
          exact tile_h m c ⟨n, h⟩
        · unfold sout0_mid_0
          exact px
        · unfold sout0_mid_1
          rw [mid_s1, px, pa]
          exact tile_acc m c ⟨n, h⟩ (n % 8) hj.symm

end Cert.KernelIdeal.Value

end
-- ==== Proof.DecodeLib.lean ====
/-
  Lemmas shared by the two decodes of a [4096, 4096] array by maxima, each program's host operations read at an index:
  −∞ is the bottom of the extended reals, so a maximum folded from it over a finite family is the family's supremum — in
  whatever order the fold runs; a maximum-reduce over one axis, a sliding maximum along a row, a gather of whole
  columns through a table of column numbers, and the interleaving of two arrays row by row are read at an index; and
  the second head's 64 entries are re-indexed as the entries of one residue class modulo 64.
-/
import Idealize.ShloMosaic.Lib.Pipeline.Value
import Idealize.ShloMosaic.Lib.ValueIdx
import Idealize.ShloMosaic.PureOps.Reduce
import Idealize.ShloMosaic.PureOps.Ideal.Laws
import proofs.«145547_j6897717478082_2_alg».proof.Proof.Spec

noncomputable section

namespace Cert.DecodeLib

open Idealize.ShloMosaic Idealize.ShloMosaic.ValueIdx

/-- The float word of −∞ is the bottom of the extended reals. -/
theorem negInf_eq_bot : Ideal.ofBits .f32 0xFF800000#32 = (⊥ : EReal) := by
  simp [Ideal.ofBits, Ideal.ieee]

/-- A fold of the maximum from −∞ over a finite set is the supremum over it. -/
theorem fold_maximumf_eq_sup {ι : Type} (s : Finset ι) (f : ι → Ideal .f32) :
    s.fold (FloatOps.maximumf (F := Ideal) (φ := .f32)) (Ideal.ofBits .f32 0xFF800000#32) f = s.sup f := by
  classical
  rw [negInf_eq_bot]
  induction s using Finset.induction_on with
  | empty => simp
  | insert a s ha ih => rw [Finset.fold_insert ha, Finset.sup_insert, ih]; rfl

/-- A left fold of the maximum along a list, from any start, is the maximum of the start and the supremum of the entries. -/
theorem foldl_max_eq {ι : Type} [DecidableEq ι] (g : ι → EReal) :
    ∀ (l : List ι) (acc : EReal), l.foldl (fun r n => max r (g n)) acc = max acc (l.toFinset.sup g)
  | [], acc => by simp
  | a :: l, acc => by
    rw [List.foldl_cons, foldl_max_eq g l, List.toFinset_cons, Finset.sup_insert, max_assoc]

/-- A maximum-reduce over one axis, from −∞, read at a result index: the supremum over that axis's coordinates. -/
theorem reduce_max_eq_sup {s t u : Shape} {a : Fin s.rank} (x : FVec Ideal s .f32) (h' : s.ReducesTo [a] t)
    (h : s.Reduces [a] t) (hu : 0 < u.numel) (j : t.Idx) :
    Host.reduce (FloatOps.maximumf (F := Ideal) (φ := .f32)) x (constant (F := Ideal) u .f32 0xFF800000#32) h' hu j
      = Finset.univ.sup fun k : Fin (s.size a) => x (h.lift j k) :=
  (Host.reduce_eq_fold_single _ x _ h' h hu j).trans (fold_maximumf_eq_sup _ _)

/-- Over a [4096, 64, 64] array reduced along its last axis, the index above `(b, i)` with coordinate `k`. -/
theorem lift_last (h : (⟨3, ![4096, 64, 64]⟩ : Shape).Reduces [2] ⟨2, ![4096, 64]⟩) (b : Fin 4096) (i k : Fin 64) :
    h.lift (ix2 b i) k = ix3 b i k := by
  funext c
  refine Fin.ext ?_
  match c with
  | ⟨0, _⟩ => rfl
  | ⟨1, _⟩ => rfl
  | ⟨2, _⟩ => rfl

/-- Over a [4096, 64, 64] array reduced along its middle axis, the index above `(b, c)` with coordinate `k`. -/
theorem lift_mid (h : (⟨3, ![4096, 64, 64]⟩ : Shape).Reduces [1] ⟨2, ![4096, 64]⟩) (b : Fin 4096) (c k : Fin 64) :
    h.lift (ix2 b c) k = ix3 b k c := by
  funext d
  refine Fin.ext ?_
  match d with
  | ⟨0, _⟩ => rfl
  | ⟨1, _⟩ => rfl
  | ⟨2, _⟩ => rfl

/-- The dimension numbers of a gather of whole columns: operand [4096, 4096], start indices [64, 64, 1] naming a
    column each, result [4096, 64, 64] whose first axis runs down the column. -/
abbrev colDims (wf : GatherDims.WF ⟨2, ![4096, 4096]⟩ ⟨3, ![64, 64, 1]⟩ ⟨3, ![4096, 64, 64]⟩ [0] [1] [] [1] [] 2 ![4096, 1]) :
    GatherDims ⟨2, ![4096, 4096]⟩ ⟨3, ![64, 64, 1]⟩ ⟨3, ![4096, 64, 64]⟩ where
  offsetDims := [0]
  collapsedSliceDims := [1]
  operandBatchingDims := []
  startIndicesBatchingDims := []
  startIndexMap := [1]
  indexVectorDim := 2
  sliceSizes := ![4096, 1]
  wf := wf

/-- The column gather read at `(b, i, j)`: row `b` of the column the table names at `(i, j)`, the column number read
    signed and clamped into the array. -/
theorem gather_cols_apply {α : Type} {w : Nat}
    (wf : GatherDims.WF ⟨2, ![4096, 4096]⟩ ⟨3, ![64, 64, 1]⟩ ⟨3, ![4096, 64, 64]⟩ [0] [1] [] [1] [] 2 ![4096, 1])
    (x : (⟨2, ![4096, 4096]⟩ : Shape).Idx → α) (idx : IVec ⟨3, ![64, 64, 1]⟩ w) (b : Fin 4096) (i j : Fin 64) :
    Host.gather (colDims wf) x idx (ix3 b i j)
      = x (ix2 b ⟨min (idx (ix3 i j (0 : Fin 1))).toInt.toNat 4095, by omega⟩) := by
  unfold Host.gather
  congr 1
  funext a
  refine Fin.ext ?_
  show (colDims wf).start (ix3 b i j) idx a + (colDims wf).batchCoord (ix3 b i j) a + (colDims wf).offCoord (ix3 b i j) a = _
  rw [GatherDims.batchCoord_eq_zero _ _ _ List.not_mem_nil, Nat.add_zero]
  have h01 : ∀ a : Fin 2, a = 0 ∨ a = 1 := by decide
  rcases h01 a with rfl | rfl
  · unfold GatherDims.start GatherDims.offCoord
    rw [dif_neg (show (0 : Fin 2) ∉ (colDims wf).startIndexMap from fun h => absurd (List.mem_singleton.mp h) (by decide)),
      dif_pos (show (0 : Fin 2) ∈ (colDims wf).sKept from
        ((colDims wf).mem_sKept 0).2 ⟨fun h => absurd (List.mem_singleton.mp h) (by decide), List.not_mem_nil⟩), Nat.zero_add]
    rfl
  · rw [GatherDims.offCoord_eq_zero _ _ _ (fun h => (((colDims wf).mem_sKept 1).1 h).1 (List.mem_singleton.mpr rfl)), Nat.add_zero]
    unfold GatherDims.start
    rw [dif_pos (show (1 : Fin 2) ∈ (colDims wf).startIndexMap from List.mem_singleton.mpr rfl)]
    have hsi : (colDims wf).siIdx (ix3 b i j) ⟨List.idxOf (1 : Fin 2) (colDims wf).startIndexMap,
        List.idxOf_lt_length_iff.2 (List.mem_singleton.mpr rfl)⟩ = ix3 i j (0 : Fin 1) := by
      funext c; refine Fin.ext ?_
      match c with
      | ⟨0, _⟩ => rfl
      | ⟨1, _⟩ => rfl
      | ⟨2, _⟩ => rfl
    rw [hsi]
    rfl

/-- The positions of a window of one row and 64 columns are its 64 column positions. -/
def winEquiv : Fin 64 ≃ (⟨2, ![1, 64]⟩ : Shape).Idx where
  toFun k := ix2 (0 : Fin 1) k
  invFun w := w 1
  left_inv _ := rfl
  right_inv w := by
    funext a
    match a with
    | ⟨0, _⟩ =>
      refine Fin.ext ?_
      have h : (w (0 : Fin 2)).val < 1 := (w (0 : Fin 2)).isLt
      exact (Nat.lt_one_iff.mp h).symm
    | ⟨1, _⟩ => rfl

/-- A sliding maximum of width 64 along the rows of a [4096, 127] array, from −∞, read at `(b, i)`: the supremum of the
    64 entries of row `b` from column `i` on. -/
theorem reduceWindow_max_apply (x : FVec Ideal ⟨2, ![4096, 127]⟩ .f32) {u : Shape} (init : FVec Ideal u .f32)
    (hinit : ∀ z, init z = Ideal.ofBits .f32 0xFF800000#32)
    (h : (⟨2, ![4096, 127]⟩ : Shape).ReduceWindows ![1, 64] ![1, 1] ![0, 0] ![0, 0] ⟨2, ![4096, 64]⟩) (hu : 0 < u.numel)
    (b : Fin 4096) (i : Fin 64) :
    Host.reduceWindow (FloatOps.maximumf (F := Ideal) (φ := .f32)) ![1, 64] ![1, 1] ![0, 0] ![0, 0] x init h hu (ix2 b i)
      = Finset.univ.sup fun k : Fin 64 => x (ix2 b ⟨i.val + k.val, by omega⟩) := by
  unfold Host.reduceWindow
  dsimp only
  refine (foldl_max_eq _ _ _).trans ?_
  rw [List.toFinset_finRange, hinit, negInf_eq_bot, bot_sup_eq, Finset.sup_univ_eq_iSup, Finset.sup_univ_eq_iSup]
  refine ((Equiv.iSup_comp (Shape.rowMajor ⟨2, ![1, 64]⟩)).symm.trans (Equiv.iSup_comp winEquiv).symm).trans (iSup_congr fun k => ?_)
  simp only [Equiv.symm_apply_apply]
  have h01 : ∀ a : Fin 2, a = 0 ∨ a = 1 := by decide
  split
  · refine congrArg x (funext fun a => Fin.ext ?_)
    rcases h01 a with rfl | rfl
    · show b.val * 1 + 0 - 0 = b.val
      omega
    · show i.val * 1 + k.val - 0 = i.val + k.val
      omega
  · next hn =>
    refine absurd (fun a => ?_) hn
    rcases h01 a with rfl | rfl
    · exact ⟨Nat.zero_le _, by show b.val * 1 + 0 - 0 < 4096; omega⟩
    · exact ⟨Nat.zero_le _, by show i.val * 1 + k.val - 0 < 127; omega⟩

/-- The second head by column maxima: the 64 entries `i + 64·j − 1` (modulo 4096) are the entries `64·a + c` of one
    residue `c = i − 1` (modulo 64), each once; for `i = 0` the correspondence shifts `j` by one, cyclically. -/
theorem q2_eq_colmax (qq : Fin 4096 → EReal) (i : Fin 64) :
    Cert.Spec.q2 qq i = Finset.univ.sup fun a : Fin 64 => qq ⟨64 * a.val + (i.val + 63) % 64, by omega⟩ := by
  unfold Cert.Spec.q2
  rw [Finset.sup_univ_eq_iSup, Finset.sup_univ_eq_iSup]
  by_cases hi : i.val = 0
  · refine (iSup_congr fun j => ?_).trans
      (Equiv.iSup_comp (g := fun a : Fin 64 => qq ⟨64 * a.val + (i.val + 63) % 64, by omega⟩) (Equiv.addRight (63 : Fin 64)))
    refine congrArg qq (Fin.ext ?_)
    show (i.val + 64 * j.val + 4095) % 4096 = 64 * ((j.val + 63) % 64) + (i.val + 63) % 64
    omega
  · refine iSup_congr fun j => congrArg qq (Fin.ext ?_)
    show (i.val + 64 * j.val + 4095) % 4096 = 64 * j.val + (i.val + 63) % 64
    omega

/-- Two [4096, 64] arrays interleaved row by row — each given a middle axis of extent one, the two concatenated along
    it, the result read as [8192, 64] — hold, at row `r`, row `r / 2` of the first array when `r` is even and of the
    second when `r` is odd. -/
theorem interleave_apply {α : Type} (h1 h2 : (⟨2, ![4096, 64]⟩ : Shape).Idx → α)
    (hb : (⟨2, ![4096, 64]⟩ : Shape).BroadcastsInDim ⟨3, ![4096, 1, 64]⟩ (![0, 2] : Fin 2 → Fin 3))
    (hc : Shape.Concatenates [⟨3, ![4096, 1, 64]⟩, ⟨3, ![4096, 1, 64]⟩] ⟨3, ![4096, 2, 64]⟩ 1)
    (hs : (⟨3, ![4096, 2, 64]⟩ : Shape).ShapeCasts ⟨2, ![8192, 64]⟩) (r : Fin 8192) (i : Fin 64) :
    shapeCast ⟨2, ![8192, 64]⟩ (concatenate ⟨3, ![4096, 2, 64]⟩ 1
        [⟨⟨3, ![4096, 1, 64]⟩, broadcastInDim ⟨3, ![4096, 1, 64]⟩ ![0, 2] hb h1⟩,
         ⟨⟨3, ![4096, 1, 64]⟩, broadcastInDim ⟨3, ![4096, 1, 64]⟩ ![0, 2] hb h2⟩] hc) hs (ix2 r i)
      = if r.val % 2 = 0 then h1 (ix2 (⟨r.val / 2, by omega⟩ : Fin 4096) i) else h2 (ix2 (⟨r.val / 2, by omega⟩ : Fin 4096) i) := by
  have h01 : ∀ a : Fin 2, a = 0 ∨ a = 1 := by decide
  have h012 : ∀ a : Fin 3, a = 0 ∨ a = 1 ∨ a = 2 := by decide
  refine (shapeCast_apply _ hs (ix2 r i) (ix3 (⟨r.val / 2, by omega⟩ : Fin 4096) (⟨r.val % 2, by omega⟩ : Fin 2) i) ?_).trans ?_
  · rw [Shape.rowMajor_val_three, Shape.rowMajor_val_two]
    show ((r.val / 2) * 2 + r.val % 2) * 64 + i.val = r.val * 64 + i.val
    omega
  by_cases hr : r.val % 2 = 0
  · rw [if_pos hr]
    refine (concatenate_apply_piece (t := ⟨3, ![4096, 2, 64]⟩) (1 : Fin 3)
        [⟨⟨3, ![4096, 1, 64]⟩, broadcastInDim ⟨3, ![4096, 1, 64]⟩ ![0, 2] hb h1⟩,
         ⟨⟨3, ![4096, 1, 64]⟩, broadcastInDim ⟨3, ![4096, 1, 64]⟩ ![0, 2] hb h2⟩] hc _ 0 Nat.zero_lt_two _ _ rfl rfl 0 rfl
      (ix3 (⟨r.val / 2, by omega⟩ : Fin 4096) (0 : Fin 1) i) (fun b hb1 => ?_) ?_).trans ?_
    · rcases h012 b with rfl | rfl | rfl
      · rfl
      · exact absurd rfl hb1
      · rfl
    · show 0 + 0 = r.val % 2
      omega
    · refine broadcastInDim_apply _ hb h1 _ (ix2 (⟨r.val / 2, by omega⟩ : Fin 4096) i) fun a => ?_
      rcases h01 a with rfl | rfl <;> rfl
  · rw [if_neg hr]
    refine (concatenate_apply_piece (t := ⟨3, ![4096, 2, 64]⟩) (1 : Fin 3)
        [⟨⟨3, ![4096, 1, 64]⟩, broadcastInDim ⟨3, ![4096, 1, 64]⟩ ![0, 2] hb h1⟩,
         ⟨⟨3, ![4096, 1, 64]⟩, broadcastInDim ⟨3, ![4096, 1, 64]⟩ ![0, 2] hb h2⟩] hc _ 1 Nat.one_lt_two _ _ rfl rfl 1 rfl
      (ix3 (⟨r.val / 2, by omega⟩ : Fin 4096) (0 : Fin 1) i) (fun b hb1 => ?_) ?_).trans ?_
    · rcases h012 b with rfl | rfl | rfl
      · rfl
      · exact absurd rfl hb1
      · rfl
    · show 1 + 0 = r.val % 2
      omega
    · refine broadcastInDim_apply _ hb h2 _ (ix2 (⟨r.val / 2, by omega⟩ : Fin 4096) i) fun a => ?_
      rcases h01 a with rfl | rfl <;> rfl

/-- A maximum-reduce of a [4096, 64, 64] array over its last axis, from −∞, at `(b, i)`. -/
theorem reduce_last_apply (x : FVec Ideal ⟨3, ![4096, 64, 64]⟩ .f32) {u : Shape}
    (h' : (⟨3, ![4096, 64, 64]⟩ : Shape).ReducesTo [2] ⟨2, ![4096, 64]⟩) (hu : 0 < u.numel) (b : Fin 4096) (i : Fin 64) :
    Host.reduce (FloatOps.maximumf (F := Ideal) (φ := .f32)) x (constant (F := Ideal) u .f32 0xFF800000#32) h' hu (ix2 b i)
      = Finset.univ.sup fun k : Fin 64 => x (ix3 b i k) := by
  have h : (⟨3, ![4096, 64, 64]⟩ : Shape).Reduces [2] ⟨2, ![4096, 64]⟩ := by decide
  refine (reduce_max_eq_sup x h' h hu (ix2 b i)).trans ?_
  show (Finset.univ.sup fun k : Fin 64 => x (h.lift (ix2 b i) k)) = _
  exact Finset.sup_congr rfl fun k _ => congrArg x (lift_last h b i k)

/-- A maximum-reduce of a [4096, 64, 64] array over its middle axis, from −∞, at `(b, c)`. -/
theorem reduce_mid_apply (x : FVec Ideal ⟨3, ![4096, 64, 64]⟩ .f32) {u : Shape}
    (h' : (⟨3, ![4096, 64, 64]⟩ : Shape).ReducesTo [1] ⟨2, ![4096, 64]⟩) (hu : 0 < u.numel) (b : Fin 4096) (c : Fin 64) :
    Host.reduce (FloatOps.maximumf (F := Ideal) (φ := .f32)) x (constant (F := Ideal) u .f32 0xFF800000#32) h' hu (ix2 b c)
      = Finset.univ.sup fun k : Fin 64 => x (ix3 b k c) := by
  have h : (⟨3, ![4096, 64, 64]⟩ : Shape).Reduces [1] ⟨2, ![4096, 64]⟩ := by decide
  refine (reduce_max_eq_sup x h' h hu (ix2 b c)).trans ?_
  show (Finset.univ.sup fun k : Fin 64 => x (h.lift (ix2 b c) k)) = _
  exact Finset.sup_congr rfl fun k _ => congrArg x (lift_mid h b c k)

/-- A column number below 4096, written as a 32-bit word and read back signed, is itself. -/
theorem toInt_toNat_ofNat (n : Nat) (h : n < 4096) : (BitVec.ofNat 32 n).toInt.toNat = n := by
  rw [BitVec.toInt_eq_toNat_cond, BitVec.toNat_ofNat]
  have e : n % 2 ^ 32 = n := Nat.mod_eq_of_lt (by omega)
  rw [e, if_pos (by omega)]
  exact Int.toNat_natCast n

end Cert.DecodeLib

end
-- ==== Proof.KI.HostTail.lean ====
/-
  The host lines that follow the kernel's region: from q : [4096, 4096] to the [8192, 64] result.
  First head: a sliding maximum of width 64 over the first 127 columns. Second head: q seen as [4096, 64, 64], the
  maximum over the middle axis (the maximum of every 64th column), rolled by one along the last axis. The two heads
  are interleaved row by row. Both are the heads of `Cert.Spec.decode`. The three groups of lines are read one after the
  other, each from arbitrary buffer contents, so that no group's result is ever unfolded inside another's.
-/
import proofs.«145547_j6897717478082_2_alg».proof.Proof.Gen.KernelIdeal.Launch
import proofs.«145547_j6897717478082_2_alg».proof.Proof.Spec
import proofs.«145547_j6897717478082_2_alg».proof.Proof.DecodeLib

noncomputable section

namespace Cert.KernelIdeal.HostTail

open Idealize.ShloMosaic Idealize.ShloMosaic.ValueIdx Idealize.SL.Sem
open Cert.KernelIdeal.Gen Cert.DecodeLib

/-- Two slices of a [4096, 64] array — its last column, then its first 63 — concatenated: the array rolled by one along
    its last axis. At `(b, i)` it holds the array's entry at column `i − 1` modulo 64. -/
theorem roll_apply {α : Type} (cm : (⟨2, ![4096, 64]⟩ : Shape).Idx → α)
    (hs0 : (⟨2, ![4096, 64]⟩ : Shape).Slices ![0, 63] ⟨2, ![4096, 1]⟩)
    (hs1 : (⟨2, ![4096, 64]⟩ : Shape).Slices ![0, 0] ⟨2, ![4096, 63]⟩)
    (hc : Shape.Concatenates [⟨2, ![4096, 1]⟩, ⟨2, ![4096, 63]⟩] ⟨2, ![4096, 64]⟩ 1) (b : Fin 4096) (i : Fin 64) :
    concatenate ⟨2, ![4096, 64]⟩ 1
        [⟨⟨2, ![4096, 1]⟩, extractStridedSlice ⟨2, ![4096, 1]⟩ ![0, 63] cm hs0⟩,
         ⟨⟨2, ![4096, 63]⟩, extractStridedSlice ⟨2, ![4096, 63]⟩ ![0, 0] cm hs1⟩] hc (ix2 b i)
      = cm (ix2 b ⟨(i.val + 63) % 64, Nat.mod_lt _ (by norm_num)⟩) := by
  have h01 : ∀ a : Fin 2, a = 0 ∨ a = 1 := by decide
  by_cases hi : i.val = 0
  · have hcp := concatenate_apply_piece (t := ⟨2, ![4096, 64]⟩) (1 : Fin 2)
      [⟨⟨2, ![4096, 1]⟩, extractStridedSlice ⟨2, ![4096, 1]⟩ ![0, 63] cm hs0⟩,
       ⟨⟨2, ![4096, 63]⟩, extractStridedSlice ⟨2, ![4096, 63]⟩ ![0, 0] cm hs1⟩] hc (ix2 b i) 0 Nat.zero_lt_two
      ⟨2, ![4096, 1]⟩ (extractStridedSlice ⟨2, ![4096, 1]⟩ ![0, 63] cm hs0) rfl rfl 0 rfl (ix2 b (0 : Fin 1))
    refine (hcp (fun a ha1 => ?_) ?_).trans ?_
    · rcases h01 a with rfl | rfl
      · rfl
      · exact absurd rfl ha1
    · show 0 + 0 = i.val
      omega
    · refine extractStridedSlice_apply _ cm hs0 _ (ix2 b ⟨(i.val + 63) % 64, Nat.mod_lt _ (by norm_num)⟩) fun a => ?_
      rcases h01 a with rfl | rfl
      · show b.val = 0 + b.val
        omega
      · show (i.val + 63) % 64 = 63 + 0
        omega
  · have hcp := concatenate_apply_piece (t := ⟨2, ![4096, 64]⟩) (1 : Fin 2)
      [⟨⟨2, ![4096, 1]⟩, extractStridedSlice ⟨2, ![4096, 1]⟩ ![0, 63] cm hs0⟩,
       ⟨⟨2, ![4096, 63]⟩, extractStridedSlice ⟨2, ![4096, 63]⟩ ![0, 0] cm hs1⟩] hc (ix2 b i) 1 Nat.one_lt_two
      ⟨2, ![4096, 63]⟩ (extractStridedSlice ⟨2, ![4096, 63]⟩ ![0, 0] cm hs1) rfl rfl 1 rfl
      (ix2 b (⟨i.val - 1, by omega⟩ : Fin 63))
    refine (hcp (fun a ha1 => ?_) ?_).trans ?_
    · rcases h01 a with rfl | rfl
      · rfl
      · exact absurd rfl ha1
    · show 1 + (i.val - 1) = i.val
      omega
    · refine extractStridedSlice_apply _ cm hs1 _ (ix2 b ⟨(i.val + 63) % 64, Nat.mod_lt _ (by norm_num)⟩) fun a => ?_
      rcases h01 a with rfl | rfl
      · show b.val = 0 + b.val
        omega
      · show (i.val + 63) % 64 = 0 + (i.val - 1)
        omega

/-- What q's buffer holds, as an array of extended reals. -/
abbrev qOf (W : Valuation τ sig (Elt Ideal)) : FVec Ideal S4096x4096 .f32 := W (Proc.devRef .tc main_v51_1)

/-- The first group of lines, from any contents `W`: the sliding maximum of q's buffer, at `(b, i)`. -/
theorem ops1_slide (W : Valuation τ sig (Elt Ideal)) (b : Fin 4096) (i : Fin 64) :
    (StableHlo.after (hostOps1 (F := Ideal)) W (Proc.devRef .tc main_v54) : S4096x64.Idx → EReal) (ix2 b i)
      = Finset.univ.sup fun k : Fin 64 => qOf W (ix2 b ⟨i.val + k.val, by omega⟩) := by
  have h01 : ∀ a : Fin 2, a = 0 ∨ a = 1 := by decide
  after_results
  refine (reduceWindow_max_apply _ _ (fun _ => rfl) reduceWindows_S4096x127_S4096x64_w1s1p0_0_w64s1p0_0 h_S_ b i).trans
    (Finset.sup_congr rfl fun k _ => ?_)
  refine extractStridedSlice_apply _ _ slices_S4096x4096_S4096x127_0_0 _ (ix2 b ⟨i.val + k.val, by omega⟩) fun a => ?_
  rcases h01 a with rfl | rfl
  · show b.val = 0 + b.val
    omega
  · show i.val + k.val = 0 + (i.val + k.val)
    omega

/-- The first group of lines, from any contents `W`: the column maxima of q's buffer, at `(b, c)`. -/
theorem ops1_colMax (W : Valuation τ sig (Elt Ideal)) (b : Fin 4096) (c : Fin 64) :
    (StableHlo.after (hostOps1 (F := Ideal)) W (Proc.devRef .tc main_v56) : S4096x64.Idx → EReal) (ix2 b c)
      = Finset.univ.sup fun a : Fin 64 => qOf W (ix2 b ⟨64 * a.val + c.val, by omega⟩) := by
  after_results
  refine (reduce_mid_apply _ reducesTo_S4096x64x64_S4096x64_d1 h_S_ b c).trans (Finset.sup_congr rfl fun a _ => ?_)
  show shapeCast S4096x64x64 (qOf W) shapeCasts_S4096x4096_S4096x64x64 (ix3 b a c) = _
  refine shapeCast_apply _ shapeCasts_S4096x4096_S4096x64x64 (ix3 b a c) (ix2 b ⟨64 * a.val + c.val, by omega⟩) ?_
  rw [Shape.rowMajor_val_two, Shape.rowMajor_val_three]
  show b.val * 4096 + (64 * a.val + c.val) = (b.val * 64 + a.val) * 64 + c.val
  omega

/-- The roll's three lines, from any contents `W`: the roll of what the column-maxima buffer held. -/
theorem ops1_1_roll (W : Valuation τ sig (Elt Ideal)) (b : Fin 4096) (i : Fin 64) :
    (StableHlo.after (hostOps1_1 (F := Ideal)) W (Proc.devRef .tc main_v57) : S4096x64.Idx → EReal) (ix2 b i)
      = (W (Proc.devRef .tc main_v56) : S4096x64.Idx → EReal) (ix2 b ⟨(i.val + 63) % 64, Nat.mod_lt _ (by norm_num)⟩) := by
  after_results
  exact roll_apply (W (Proc.devRef .tc main_v56) : S4096x64.Idx → EReal) slices_S4096x64_S4096x1_0_63 slices_S4096x64_S4096x63_0_0
    concatenates_S4096x1_S4096x63_S4096x64_d1 b i

/-- The roll's three lines leave the first head's buffer as it was. -/
theorem ops1_1_keep (W : Valuation τ sig (Elt Ideal)) :
    StableHlo.after (hostOps1_1 (F := Ideal)) W (Proc.devRef .tc main_v54) = W (Proc.devRef .tc main_v54) := by
  after_results

/-- The last four lines, from any contents `W`: the two heads' buffers interleaved row by row. -/
theorem ops1_2_interleave (W : Valuation τ sig (Elt Ideal)) (r : Fin 8192) (i : Fin 64) :
    (StableHlo.after (hostOps1_2 (F := Ideal)) W (Proc.devRef .tc main_v61) : S8192x64.Idx → EReal) (ix2 r i)
      = if r.val % 2 = 0 then (W (Proc.devRef .tc main_v54) : S4096x64.Idx → EReal) (ix2 (⟨r.val / 2, by omega⟩ : Fin 4096) i)
        else (W (Proc.devRef .tc main_v57) : S4096x64.Idx → EReal) (ix2 (⟨r.val / 2, by omega⟩ : Fin 4096) i) := by
  after_results
  exact interleave_apply (W (Proc.devRef .tc main_v54) : S4096x64.Idx → EReal) (W (Proc.devRef .tc main_v57) : S4096x64.Idx → EReal)
    bcast_S4096x64_S4096x1x64_0_2 concatenates_S4096x1x64_S4096x1x64_S4096x2x64_d1 shapeCasts_S4096x2x64_S8192x64 r i

/-- The three groups of lines run one after the other. -/
theorem tail_split (ν : Valuation τ sig (Elt Ideal)) :
    StableHlo.after (List.flatten [hostOps1 (F := Ideal), hostOps1_1, hostOps1_2]) ν
      = StableHlo.after hostOps1_2 (StableHlo.after hostOps1_1 (StableHlo.after hostOps1 ν)) := by
  show StableHlo.after (hostOps1 ++ (hostOps1_1 ++ (hostOps1_2 ++ []))) ν = _
  rw [List.append_nil, StableHlo.after_append, StableHlo.after_append]

/-- After the host tail the result buffer holds the specification's decode of what the region left in q's buffer. -/
theorem tail_out (ν : Valuation τ sig (Elt Ideal)) :
    (StableHlo.after (List.flatten [hostOps1 (F := Ideal), hostOps1_1, hostOps1_2]) ν (Proc.devRef .tc main_v61) : S8192x64.Idx → EReal)
      = Cert.Spec.decode (ν (Proc.devRef .tc main_v51_1)) := by
  rw [tail_split]
  funext jj
  obtain ⟨r, i, rfl⟩ : ∃ (r : Fin 8192) (i : Fin 64), jj = ix2 r i := ⟨jj 0, jj 1, eq_ix2 jj⟩
  refine (ops1_2_interleave _ r i).trans ?_
  show _ = Cert.Spec.decodeAt (ν (Proc.devRef .tc main_v51_1)) r i
  unfold Cert.Spec.decodeAt
  by_cases hr : r.val % 2 = 0
  · rw [if_pos hr, if_pos hr, ops1_1_keep]
    exact ops1_slide ν _ i
  · rw [if_neg hr, if_neg hr]
    refine (ops1_1_roll _ _ i).trans ((ops1_colMax ν _ _).trans ?_)
    exact (q2_eq_colmax (fun a => qOf ν (ix2 (⟨r.val / 2, by omega⟩ : Fin 4096) a)) i).symm

/-- No line of the host tail writes the region's two results or an argument. -/
theorem tail_keep (ν : Valuation τ sig (Elt Ideal)) (b : Ref sig .tc)
    (hb : b ∈ ({main_v51_0, main_v51_1, main_arg0, main_arg1, main_arg2, main_arg3, main_arg4, main_arg5, main_arg6, main_arg7,
      main_arg8, main_arg9} : Finset (Ref sig .tc))) :
    StableHlo.after (List.flatten [hostOps1 (F := Ideal), hostOps1_1, hostOps1_2]) ν (Proc.devRef .tc b) = ν (Proc.devRef .tc b) := by
  simp only [Finset.mem_insert, Finset.mem_singleton] at hb
  simp only [List.flatten_cons, List.flatten_nil, List.cons_append, List.nil_append, List.append_nil]
  rcases hb with rfl | rfl | rfl | rfl | rfl | rfl | rfl | rfl | rfl | rfl | rfl | rfl <;> (after_results; try rfl)

end Cert.KernelIdeal.HostTail

end
-- ==== Proof.KI.Value.lean ====
/-
  From blocks to arrays, and the run. Every point writes back the new hidden state's [128,256] tile at block
  (t / 8, t % 8): the 32 × 8 tiles cover the [4096,2048] array, index (r, h) lying in the tile of point
  8·(r / 128) + h / 256. The second layer's [128,4096] tile is written back at the eighth hidden tile only, at block
  (t / 8, 0): index (r, a) lies in the tile of point 8·(r / 128) + 7. So both arrays end at the specification's
  functions; the host lines after the region decode the second one; the argument arrays end as launched.
-/
import proofs.«145547_j6897717478082_2_alg».proof.Proof.KI.Invariant
import proofs.«145547_j6897717478082_2_alg».proof.Proof.KI.HostTail

noncomputable section

namespace Cert.KernelIdeal.Value

open Cert.KernelIdeal Cert.KernelIdeal.Gen Cert.KernelIdeal.HF Cert.KernelIdeal.Tile Cert.KernelIdeal.HostPre Cert.KernelIdeal.Sched
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The new hidden state -/

/-- What point `t` writes back of the new hidden state is block `t` of the specification's array. -/
theorem flushed10 (c : Dev nD) (t : Fin cfg0.N) :
    (dats m 0 c).flushed 10 t = ((cfg0.win 10).blk t).view.read (Elt Ideal) (Cert.Spec.H (args m c)) := by
  show (cfg0.win 10).cut (grid0.coords t) ((dats m 0 c).after 10 t) = _
  rw [after0_10, (inv m c t.val t.isLt).1]
  funext y
  show hTile (args m c) (ti t) (tj t) y = Cert.Spec.H (args m c) (((cfg0.win 10).blk t).view.emb y)
  have hidx : ((cfg0.win 10).blk t).view.emb y = ix2 (brow (ti t) (y 0)) (hcol (tj t) (y 1)) := by
    obtain ⟨-, -, ⟨e0, e1⟩, -⟩ := idx_batch t
    funext a; apply Fin.ext
    match a with
    | ⟨0, _⟩ => show win0_10.index t 0 * 128 + 1 * (y 0).val = 128 * (t.val / 8) + (y 0).val; rw [e0]; omega
    | ⟨1, _⟩ => show win0_10.index t 1 * 256 + 1 * (y 1).val = 256 * (t.val % 8) + (y 1).val; rw [e1]; omega
  rw [hidx]
  rfl

/-- Membership in a point's tile of the new hidden state, coordinate by coordinate. -/
theorem mem_blk10 (t : Fin cfg0.N) (i : S4096x2048.Idx) :
    i ∈ ((cfg0.win 10).blk t).view.set ↔ ∀ a : Fin 2, win0_10.index t a * S128x256.size a ≤ (i a).val ∧ (i a).val < win0_10.index t a * S128x256.size a + S128x256.size a := by
  show i ∈ ((View.whole main_v51_0).slice (win0_10.rect t)).set ↔ _
  rw [View.set_slice_whole, Rect.mem_set_unit]
  exact Iff.rfl

/-- The new hidden state's array after the run. -/
theorem final10 (c : Dev nD) : (dats m 0 c).arrAt 10 cfg0.N = Cert.Spec.H (args m c) :=
  (dats m 0 c).arrAt_eq_of_cover 10 (Cert.Spec.H (args m c)) (fun t _ => flushed10 m c t) fun i => by
    have hi0 : (i 0).val < 4096 := (i 0).isLt
    have hi1 : (i 1).val < 2048 := (i 1).isLt
    have hN : cfg0.N = 256 := N_0
    refine ⟨⟨8 * ((i 0).val / 128) + (i 1).val / 256, by omega⟩, flush0_10 _, ?_⟩
    rw [mem_blk10]
    obtain ⟨-, -, ⟨e0, e1⟩, -⟩ := idx_batch ⟨8 * ((i 0).val / 128) + (i 1).val / 256, by omega⟩
    intro a
    match a with
    | ⟨0, _⟩ =>
      show win0_10.index _ 0 * 128 ≤ (i 0).val ∧ (i 0).val < win0_10.index _ 0 * 128 + 128
      rw [e0]; dsimp only; omega
    | ⟨1, _⟩ =>
      show win0_10.index _ 1 * 256 ≤ (i 1).val ∧ (i 1).val < win0_10.index _ 1 * 256 + 256
      rw [e1]; dsimp only; omega

/-! ## The second layer's output -/

/-- What an eighth hidden tile writes back of the second layer is its block of the specification's array. -/
theorem flushed11 (c : Dev nD) (t : Fin cfg0.N) (hf : (cfg0.win 11).flush t = true) :
    (dats m 0 c).flushed 11 t = ((cfg0.win 11).blk t).view.read (Elt Ideal) (Cert.Spec.Q (args m c)) := by
  have h7 : t.val % 8 = 7 := (flush0_11 t).mp hf
  show (cfg0.win 11).cut (grid0.coords t) ((dats m 0 c).after 11 t) = _
  rw [after0_11, (inv m c t.val t.isLt).2.1 h7]
  funext y
  show qTile (args m c) (ti t) y = Cert.Spec.Q (args m c) (((cfg0.win 11).blk t).view.emb y)
  have hidx : ((cfg0.win 11).blk t).view.emb y = ix2 (brow (ti t) (y 0)) (y 1) := by
    obtain ⟨-, -, -, ⟨e0, e1⟩⟩ := idx_batch t
    funext a; apply Fin.ext
    match a with
    | ⟨0, _⟩ => show win0_11.index t 0 * 128 + 1 * (y 0).val = 128 * (t.val / 8) + (y 0).val; rw [e0]; omega
    | ⟨1, _⟩ => show win0_11.index t 1 * 4096 + 1 * (y 1).val = (y 1).val; rw [e1]; omega
  rw [hidx]
  rfl

theorem mem_blk11 (t : Fin cfg0.N) (i : S4096x4096.Idx) :
    i ∈ ((cfg0.win 11).blk t).view.set ↔ ∀ a : Fin 2, win0_11.index t a * S128x4096.size a ≤ (i a).val ∧ (i a).val < win0_11.index t a * S128x4096.size a + S128x4096.size a := by
  show i ∈ ((View.whole main_v51_1).slice (win0_11.rect t)).set ↔ _
  rw [View.set_slice_whole, Rect.mem_set_unit]
  exact Iff.rfl

/-- The second layer's array after the run. -/
theorem final11 (c : Dev nD) : (dats m 0 c).arrAt 11 cfg0.N = Cert.Spec.Q (args m c) :=
  (dats m 0 c).arrAt_eq_of_cover 11 (Cert.Spec.Q (args m c)) (fun t hf => flushed11 m c t hf) fun i => by
    have hi0 : (i 0).val < 4096 := (i 0).isLt
    have hi1 : (i 1).val < 4096 := (i 1).isLt
    have hN : cfg0.N = 256 := N_0
    refine ⟨⟨8 * ((i 0).val / 128) + 7, by omega⟩, (flush0_11 _).mpr (by dsimp only; omega), ?_⟩
    rw [mem_blk11]
    obtain ⟨-, -, -, ⟨e0, e1⟩⟩ := idx_batch ⟨8 * ((i 0).val / 128) + 7, by omega⟩
    intro a
    match a with
    | ⟨0, _⟩ =>
      show win0_11.index _ 0 * 128 ≤ (i 0).val ∧ (i 0).val < win0_11.index _ 0 * 128 + 128
      rw [e0]; dsimp only; omega
    | ⟨1, _⟩ =>
      show win0_11.index _ 1 * 4096 ≤ (i 1).val ∧ (i 1).val < win0_11.index _ 1 * 4096 + 4096
      rw [e1]; dsimp only; omega

/-! ## The host lines after the region, and the run -/

/-- The first result: the host lines after the region decode the second layer's array. -/
theorem tailOut (c : Dev nD) :
    Pipeline.afterTail₀ cfgs (dats m) 0 (V0 m) [hostOps1, hostOps1_1, hostOps1_2] c main_v61 = Cert.Spec.OUT (args m c) := by
  unfold Pipeline.afterTail₀
  refine (Cert.KernelIdeal.HostTail.tail_out _).trans ?_
  show Cert.Spec.decode _ = Cert.Spec.decode (Cert.Spec.Q (args m c))
  exact congrArg Cert.Spec.decode ((Pipeline.withArrays_arr spec0 launch0.win.arr_inj c _ _ 11).trans (final11 m c))

/-- THE KERNEL PROGRAM'S RUN, READ: the two results at the specification's functions of the argument arrays, the
    arguments as launched. -/
theorem run : θ_run (defs (F := Ideal)) (onTc (τ := τ) (main (F := Ideal))) ⟨m, fun _ => 0, ρ⟩ (fun r => ∀ c : Dev nD,
      r.2.mem ((c.tc : Thread nD τ).loc main_v61) = Cert.Spec.OUT (args m c)
      ∧ r.2.mem ((c.tc : Thread nD τ).loc main_v51_0) = Cert.Spec.H (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      ((h c).2 main_v61 (Pipeline.mem_restRefs_of main_v61 (by decide) (by decide))).trans (tailOut m c),
      ((h c).1 10).trans (final10 m c),
      ((h c).2 main_arg0 (Pipeline.mem_restRefs_of main_arg0 (by decide) (by decide))).trans (W_main_arg0 m (dats m) c),
      ((h c).1 3).trans (((dats m 0 c).arrAt_in 3 rfl _).trans ((A_eq m c 3).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Value

end
-- ==== Proof.Ref.Ops.lean ====
/-
  The reference network as a straight line of array operations: a dense layer with ReLU, the two gate
  pre-activation products of a GRU cell, its gates and new state, a second dense layer, and the two-headed
  decode by maxima over gathered windows. Here the line is listed operation by operation (the ReLU's three
  operations in place of its call), shown to be the program, and run: every buffer ends at the fold of the
  operations over the launch contents.
-/
import proofs.«145547_j6897717478082_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The network's eighty operations, in order: the first dense layer and its ReLU (operations 5 to 12), the two
    gate products with their biases (13 to 22), the six gate slices and the cell's arithmetic (23 to 55), the
    second dense layer (56 to 60), the two index tables, gathers, maxima and the interleave (1 to 4, 61 to 80). -/
abbrev ops : List (HloOp τ sig (Elt F)) :=
  [ nullary main_c (fun i => lit0 (S64x64.rowMajor i)),
    nullary main_c_0 (constantI S64x64 1 0#1),
    nullary main_c_1 (fun i => lit1 (S64x64.rowMajor i)),
    nullary main_c_2 (constantI S64x64 1 0#1),
    unary main_arg2 main_v0 ((transpose S1024x2048 [1, 0] · transposes_S2048x1024_S1024x2048_1_0) : (⟨S2048x1024, .f32⟩ : BufTy).Contents (Elt F) → (⟨S1024x2048, .f32⟩ : BufTy).Contents (Elt F)),
    binary main_arg0 main_v0 main_v1 ((fun l r => Host.dotGeneral dot_S4096x1024_S1024x2048_S4096x2048_1_0_0_1_n_n none l r) : (⟨S4096x1024, .f32⟩ : BufTy).Contents (Elt F) → (⟨S1024x2048, .f32⟩ : BufTy).Contents (Elt F) → (⟨S4096x2048, .f32⟩ : BufTy).Contents (Elt F)),
    unary main_arg3 main_v2 (broadcastInDim S1x2048 ![1] bcast_S2048_S1x2048_1 : (⟨S2048, .f32⟩ : BufTy).Contents (Elt F) → (⟨S1x2048, .f32⟩ : BufTy).Contents (Elt F)),
    unary main_v2 main_v3 (broadcastInDim S4096x2048 ![0, 1] bcast_S1x2048_S4096x2048_0_1 : (⟨S1x2048, .f32⟩ : BufTy).Contents (Elt F) → (⟨S4096x2048, .f32⟩ : BufTy).Contents (Elt F)),
    binary main_v1 main_v3 main_v4 (addf : (⟨S4096x2048, .f32⟩ : BufTy).Contents (Elt F) → (⟨S4096x2048, .f32⟩ : BufTy).Contents (Elt F) → (⟨S4096x2048, .f32⟩ : BufTy).Contents (Elt F)),
    TRef.nullary main_call0.cst (constant S_ .f32 0x00000000#32),
    TRef.unary main_call0.cst main_call0.v0 (broadcastInDim S4096x2048 ![] bcast_S_S4096x2048),
    TRef.binary (.of main_v4) main_call0.v0 main_call0.v1 maximumf,
    unary main_arg4 main_v6 ((transpose S2048x6144 [1, 0] · transposes_S6144x2048_S2048x6144_1_0) : (⟨S6144x2048, .f32⟩ : BufTy).Contents (Elt F) → (⟨S2048x6144, .f32⟩ : BufTy).Contents (Elt F)),
    binary main_v5 main_v6 main_v7 ((fun l r => Host.dotGeneral dot_S4096x2048_S2048x6144_S4096x6144_1_0_0_1_n_n none l r) : (⟨S4096x2048, .f32⟩ : BufTy).Contents (Elt F) → (⟨S2048x6144, .f32⟩ : BufTy).Contents (Elt F) → (⟨S4096x6144, .f32⟩ : BufTy).Contents (Elt F)),
    unary main_arg6 main_v8 (broadcastInDim S1x6144 ![1] bcast_S6144_S1x6144_1 : (⟨S6144, .f32⟩ : BufTy).Contents (Elt F) → (⟨S1x6144, .f32⟩ : BufTy).Contents (Elt F)),
    unary main_v8 main_v9 (broadcastInDim S4096x6144 ![0, 1] bcast_S1x6144_S4096x6144_0_1 : (⟨S1x6144, .f32⟩ : BufTy).Contents (Elt F) → (⟨S4096x6144, .f32⟩ : BufTy).Contents (Elt F)),
    binary main_v7 main_v9 main_v10 (addf : (⟨S4096x6144, .f32⟩ : BufTy).Contents (Elt F) → (⟨S4096x6144, .f32⟩ : BufTy).Contents (Elt F) → (⟨S4096x6144, .f32⟩ : BufTy).Contents (Elt F)),
    unary main_arg5 main_v11 ((transpose S2048x6144 [1, 0] · transposes_S6144x2048_S2048x6144_1_0) : (⟨S6144x2048, .f32⟩ : BufTy).Contents (Elt F) → (⟨S2048x6144, .f32⟩ : BufTy).Contents (Elt F)),
    binary main_arg1 main_v11 main_v12 ((fun l r => Host.dotGeneral dot_S4096x2048_S2048x6144_S4096x6144_1_0_0_1_n_n none l r) : (⟨S4096x2048, .f32⟩ : BufTy).Contents (Elt F) → (⟨S2048x6144, .f32⟩ : BufTy).Contents (Elt F) → (⟨S4096x6144, .f32⟩ : BufTy).Contents (Elt F)),
    unary main_arg7 main_v13 (broadcastInDim S1x6144 ![1] bcast_S6144_S1x6144_1 : (⟨S6144, .f32⟩ : BufTy).Contents (Elt F) → (⟨S1x6144, .f32⟩ : BufTy).Contents (Elt F)),
    unary main_v13 main_v14 (broadcastInDim S4096x6144 ![0, 1] bcast_S1x6144_S4096x6144_0_1 : (⟨S1x6144, .f32⟩ : BufTy).Contents (Elt F) → (⟨S4096x6144, .f32⟩ : BufTy).Contents (Elt F)),
    binary main_v12 main_v14 main_v15 (addf : (⟨S4096x6144, .f32⟩ : BufTy).Contents (Elt F) → (⟨S4096x6144, .f32⟩ : BufTy).Contents (Elt F) → (⟨S4096x6144, .f32⟩ : BufTy).Contents (Elt F)),
    unary main_v10 main_v16 ((extractStridedSlice S4096x2048 ![0, 0] · slices_S4096x6144_S4096x2048_0_0) : (⟨S4096x6144, .f32⟩ : BufTy).Contents (Elt F) → (⟨S4096x2048, .f32⟩ : BufTy).Contents (Elt F)),
    unary main_v10 main_v17 ((extractStridedSlice S4096x2048 ![0, 2048] · slices_S4096x6144_S4096x2048_0_2048) : (⟨S4096x6144, .f32⟩ : BufTy).Contents (Elt F) → (⟨S4096x2048, .f32⟩ : BufTy).Contents (Elt F)),
    unary main_v10 main_v18 ((extractStridedSlice S4096x2048 ![0, 4096] · slices_S4096x6144_S4096x2048_0_4096) : (⟨S4096x6144, .f32⟩ : BufTy).Contents (Elt F) → (⟨S4096x2048, .f32⟩ : BufTy).Contents (Elt F)),
    unary main_v15 main_v19 ((extractStridedSlice S4096x2048 ![0, 0] · slices_S4096x6144_S4096x2048_0_0) : (⟨S4096x6144, .f32⟩ : BufTy).Contents (Elt F) → (⟨S4096x2048, .f32⟩ : BufTy).Contents (Elt F)),
    unary main_v15 main_v20 ((extractStridedSlice S4096x2048 ![0, 2048] · slices_S4096x6144_S4096x2048_0_2048) : (⟨S4096x6144, .f32⟩ : BufTy).Contents (Elt F) → (⟨S4096x2048, .f32⟩ : BufTy).Contents (Elt F)),
    unary main_v15 main_v21 ((extractStridedSlice S4096x2048 ![0, 4096] · slices_S4096x6144_S4096x2048_0_4096) : (⟨S4096x6144, .f32⟩ : BufTy).Contents (Elt F) → (⟨S4096x2048, .f32⟩ : BufTy).Contents (Elt F)),
    binary main_v16 main_v19 main_v22 (addf : (⟨S4096x2048, .f32⟩ : BufTy).Contents (Elt F) → (⟨S4096x2048, .f32⟩ : BufTy).Contents (Elt F) → (⟨S4096x2048, .f32⟩ : BufTy).Contents (Elt F)),
    unary main_v22 main_v23 (Host.negf : (⟨S4096x2048, .f32⟩ : BufTy).Contents (Elt F) → (⟨S4096x2048, .f32⟩ : BufTy).Contents (Elt F)),
    unary main_v23 main_v24 (Host.exp : (⟨S4096x2048, .f32⟩ : BufTy).Contents (Elt F) → (⟨S4096x2048, .f32⟩ : BufTy).Contents (Elt F)),
    nullary main_cst (constant S_ .f32 0x3F800000#32),
    unary main_cst main_v25 (broadcastInDim S4096x2048 ![] bcast_S_S4096x2048 : (⟨S_, .f32⟩ : BufTy).Contents (Elt F) → (⟨S4096x2048, .f32⟩ : BufTy).Contents (Elt F)),
    binary main_v25 main_v24 main_v26 (addf : (⟨S4096x2048, .f32⟩ : BufTy).Contents (Elt F) → (⟨S4096x2048, .f32⟩ : BufTy).Contents (Elt F) → (⟨S4096x2048, .f32⟩ : BufTy).Contents (Elt F)),
    nullary main_cst_3 (constant S_ .f32 0x3F800000#32),
    unary main_cst_3 main_v27 (broadcastInDim S4096x2048 ![] bcast_S_S4096x2048 : (⟨S_, .f32⟩ : BufTy).Contents (Elt F) → (⟨S4096x2048, .f32⟩ : BufTy).Contents (Elt F)),
    binary main_v27 main_v26 main_v28 (Host.divf : (⟨S4096x2048, .f32⟩ : BufTy).Contents (Elt F) → (⟨S4096x2048, .f32⟩ : BufTy).Contents (Elt F) → (⟨S4096x2048, .f32⟩ : BufTy).Contents (Elt F)),
    binary main_v17 main_v20 main_v29 (addf : (⟨S4096x2048, .f32⟩ : BufTy).Contents (Elt F) → (⟨S4096x2048, .f32⟩ : BufTy).Contents (Elt F) → (⟨S4096x2048, .f32⟩ : BufTy).Contents (Elt F)),
    unary main_v29 main_v30 (Host.negf : (⟨S4096x2048, .f32⟩ : BufTy).Contents (Elt F) → (⟨S4096x2048, .f32⟩ : BufTy).Contents (Elt F)),
    unary main_v30 main_v31 (Host.exp : (⟨S4096x2048, .f32⟩ : BufTy).Contents (Elt F) → (⟨S4096x2048, .f32⟩ : BufTy).Contents (Elt F)),
    nullary main_cst_4 (constant S_ .f32 0x3F800000#32),
    unary main_cst_4 main_v32 (broadcastInDim S4096x2048 ![] bcast_S_S4096x2048 : (⟨S_, .f32⟩ : BufTy).Contents (Elt F) → (⟨S4096x2048, .f32⟩ : BufTy).Contents (Elt F)),
    binary main_v32 main_v31 main_v33 (addf : (⟨S4096x2048, .f32⟩ : BufTy).Contents (Elt F) → (⟨S4096x2048, .f32⟩ : BufTy).Contents (Elt F) → (⟨S4096x2048, .f32⟩ : BufTy).Contents (Elt F)),
    nullary main_cst_5 (constant S_ .f32 0x3F800000#32),
    unary main_cst_5 main_v34 (broadcastInDim S4096x2048 ![] bcast_S_S4096x2048 : (⟨S_, .f32⟩ : BufTy).Contents (Elt F) → (⟨S4096x2048, .f32⟩ : BufTy).Contents (Elt F)),
    binary main_v34 main_v33 main_v35 (Host.divf : (⟨S4096x2048, .f32⟩ : BufTy).Contents (Elt F) → (⟨S4096x2048, .f32⟩ : BufTy).Contents (Elt F) → (⟨S4096x2048, .f32⟩ : BufTy).Contents (Elt F)),
    binary main_v28 main_v21 main_v36 (mulf : (⟨S4096x2048, .f32⟩ : BufTy).Contents (Elt F) → (⟨S4096x2048, .f32⟩ : BufTy).Contents (Elt F) → (⟨S4096x2048, .f32⟩ : BufTy).Contents (Elt F)),
    binary main_v18 main_v36 main_v37 (addf : (⟨S4096x2048, .f32⟩ : BufTy).Contents (Elt F) → (⟨S4096x2048, .f32⟩ : BufTy).Contents (Elt F) → (⟨S4096x2048, .f32⟩ : BufTy).Contents (Elt F)),
    unary main_v37 main_v38 (Host.tanh : (⟨S4096x2048, .f32⟩ : BufTy).Contents (Elt F) → (⟨S4096x2048, .f32⟩ : BufTy).Contents (Elt F)),
    nullary main_cst_6 (constant S_ .f32 0x3F800000#32),
    unary main_cst_6 main_v39 (broadcastInDim S4096x2048 ![] bcast_S_S4096x2048 : (⟨S_, .f32⟩ : BufTy).Contents (Elt F) → (⟨S4096x2048, .f32⟩ : BufTy).Contents (Elt F)),
    binary main_v39 main_v35 main_v40 (subf : (⟨S4096x2048, .f32⟩ : BufTy).Contents (Elt F) → (⟨S4096x2048, .f32⟩ : BufTy).Contents (Elt F) → (⟨S4096x2048, .f32⟩ : BufTy).Contents (Elt F)),
    binary main_v40 main_v38 main_v41 (mulf : (⟨S4096x2048, .f32⟩ : BufTy).Contents (Elt F) → (⟨S4096x2048, .f32⟩ : BufTy).Contents (Elt F) → (⟨S4096x2048, .f32⟩ : BufTy).Contents (Elt F)),
    binary main_v35 main_arg1 main_v42 (mulf : (⟨S4096x2048, .f32⟩ : BufTy).Contents (Elt F) → (⟨S4096x2048, .f32⟩ : BufTy).Contents (Elt F) → (⟨S4096x2048, .f32⟩ : BufTy).Contents (Elt F)),
    binary main_v41 main_v42 main_v43 (addf : (⟨S4096x2048, .f32⟩ : BufTy).Contents (Elt F) → (⟨S4096x2048, .f32⟩ : BufTy).Contents (Elt F) → (⟨S4096x2048, .f32⟩ : BufTy).Contents (Elt F)),
    unary main_arg8 main_v44 ((transpose S2048x4096 [1, 0] · transposes_S4096x2048_S2048x4096_1_0) : (⟨S4096x2048, .f32⟩ : BufTy).Contents (Elt F) → (⟨S2048x4096, .f32⟩ : BufTy).Contents (Elt F)),
    binary main_v43 main_v44 main_v45 ((fun l r => Host.dotGeneral dot_S4096x2048_S2048x4096_S4096x4096_1_0_0_1_n_n none l r) : (⟨S4096x2048, .f32⟩ : BufTy).Contents (Elt F) → (⟨S2048x4096, .f32⟩ : BufTy).Contents (Elt F) → (⟨S4096x4096, .f32⟩ : BufTy).Contents (Elt F)),
    unary main_arg9 main_v46 (broadcastInDim S1x4096 ![1] bcast_S4096_S1x4096_1 : (⟨S4096, .f32⟩ : BufTy).Contents (Elt F) → (⟨S1x4096, .f32⟩ : BufTy).Contents (Elt F)),
    unary main_v46 main_v47 (broadcastInDim S4096x4096 ![0, 1] bcast_S1x4096_S4096x4096_0_1 : (⟨S1x4096, .f32⟩ : BufTy).Contents (Elt F) → (⟨S4096x4096, .f32⟩ : BufTy).Contents (Elt F)),
    binary main_v45 main_v47 main_v48 (addf : (⟨S4096x4096, .f32⟩ : BufTy).Contents (Elt F) → (⟨S4096x4096, .f32⟩ : BufTy).Contents (Elt F) → (⟨S4096x4096, .f32⟩ : BufTy).Contents (Elt F)),
    nullary main_c_7 (constantI S_ 32 4096#32),
    unary main_c_7 main_v49 (broadcastInDim S64x64 ![] bcast_S_S64x64 : (⟨S_, .i32⟩ : BufTy).Contents (Elt F) → (⟨S64x64, .i32⟩ : BufTy).Contents (Elt F)),
    binary main_c main_v49 main_v50 (addi : (⟨S64x64, .i32⟩ : BufTy).Contents (Elt F) → (⟨S64x64, .i32⟩ : BufTy).Contents (Elt F) → (⟨S64x64, .i32⟩ : BufTy).Contents (Elt F)),
    ternary main_c_0 main_v50 main_c main_v51 (select : (⟨S64x64, .i1⟩ : BufTy).Contents (Elt F) → (⟨S64x64, .i32⟩ : BufTy).Contents (Elt F) → (⟨S64x64, .i32⟩ : BufTy).Contents (Elt F) → (⟨S64x64, .i32⟩ : BufTy).Contents (Elt F)),
    unary main_v51 main_v52 (broadcastInDim S64x64x1 ![0, 1] bcast_S64x64_S64x64x1_0_1 : (⟨S64x64, .i32⟩ : BufTy).Contents (Elt F) → (⟨S64x64x1, .i32⟩ : BufTy).Contents (Elt F)),
    binary main_v48 main_v52 main_v53 ((fun x i => Host.gather gather_S4096x4096_S64x64x1_S4096x64x64_0_1_n_n_1_2_40961 x i) : (⟨S4096x4096, .f32⟩ : BufTy).Contents (Elt F) → (⟨S64x64x1, .i32⟩ : BufTy).Contents (Elt F) → (⟨S4096x64x64, .f32⟩ : BufTy).Contents (Elt F)),
    nullary main_cst_8 (constant S_ .f32 0xFF800000#32),
    binary main_v53 main_cst_8 main_v54 ((fun x v => Host.reduce FloatOps.maximumf x v reducesTo_S4096x64x64_S4096x64_d2 h_S_) : (⟨S4096x64x64, .f32⟩ : BufTy).Contents (Elt F) → (⟨S_, .f32⟩ : BufTy).Contents (Elt F) → (⟨S4096x64, .f32⟩ : BufTy).Contents (Elt F)),
    nullary main_c_9 (constantI S_ 32 4096#32),
    unary main_c_9 main_v55 (broadcastInDim S64x64 ![] bcast_S_S64x64 : (⟨S_, .i32⟩ : BufTy).Contents (Elt F) → (⟨S64x64, .i32⟩ : BufTy).Contents (Elt F)),
    binary main_c_1 main_v55 main_v56 (addi : (⟨S64x64, .i32⟩ : BufTy).Contents (Elt F) → (⟨S64x64, .i32⟩ : BufTy).Contents (Elt F) → (⟨S64x64, .i32⟩ : BufTy).Contents (Elt F)),
    ternary main_c_2 main_v56 main_c_1 main_v57 (select : (⟨S64x64, .i1⟩ : BufTy).Contents (Elt F) → (⟨S64x64, .i32⟩ : BufTy).Contents (Elt F) → (⟨S64x64, .i32⟩ : BufTy).Contents (Elt F) → (⟨S64x64, .i32⟩ : BufTy).Contents (Elt F)),
    unary main_v57 main_v58 (broadcastInDim S64x64x1 ![0, 1] bcast_S64x64_S64x64x1_0_1 : (⟨S64x64, .i32⟩ : BufTy).Contents (Elt F) → (⟨S64x64x1, .i32⟩ : BufTy).Contents (Elt F)),
    binary main_v48 main_v58 main_v59 ((fun x i => Host.gather gather_S4096x4096_S64x64x1_S4096x64x64_0_1_n_n_1_2_40961 x i) : (⟨S4096x4096, .f32⟩ : BufTy).Contents (Elt F) → (⟨S64x64x1, .i32⟩ : BufTy).Contents (Elt F) → (⟨S4096x64x64, .f32⟩ : BufTy).Contents (Elt F)),
    nullary main_cst_10 (constant S_ .f32 0xFF800000#32),
    binary main_v59 main_cst_10 main_v60 ((fun x v => Host.reduce FloatOps.maximumf x v reducesTo_S4096x64x64_S4096x64_d2 h_S_) : (⟨S4096x64x64, .f32⟩ : BufTy).Contents (Elt F) → (⟨S_, .f32⟩ : BufTy).Contents (Elt F) → (⟨S4096x64, .f32⟩ : BufTy).Contents (Elt F)),
    unary main_v54 main_v61 (broadcastInDim S4096x1x64 ![0, 2] bcast_S4096x64_S4096x1x64_0_2 : (⟨S4096x64, .f32⟩ : BufTy).Contents (Elt F) → (⟨S4096x1x64, .f32⟩ : BufTy).Contents (Elt F)),
    unary main_v60 main_v62 (broadcastInDim S4096x1x64 ![0, 2] bcast_S4096x64_S4096x1x64_0_2 : (⟨S4096x64, .f32⟩ : BufTy).Contents (Elt F) → (⟨S4096x1x64, .f32⟩ : BufTy).Contents (Elt F)),
    binary main_v61 main_v62 main_v63 ((fun a b => concatenate S4096x2x64 1 [⟨S4096x1x64, a⟩, ⟨S4096x1x64, b⟩] concatenates_S4096x1x64_S4096x1x64_S4096x2x64_d1) : (⟨S4096x1x64, .f32⟩ : BufTy).Contents (Elt F) → (⟨S4096x1x64, .f32⟩ : BufTy).Contents (Elt F) → (⟨S4096x2x64, .f32⟩ : BufTy).Contents (Elt F)),
    reshape main_v63 main_v64 rfl shapeCasts_S4096x2x64_S8192x64 ]

set_option maxRecDepth 16384 in
set_option maxHeartbeats 4000000 in
/-- The program is that line: its two halves run in order and the ReLU's body in place of its call compute to the
    same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., nullary_bufs_sub .., nullary_bufs_sub .., nullary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., unary_bufs_sub .., binary_bufs_sub .., unary_bufs_sub .., unary_bufs_sub .., binary_bufs_sub .., nullary_bufs_sub .., unary_bufs_sub .., binary_bufs_sub .., ternary_bufs_sub .., unary_bufs_sub .., binary_bufs_sub .., nullary_bufs_sub .., binary_bufs_sub .., nullary_bufs_sub .., unary_bufs_sub .., binary_bufs_sub .., ternary_bufs_sub .., unary_bufs_sub .., binary_bufs_sub .., nullary_bufs_sub .., binary_bufs_sub .., unary_bufs_sub .., unary_bufs_sub .., binary_bufs_sub .., reshape_bufs_sub ..⟩

/-- From any memory with zero counters the network terminates, and each buffer ends at the fold of the eighty
    operations over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.Ref.Stages.lean ====
/-
  The stages of the reference network as array functions, each the composition of the array operations the
  network applies in that stage: the first dense layer with its ReLU, a gate product with its bias, the logistic
  function spelt as a quotient, the cell's three gates and new state, the second dense layer.
-/
import proofs.«145547_j6897717478082_2_alg».proof.Proof.Gen.ReferenceIdeal

noncomputable section

namespace Cert.ReferenceIdeal.Hand

open Cert.ReferenceIdeal Cert.ReferenceIdeal.Gen Idealize.ShloMosaic

variable {F : FTy → Type} [FloatOps F]

/-- The first dense layer before its ReLU: `inp · W1ᵀ` plus the bias `b1` on every row. -/
def refFc1 (inp : FVec F S4096x1024 .f32) (W1 : FVec F S2048x1024 .f32) (b1 : FVec F S2048 .f32) : FVec F S4096x2048 .f32 :=
  addf (Host.dotGeneral dot_S4096x1024_S1024x2048_S4096x2048_1_0_0_1_n_n none inp
      (transpose S1024x2048 [1, 0] W1 transposes_S2048x1024_S1024x2048_1_0))
    (broadcastInDim S4096x2048 ![0, 1] bcast_S1x2048_S4096x2048_0_1 (broadcastInDim S1x2048 ![1] bcast_S2048_S1x2048_1 b1))

/-- The array of zeros the ReLU compares with. -/
def zeroArr : FVec F S4096x2048 .f32 := broadcastInDim S4096x2048 ![] bcast_S_S4096x2048 (constant S_ .f32 0x00000000#32)

/-- The array of ones of the logistic quotient and of `1 − z`. -/
def oneArr : FVec F S4096x2048 .f32 := broadcastInDim S4096x2048 ![] bcast_S_S4096x2048 (constant S_ .f32 0x3F800000#32)

/-- The first dense layer with its ReLU. -/
def refX (inp : FVec F S4096x1024 .f32) (W1 : FVec F S2048x1024 .f32) (b1 : FVec F S2048 .f32) : FVec F S4096x2048 .f32 :=
  maximumf (refFc1 inp W1 b1) zeroArr

/-- A gate product: `a · Wᵀ` plus the bias `b` on every row, all 6144 gate rows at once. -/
def refGate (a : FVec F S4096x2048 .f32) (W : FVec F S6144x2048 .f32) (b : FVec F S6144 .f32) : FVec F S4096x6144 .f32 :=
  addf (Host.dotGeneral dot_S4096x2048_S2048x6144_S4096x6144_1_0_0_1_n_n none a
      (transpose S2048x6144 [1, 0] W transposes_S6144x2048_S2048x6144_1_0))
    (broadcastInDim S4096x6144 ![0, 1] bcast_S1x6144_S4096x6144_0_1 (broadcastInDim S1x6144 ![1] bcast_S6144_S1x6144_1 b))

/-- The three runs of 2048 gate columns: reset, update, candidate. -/
def gate0 (g : FVec F S4096x6144 .f32) : FVec F S4096x2048 .f32 := extractStridedSlice S4096x2048 ![0, 0] g slices_S4096x6144_S4096x2048_0_0
def gate1 (g : FVec F S4096x6144 .f32) : FVec F S4096x2048 .f32 := extractStridedSlice S4096x2048 ![0, 2048] g slices_S4096x6144_S4096x2048_0_2048
def gate2 (g : FVec F S4096x6144 .f32) : FVec F S4096x2048 .f32 := extractStridedSlice S4096x2048 ![0, 4096] g slices_S4096x6144_S4096x2048_0_4096

/-- The logistic function as the network spells it: `1 / (1 + exp (−s))`. -/
def refSigmoid (s : FVec F S4096x2048 .f32) : FVec F S4096x2048 .f32 :=
  Host.divf oneArr (addf oneArr (Host.exp (Host.negf s)))

/-- The reset gate. -/
def refR (gi gh : FVec F S4096x6144 .f32) : FVec F S4096x2048 .f32 := refSigmoid (addf (gate0 gi) (gate0 gh))
/-- The update gate. -/
def refZ (gi gh : FVec F S4096x6144 .f32) : FVec F S4096x2048 .f32 := refSigmoid (addf (gate1 gi) (gate1 gh))
/-- The candidate state. -/
def refN (gi gh : FVec F S4096x6144 .f32) : FVec F S4096x2048 .f32 :=
  Host.tanh (addf (gate2 gi) (mulf (refR gi gh) (gate2 gh)))

/-- The cell's new state `(1 − z)·n + z·hid` from the two gate products. -/
def refCell (gi gh : FVec F S4096x6144 .f32) (hid : FVec F S4096x2048 .f32) : FVec F S4096x2048 .f32 :=
  addf (mulf (subf oneArr (refZ gi gh)) (refN gi gh)) (mulf (refZ gi gh) hid)

/-- The new hidden state of the network from its arguments. -/
def refH (inp : FVec F S4096x1024 .f32) (hid : FVec F S4096x2048 .f32) (W1 : FVec F S2048x1024 .f32) (b1 : FVec F S2048 .f32)
    (Wih Whh : FVec F S6144x2048 .f32) (bih bhh : FVec F S6144 .f32) : FVec F S4096x2048 .f32 :=
  refCell (refGate (refX inp W1 b1) Wih bih) (refGate hid Whh bhh) hid

/-- The second dense layer: `h · W2ᵀ` plus the bias `b2` on every row. -/
def refDense2 (h : FVec F S4096x2048 .f32) (W2 : FVec F S4096x2048 .f32) (b2 : FVec F S4096 .f32) : FVec F S4096x4096 .f32 :=
  addf (Host.dotGeneral dot_S4096x2048_S2048x4096_S4096x4096_1_0_0_1_n_n none h
      (transpose S2048x4096 [1, 0] W2 transposes_S4096x2048_S2048x4096_1_0))
    (broadcastInDim S4096x4096 ![0, 1] bcast_S1x4096_S4096x4096_0_1 (broadcastInDim S1x4096 ![1] bcast_S4096_S1x4096_1 b2))

/-- The second dense layer's output from the network's arguments. -/
def refQ (inp : FVec F S4096x1024 .f32) (hid : FVec F S4096x2048 .f32) (W1 : FVec F S2048x1024 .f32) (b1 : FVec F S2048 .f32)
    (Wih Whh : FVec F S6144x2048 .f32) (bih bhh : FVec F S6144 .f32) (W2 : FVec F S4096x2048 .f32) (b2 : FVec F S4096 .f32) :
    FVec F S4096x4096 .f32 :=
  refDense2 (refH inp hid W1 b1 Wih Whh bih bhh) W2 b2

end Cert.ReferenceIdeal.Hand

end
-- ==== Proof.Ref.Tables.lean ====
/-
  The two constant 64 × 64 tables of column numbers, in closed form. Entry k in row-major order sits in row k / 64 and
  column k % 64. The first table's entry (i, j) is i + j; the second's is (i + 64·j − 1) modulo 4096. Each is decided
  once, here, over all 4096 entries.
-/
import proofs.«145547_j6897717478082_2_alg».proof.ReferenceIdeal

namespace Cert.ReferenceIdeal.Hand

/-- The first table: entry (i, j) is i + j. -/
theorem lit0_val : ∀ k : Fin 4096, lit0 k = BitVec.ofNat 32 (k.val / 64 + k.val % 64) := by decide +kernel

/-- The second table: entry (i, j) is (i + 64·j + 4095) modulo 4096. -/
theorem lit1_val : ∀ k : Fin 4096, lit1 k = BitVec.ofNat 32 ((k.val / 64 + 64 * (k.val % 64) + 4095) % 4096) := by
  decide +kernel

end Cert.ReferenceIdeal.Hand
-- ==== Proof.Ref.Decode.lean ====
/-
  The reference's decode: from the second dense layer's output q : [4096, 4096] to the [8192, 64] result.
  Two constant 64 × 64 tables of column numbers select, for each batch row, 64 × 64 entries of q; a maximum over the
  last axis gives two [4096, 64] arrays, which are interleaved row by row. The first table's entry (i, j) is i + j, the
  second's is (i + 64·j − 1) mod 4096, so the two maxima are the two heads of `Cert.Spec.decode`.
-/
import proofs.«145547_j6897717478082_2_alg».proof.ReferenceIdeal
import proofs.«145547_j6897717478082_2_alg».proof.Proof.Spec
import proofs.«145547_j6897717478082_2_alg».proof.Proof.DecodeLib
import proofs.«145547_j6897717478082_2_alg».proof.Proof.Ref.Tables

noncomputable section

namespace Cert.ReferenceIdeal.Hand

open Idealize.ShloMosaic Idealize.ShloMosaic.ValueIdx Cert.DecodeLib

variable [Facts]
open Facts₀ Facts

/-- The start indices of a gather from a 64 × 64 table of column numbers `c`: the table with 4096 added where a mask
    holds, the mask being false everywhere, then given a trailing axis of extent one. -/
def startIdx (c : IVec S64x64 32) : IVec S64x64x1 32 :=
  broadcastInDim S64x64x1 ![0, 1] bcast_S64x64_S64x64x1_0_1
    (select (constantI S64x64 1 0#1) (addi c (broadcastInDim S64x64 ![] bcast_S_S64x64 (constantI S_ 32 4096#32))) c)

/-- One head: the columns of `q` the table names, gathered to [4096, 64, 64], and their maximum over the last axis
    starting from −∞. -/
def head (c : IVec S64x64 32) (q : FVec Ideal S4096x4096 .f32) : FVec Ideal S4096x64 .f32 :=
  Host.reduce (FloatOps.maximumf (F := Ideal) (φ := .f32))
    (Host.gather gather_S4096x4096_S64x64x1_S4096x64x64_0_1_n_n_1_2_40961 q (startIdx c))
    (constant (F := Ideal) S_ .f32 0xFF800000#32) reducesTo_S4096x64x64_S4096x64_d2 h_S_

/-- The reference's decode of `q`: the two heads, each given a middle axis of extent one, concatenated along it and
    reshaped to [8192, 64]. -/
def refDecode (q : FVec Ideal S4096x4096 .f32) : FVec Ideal S8192x64 .f32 :=
  shapeCast S8192x64
    (concatenate S4096x2x64 1
      [⟨S4096x1x64, broadcastInDim S4096x1x64 ![0, 2] bcast_S4096x64_S4096x1x64_0_2 (head (fun i => lit0 (S64x64.rowMajor i)) q)⟩,
       ⟨S4096x1x64, broadcastInDim S4096x1x64 ![0, 2] bcast_S4096x64_S4096x1x64_0_2 (head (fun i => lit1 (S64x64.rowMajor i)) q)⟩]
      concatenates_S4096x1x64_S4096x1x64_S4096x2x64_d1)
    shapeCasts_S4096x2x64_S8192x64

/-- The start indices at `(i, j, 0)` are the table's entry `(i, j)`: the mask is false everywhere, so nothing is added. -/
theorem startIdx_apply (c : IVec S64x64 32) (i j : Fin 64) : startIdx c (ix3 i j (0 : Fin 1)) = c (ix2 i j) := by
  have h01 : ∀ a : Fin 2, a = 0 ∨ a = 1 := by decide
  unfold startIdx
  refine (broadcastInDim_apply _ bcast_S64x64_S64x64x1_0_1 _ (ix3 i j (0 : Fin 1)) (ix2 i j) fun a => ?_).trans (select_zero _ _)
  rcases h01 a with rfl | rfl <;> rfl

/-- A head whose table holds, at `(i, j)`, the column number `col i j`: at `(b, i)` it is the supremum over `j` of
    `q` at row `b` and column `col i j` (a column number below 4096 is neither negative nor clamped). -/
theorem head_apply (c : IVec S64x64 32) (col : Fin 64 → Fin 64 → Fin 4096)
    (hcol : ∀ i j, c (ix2 i j) = BitVec.ofNat 32 (col i j).val) (q : FVec Ideal S4096x4096 .f32) (b : Fin 4096) (i : Fin 64) :
    head c q (ix2 b i) = Finset.univ.sup fun j : Fin 64 => q (ix2 b (col i j)) := by
  unfold head
  refine (reduce_last_apply _ reducesTo_S4096x64x64_S4096x64_d2 h_S_ b i).trans (Finset.sup_congr rfl fun j _ => ?_)
  refine (gather_cols_apply gather_S4096x4096_S64x64x1_S4096x64x64_0_1_n_n_1_2_40961_wf q (startIdx c) b i j).trans ?_
  refine congrArg (fun z => q (ix2 b z)) (Fin.ext ?_)
  show min (startIdx c (ix3 i j (0 : Fin 1))).toInt.toNat 4095 = (col i j).val
  rw [startIdx_apply, hcol, toInt_toNat_ofNat _ (col i j).isLt]
  have := (col i j).isLt
  omega

/-- The first table at `(i, j)`: `i + j`. -/
theorem table0_entry (i j : Fin 64) :
    (fun k : S64x64.Idx => lit0 (S64x64.rowMajor k)) (ix2 i j) = BitVec.ofNat 32 (i.val + j.val) := by
  have e : (S64x64.rowMajor (ix2 i j)).val = i.val * 64 + j.val := Shape.rowMajor_val_two (d := ![64, 64]) (ix2 i j)
  refine (lit0_val _).trans (congrArg (BitVec.ofNat 32) ?_)
  show (S64x64.rowMajor (ix2 i j)).val / 64 + (S64x64.rowMajor (ix2 i j)).val % 64 = i.val + j.val
  rw [e]
  omega

/-- The second table at `(i, j)`: `i + 64·j + 4095` modulo 4096. -/
theorem table1_entry (i j : Fin 64) :
    (fun k : S64x64.Idx => lit1 (S64x64.rowMajor k)) (ix2 i j) = BitVec.ofNat 32 ((i.val + 64 * j.val + 4095) % 4096) := by
  have e : (S64x64.rowMajor (ix2 i j)).val = i.val * 64 + j.val := Shape.rowMajor_val_two (d := ![64, 64]) (ix2 i j)
  refine (lit1_val _).trans (congrArg (BitVec.ofNat 32) ?_)
  show ((S64x64.rowMajor (ix2 i j)).val / 64 + 64 * ((S64x64.rowMajor (ix2 i j)).val % 64) + 4095) % 4096
    = (i.val + 64 * j.val + 4095) % 4096
  rw [e]
  have h1 : (i.val * 64 + j.val) / 64 = i.val := by have := j.isLt; omega
  have h2 : (i.val * 64 + j.val) % 64 = j.val := by have := j.isLt; omega
  rw [h1, h2]

/-- The reference's decode is the specification's. -/
theorem refDecode_eq (q : FVec Ideal S4096x4096 .f32) : refDecode q = Cert.Spec.decode q := by
  funext jj
  obtain ⟨r, i, rfl⟩ : ∃ (r : Fin 8192) (i : Fin 64), jj = ix2 r i := ⟨jj 0, jj 1, eq_ix2 jj⟩
  unfold refDecode
  refine (interleave_apply _ _ bcast_S4096x64_S4096x1x64_0_2 concatenates_S4096x1x64_S4096x1x64_S4096x2x64_d1
    shapeCasts_S4096x2x64_S8192x64 r i).trans ?_
  show _ = Cert.Spec.decodeAt q r i
  unfold Cert.Spec.decodeAt
  by_cases hr : r.val % 2 = 0
  · rw [if_pos hr, if_pos hr]
    exact head_apply _ (fun i j => ⟨i.val + j.val, by omega⟩) table0_entry q _ i
  · rw [if_neg hr, if_neg hr]
    exact head_apply _ (fun i j => ⟨(i.val + 64 * j.val + 4095) % 4096, Nat.mod_lt _ (by norm_num)⟩) table1_entry q _ i

end Cert.ReferenceIdeal.Hand

end
-- ==== Proof.Ref.Eval.lean ====
/-
  What the eighty operations leave in the buffers, from any contents. The line is read in six consecutive runs
  — the first dense layer, the gate products, the cell, the second dense layer, the decode's two heads, their
  interleave — each run's result a stage function of what the run before left; a buffer a run does not write keeps
  its contents. Together: the new hidden state, the second dense layer's output and the decoded result are the
  stage functions of the ten argument arrays, and the argument arrays are not touched.
-/
import proofs.«145547_j6897717478082_2_alg».proof.Proof.Ref.Ops
import proofs.«145547_j6897717478082_2_alg».proof.Proof.Ref.Stages
import proofs.«145547_j6897717478082_2_alg».proof.Proof.Ref.Decode

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Two lines one after the other leave what the second leaves from what the first left. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- Operations 1 to 12: the two column tables and their masks, then the first dense layer and its ReLU. -/
abbrev w1 : List (HloOp τ sig (Elt F)) :=
  [ nullary main_c (fun i => lit0 (S64x64.rowMajor i)),
    nullary main_c_0 (constantI S64x64 1 0#1),
    nullary main_c_1 (fun i => lit1 (S64x64.rowMajor i)),
    nullary main_c_2 (constantI S64x64 1 0#1),
    unary main_arg2 main_v0 ((transpose S1024x2048 [1, 0] · transposes_S2048x1024_S1024x2048_1_0) : (⟨S2048x1024, .f32⟩ : BufTy).Contents (Elt F) → (⟨S1024x2048, .f32⟩ : BufTy).Contents (Elt F)),
    binary main_arg0 main_v0 main_v1 ((fun l r => Host.dotGeneral dot_S4096x1024_S1024x2048_S4096x2048_1_0_0_1_n_n none l r) : (⟨S4096x1024, .f32⟩ : BufTy).Contents (Elt F) → (⟨S1024x2048, .f32⟩ : BufTy).Contents (Elt F) → (⟨S4096x2048, .f32⟩ : BufTy).Contents (Elt F)),
    unary main_arg3 main_v2 (broadcastInDim S1x2048 ![1] bcast_S2048_S1x2048_1 : (⟨S2048, .f32⟩ : BufTy).Contents (Elt F) → (⟨S1x2048, .f32⟩ : BufTy).Contents (Elt F)),
    unary main_v2 main_v3 (broadcastInDim S4096x2048 ![0, 1] bcast_S1x2048_S4096x2048_0_1 : (⟨S1x2048, .f32⟩ : BufTy).Contents (Elt F) → (⟨S4096x2048, .f32⟩ : BufTy).Contents (Elt F)),
    binary main_v1 main_v3 main_v4 (addf : (⟨S4096x2048, .f32⟩ : BufTy).Contents (Elt F) → (⟨S4096x2048, .f32⟩ : BufTy).Contents (Elt F) → (⟨S4096x2048, .f32⟩ : BufTy).Contents (Elt F)),
    TRef.nullary main_call0.cst (constant S_ .f32 0x00000000#32),
    TRef.unary main_call0.cst main_call0.v0 (broadcastInDim S4096x2048 ![] bcast_S_S4096x2048),
    TRef.binary (.of main_v4) main_call0.v0 main_call0.v1 maximumf ]

/-- The buffers they write. -/
abbrev w1_W : List (Ref sig .tc) := [main_c, main_c_0, main_c_1, main_c_2, main_v0, main_v1, main_v2, main_v3, main_v4, main_call0_cst, main_call0_v0, main_v5]

theorem w1_writes : (w1 : List (HloOp τ sig (Elt F))).Forall fun op =>
    op.writes ⊆ (w1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer they do not write keeps its contents. -/
theorem w1_keep (V : Valuation τ sig (Elt F)) (r : Ref sig .tc) (h : r ∉ w1_W) :
    after w1 V (Proc.devRef .tc r) = V (Proc.devRef .tc r) :=
  after_of_writes_sub w1 _ w1_writes h

/-- Operations 13 to 22: the two gate products with their biases. -/
abbrev w2 : List (HloOp τ sig (Elt F)) :=
  [ unary main_arg4 main_v6 ((transpose S2048x6144 [1, 0] · transposes_S6144x2048_S2048x6144_1_0) : (⟨S6144x2048, .f32⟩ : BufTy).Contents (Elt F) → (⟨S2048x6144, .f32⟩ : BufTy).Contents (Elt F)),
    binary main_v5 main_v6 main_v7 ((fun l r => Host.dotGeneral dot_S4096x2048_S2048x6144_S4096x6144_1_0_0_1_n_n none l r) : (⟨S4096x2048, .f32⟩ : BufTy).Contents (Elt F) → (⟨S2048x6144, .f32⟩ : BufTy).Contents (Elt F) → (⟨S4096x6144, .f32⟩ : BufTy).Contents (Elt F)),
    unary main_arg6 main_v8 (broadcastInDim S1x6144 ![1] bcast_S6144_S1x6144_1 : (⟨S6144, .f32⟩ : BufTy).Contents (Elt F) → (⟨S1x6144, .f32⟩ : BufTy).Contents (Elt F)),
    unary main_v8 main_v9 (broadcastInDim S4096x6144 ![0, 1] bcast_S1x6144_S4096x6144_0_1 : (⟨S1x6144, .f32⟩ : BufTy).Contents (Elt F) → (⟨S4096x6144, .f32⟩ : BufTy).Contents (Elt F)),
    binary main_v7 main_v9 main_v10 (addf : (⟨S4096x6144, .f32⟩ : BufTy).Contents (Elt F) → (⟨S4096x6144, .f32⟩ : BufTy).Contents (Elt F) → (⟨S4096x6144, .f32⟩ : BufTy).Contents (Elt F)),
    unary main_arg5 main_v11 ((transpose S2048x6144 [1, 0] · transposes_S6144x2048_S2048x6144_1_0) : (⟨S6144x2048, .f32⟩ : BufTy).Contents (Elt F) → (⟨S2048x6144, .f32⟩ : BufTy).Contents (Elt F)),
    binary main_arg1 main_v11 main_v12 ((fun l r => Host.dotGeneral dot_S4096x2048_S2048x6144_S4096x6144_1_0_0_1_n_n none l r) : (⟨S4096x2048, .f32⟩ : BufTy).Contents (Elt F) → (⟨S2048x6144, .f32⟩ : BufTy).Contents (Elt F) → (⟨S4096x6144, .f32⟩ : BufTy).Contents (Elt F)),
    unary main_arg7 main_v13 (broadcastInDim S1x6144 ![1] bcast_S6144_S1x6144_1 : (⟨S6144, .f32⟩ : BufTy).Contents (Elt F) → (⟨S1x6144, .f32⟩ : BufTy).Contents (Elt F)),
    unary main_v13 main_v14 (broadcastInDim S4096x6144 ![0, 1] bcast_S1x6144_S4096x6144_0_1 : (⟨S1x6144, .f32⟩ : BufTy).Contents (Elt F) → (⟨S4096x6144, .f32⟩ : BufTy).Contents (Elt F)),
    binary main_v12 main_v14 main_v15 (addf : (⟨S4096x6144, .f32⟩ : BufTy).Contents (Elt F) → (⟨S4096x6144, .f32⟩ : BufTy).Contents (Elt F) → (⟨S4096x6144, .f32⟩ : BufTy).Contents (Elt F)) ]

/-- The buffers they write. -/
abbrev w2_W : List (Ref sig .tc) := [main_v6, main_v7, main_v8, main_v9, main_v10, main_v11, main_v12, main_v13, main_v14, main_v15]

theorem w2_writes : (w2 : List (HloOp τ sig (Elt F))).Forall fun op =>
    op.writes ⊆ (w2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer they do not write keeps its contents. -/
theorem w2_keep (V : Valuation τ sig (Elt F)) (r : Ref sig .tc) (h : r ∉ w2_W) :
    after w2 V (Proc.devRef .tc r) = V (Proc.devRef .tc r) :=
  after_of_writes_sub w2 _ w2_writes h

/-- Operations 23 to 55: the six gate slices and the cell's arithmetic. -/
abbrev w3 : List (HloOp τ sig (Elt F)) :=
  [ unary main_v10 main_v16 ((extractStridedSlice S4096x2048 ![0, 0] · slices_S4096x6144_S4096x2048_0_0) : (⟨S4096x6144, .f32⟩ : BufTy).Contents (Elt F) → (⟨S4096x2048, .f32⟩ : BufTy).Contents (Elt F)),
    unary main_v10 main_v17 ((extractStridedSlice S4096x2048 ![0, 2048] · slices_S4096x6144_S4096x2048_0_2048) : (⟨S4096x6144, .f32⟩ : BufTy).Contents (Elt F) → (⟨S4096x2048, .f32⟩ : BufTy).Contents (Elt F)),
    unary main_v10 main_v18 ((extractStridedSlice S4096x2048 ![0, 4096] · slices_S4096x6144_S4096x2048_0_4096) : (⟨S4096x6144, .f32⟩ : BufTy).Contents (Elt F) → (⟨S4096x2048, .f32⟩ : BufTy).Contents (Elt F)),
    unary main_v15 main_v19 ((extractStridedSlice S4096x2048 ![0, 0] · slices_S4096x6144_S4096x2048_0_0) : (⟨S4096x6144, .f32⟩ : BufTy).Contents (Elt F) → (⟨S4096x2048, .f32⟩ : BufTy).Contents (Elt F)),
    unary main_v15 main_v20 ((extractStridedSlice S4096x2048 ![0, 2048] · slices_S4096x6144_S4096x2048_0_2048) : (⟨S4096x6144, .f32⟩ : BufTy).Contents (Elt F) → (⟨S4096x2048, .f32⟩ : BufTy).Contents (Elt F)),
    unary main_v15 main_v21 ((extractStridedSlice S4096x2048 ![0, 4096] · slices_S4096x6144_S4096x2048_0_4096) : (⟨S4096x6144, .f32⟩ : BufTy).Contents (Elt F) → (⟨S4096x2048, .f32⟩ : BufTy).Contents (Elt F)),
    binary main_v16 main_v19 main_v22 (addf : (⟨S4096x2048, .f32⟩ : BufTy).Contents (Elt F) → (⟨S4096x2048, .f32⟩ : BufTy).Contents (Elt F) → (⟨S4096x2048, .f32⟩ : BufTy).Contents (Elt F)),
    unary main_v22 main_v23 (Host.negf : (⟨S4096x2048, .f32⟩ : BufTy).Contents (Elt F) → (⟨S4096x2048, .f32⟩ : BufTy).Contents (Elt F)),
    unary main_v23 main_v24 (Host.exp : (⟨S4096x2048, .f32⟩ : BufTy).Contents (Elt F) → (⟨S4096x2048, .f32⟩ : BufTy).Contents (Elt F)),
    nullary main_cst (constant S_ .f32 0x3F800000#32),
    unary main_cst main_v25 (broadcastInDim S4096x2048 ![] bcast_S_S4096x2048 : (⟨S_, .f32⟩ : BufTy).Contents (Elt F) → (⟨S4096x2048, .f32⟩ : BufTy).Contents (Elt F)),
    binary main_v25 main_v24 main_v26 (addf : (⟨S4096x2048, .f32⟩ : BufTy).Contents (Elt F) → (⟨S4096x2048, .f32⟩ : BufTy).Contents (Elt F) → (⟨S4096x2048, .f32⟩ : BufTy).Contents (Elt F)),
    nullary main_cst_3 (constant S_ .f32 0x3F800000#32),
    unary main_cst_3 main_v27 (broadcastInDim S4096x2048 ![] bcast_S_S4096x2048 : (⟨S_, .f32⟩ : BufTy).Contents (Elt F) → (⟨S4096x2048, .f32⟩ : BufTy).Contents (Elt F)),
    binary main_v27 main_v26 main_v28 (Host.divf : (⟨S4096x2048, .f32⟩ : BufTy).Contents (Elt F) → (⟨S4096x2048, .f32⟩ : BufTy).Contents (Elt F) → (⟨S4096x2048, .f32⟩ : BufTy).Contents (Elt F)),
    binary main_v17 main_v20 main_v29 (addf : (⟨S4096x2048, .f32⟩ : BufTy).Contents (Elt F) → (⟨S4096x2048, .f32⟩ : BufTy).Contents (Elt F) → (⟨S4096x2048, .f32⟩ : BufTy).Contents (Elt F)),
    unary main_v29 main_v30 (Host.negf : (⟨S4096x2048, .f32⟩ : BufTy).Contents (Elt F) → (⟨S4096x2048, .f32⟩ : BufTy).Contents (Elt F)),
    unary main_v30 main_v31 (Host.exp : (⟨S4096x2048, .f32⟩ : BufTy).Contents (Elt F) → (⟨S4096x2048, .f32⟩ : BufTy).Contents (Elt F)),
    nullary main_cst_4 (constant S_ .f32 0x3F800000#32),
    unary main_cst_4 main_v32 (broadcastInDim S4096x2048 ![] bcast_S_S4096x2048 : (⟨S_, .f32⟩ : BufTy).Contents (Elt F) → (⟨S4096x2048, .f32⟩ : BufTy).Contents (Elt F)),
    binary main_v32 main_v31 main_v33 (addf : (⟨S4096x2048, .f32⟩ : BufTy).Contents (Elt F) → (⟨S4096x2048, .f32⟩ : BufTy).Contents (Elt F) → (⟨S4096x2048, .f32⟩ : BufTy).Contents (Elt F)),
    nullary main_cst_5 (constant S_ .f32 0x3F800000#32),
    unary main_cst_5 main_v34 (broadcastInDim S4096x2048 ![] bcast_S_S4096x2048 : (⟨S_, .f32⟩ : BufTy).Contents (Elt F) → (⟨S4096x2048, .f32⟩ : BufTy).Contents (Elt F)),
    binary main_v34 main_v33 main_v35 (Host.divf : (⟨S4096x2048, .f32⟩ : BufTy).Contents (Elt F) → (⟨S4096x2048, .f32⟩ : BufTy).Contents (Elt F) → (⟨S4096x2048, .f32⟩ : BufTy).Contents (Elt F)),
    binary main_v28 main_v21 main_v36 (mulf : (⟨S4096x2048, .f32⟩ : BufTy).Contents (Elt F) → (⟨S4096x2048, .f32⟩ : BufTy).Contents (Elt F) → (⟨S4096x2048, .f32⟩ : BufTy).Contents (Elt F)),
    binary main_v18 main_v36 main_v37 (addf : (⟨S4096x2048, .f32⟩ : BufTy).Contents (Elt F) → (⟨S4096x2048, .f32⟩ : BufTy).Contents (Elt F) → (⟨S4096x2048, .f32⟩ : BufTy).Contents (Elt F)),
    unary main_v37 main_v38 (Host.tanh : (⟨S4096x2048, .f32⟩ : BufTy).Contents (Elt F) → (⟨S4096x2048, .f32⟩ : BufTy).Contents (Elt F)),
    nullary main_cst_6 (constant S_ .f32 0x3F800000#32),
    unary main_cst_6 main_v39 (broadcastInDim S4096x2048 ![] bcast_S_S4096x2048 : (⟨S_, .f32⟩ : BufTy).Contents (Elt F) → (⟨S4096x2048, .f32⟩ : BufTy).Contents (Elt F)),
    binary main_v39 main_v35 main_v40 (subf : (⟨S4096x2048, .f32⟩ : BufTy).Contents (Elt F) → (⟨S4096x2048, .f32⟩ : BufTy).Contents (Elt F) → (⟨S4096x2048, .f32⟩ : BufTy).Contents (Elt F)),
    binary main_v40 main_v38 main_v41 (mulf : (⟨S4096x2048, .f32⟩ : BufTy).Contents (Elt F) → (⟨S4096x2048, .f32⟩ : BufTy).Contents (Elt F) → (⟨S4096x2048, .f32⟩ : BufTy).Contents (Elt F)),
    binary main_v35 main_arg1 main_v42 (mulf : (⟨S4096x2048, .f32⟩ : BufTy).Contents (Elt F) → (⟨S4096x2048, .f32⟩ : BufTy).Contents (Elt F) → (⟨S4096x2048, .f32⟩ : BufTy).Contents (Elt F)),
    binary main_v41 main_v42 main_v43 (addf : (⟨S4096x2048, .f32⟩ : BufTy).Contents (Elt F) → (⟨S4096x2048, .f32⟩ : BufTy).Contents (Elt F) → (⟨S4096x2048, .f32⟩ : BufTy).Contents (Elt F)) ]

/-- The buffers they write. -/
abbrev w3_W : List (Ref sig .tc) := [main_v16, main_v17, main_v18, main_v19, main_v20, main_v21, main_v22, main_v23, main_v24, main_cst, main_v25, main_v26, main_cst_3, main_v27, main_v28, main_v29, main_v30, main_v31, main_cst_4, main_v32, main_v33, main_cst_5, main_v34, main_v35, main_v36, main_v37, main_v38, main_cst_6, main_v39, main_v40, main_v41, main_v42, main_v43]

theorem w3_writes : (w3 : List (HloOp τ sig (Elt F))).Forall fun op =>
    op.writes ⊆ (w3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer they do not write keeps its contents. -/
theorem w3_keep (V : Valuation τ sig (Elt F)) (r : Ref sig .tc) (h : r ∉ w3_W) :
    after w3 V (Proc.devRef .tc r) = V (Proc.devRef .tc r) :=
  after_of_writes_sub w3 _ w3_writes h

/-- Operations 56 to 60: the second dense layer. -/
abbrev w4 : List (HloOp τ sig (Elt F)) :=
  [ unary main_arg8 main_v44 ((transpose S2048x4096 [1, 0] · transposes_S4096x2048_S2048x4096_1_0) : (⟨S4096x2048, .f32⟩ : BufTy).Contents (Elt F) → (⟨S2048x4096, .f32⟩ : BufTy).Contents (Elt F)),
    binary main_v43 main_v44 main_v45 ((fun l r => Host.dotGeneral dot_S4096x2048_S2048x4096_S4096x4096_1_0_0_1_n_n none l r) : (⟨S4096x2048, .f32⟩ : BufTy).Contents (Elt F) → (⟨S2048x4096, .f32⟩ : BufTy).Contents (Elt F) → (⟨S4096x4096, .f32⟩ : BufTy).Contents (Elt F)),
    unary main_arg9 main_v46 (broadcastInDim S1x4096 ![1] bcast_S4096_S1x4096_1 : (⟨S4096, .f32⟩ : BufTy).Contents (Elt F) → (⟨S1x4096, .f32⟩ : BufTy).Contents (Elt F)),
    unary main_v46 main_v47 (broadcastInDim S4096x4096 ![0, 1] bcast_S1x4096_S4096x4096_0_1 : (⟨S1x4096, .f32⟩ : BufTy).Contents (Elt F) → (⟨S4096x4096, .f32⟩ : BufTy).Contents (Elt F)),
    binary main_v45 main_v47 main_v48 (addf : (⟨S4096x4096, .f32⟩ : BufTy).Contents (Elt F) → (⟨S4096x4096, .f32⟩ : BufTy).Contents (Elt F) → (⟨S4096x4096, .f32⟩ : BufTy).Contents (Elt F)) ]

/-- The buffers they write. -/
abbrev w4_W : List (Ref sig .tc) := [main_v44, main_v45, main_v46, main_v47, main_v48]

theorem w4_writes : (w4 : List (HloOp τ sig (Elt F))).Forall fun op =>
    op.writes ⊆ (w4_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer they do not write keeps its contents. -/
theorem w4_keep (V : Valuation τ sig (Elt F)) (r : Ref sig .tc) (h : r ∉ w4_W) :
    after w4 V (Proc.devRef .tc r) = V (Proc.devRef .tc r) :=
  after_of_writes_sub w4 _ w4_writes h

/-- Operations 61 to 78: the decode's two heads: index arithmetic, gathers, maxima, a unit middle axis. -/
abbrev w5 : List (HloOp τ sig (Elt F)) :=
  [ nullary main_c_7 (constantI S_ 32 4096#32),
    unary main_c_7 main_v49 (broadcastInDim S64x64 ![] bcast_S_S64x64 : (⟨S_, .i32⟩ : BufTy).Contents (Elt F) → (⟨S64x64, .i32⟩ : BufTy).Contents (Elt F)),
    binary main_c main_v49 main_v50 (addi : (⟨S64x64, .i32⟩ : BufTy).Contents (Elt F) → (⟨S64x64, .i32⟩ : BufTy).Contents (Elt F) → (⟨S64x64, .i32⟩ : BufTy).Contents (Elt F)),
    ternary main_c_0 main_v50 main_c main_v51 (select : (⟨S64x64, .i1⟩ : BufTy).Contents (Elt F) → (⟨S64x64, .i32⟩ : BufTy).Contents (Elt F) → (⟨S64x64, .i32⟩ : BufTy).Contents (Elt F) → (⟨S64x64, .i32⟩ : BufTy).Contents (Elt F)),
    unary main_v51 main_v52 (broadcastInDim S64x64x1 ![0, 1] bcast_S64x64_S64x64x1_0_1 : (⟨S64x64, .i32⟩ : BufTy).Contents (Elt F) → (⟨S64x64x1, .i32⟩ : BufTy).Contents (Elt F)),
    binary main_v48 main_v52 main_v53 ((fun x i => Host.gather gather_S4096x4096_S64x64x1_S4096x64x64_0_1_n_n_1_2_40961 x i) : (⟨S4096x4096, .f32⟩ : BufTy).Contents (Elt F) → (⟨S64x64x1, .i32⟩ : BufTy).Contents (Elt F) → (⟨S4096x64x64, .f32⟩ : BufTy).Contents (Elt F)),
    nullary main_cst_8 (constant S_ .f32 0xFF800000#32),
    binary main_v53 main_cst_8 main_v54 ((fun x v => Host.reduce FloatOps.maximumf x v reducesTo_S4096x64x64_S4096x64_d2 h_S_) : (⟨S4096x64x64, .f32⟩ : BufTy).Contents (Elt F) → (⟨S_, .f32⟩ : BufTy).Contents (Elt F) → (⟨S4096x64, .f32⟩ : BufTy).Contents (Elt F)),
    nullary main_c_9 (constantI S_ 32 4096#32),
    unary main_c_9 main_v55 (broadcastInDim S64x64 ![] bcast_S_S64x64 : (⟨S_, .i32⟩ : BufTy).Contents (Elt F) → (⟨S64x64, .i32⟩ : BufTy).Contents (Elt F)),
    binary main_c_1 main_v55 main_v56 (addi : (⟨S64x64, .i32⟩ : BufTy).Contents (Elt F) → (⟨S64x64, .i32⟩ : BufTy).Contents (Elt F) → (⟨S64x64, .i32⟩ : BufTy).Contents (Elt F)),
    ternary main_c_2 main_v56 main_c_1 main_v57 (select : (⟨S64x64, .i1⟩ : BufTy).Contents (Elt F) → (⟨S64x64, .i32⟩ : BufTy).Contents (Elt F) → (⟨S64x64, .i32⟩ : BufTy).Contents (Elt F) → (⟨S64x64, .i32⟩ : BufTy).Contents (Elt F)),
    unary main_v57 main_v58 (broadcastInDim S64x64x1 ![0, 1] bcast_S64x64_S64x64x1_0_1 : (⟨S64x64, .i32⟩ : BufTy).Contents (Elt F) → (⟨S64x64x1, .i32⟩ : BufTy).Contents (Elt F)),
    binary main_v48 main_v58 main_v59 ((fun x i => Host.gather gather_S4096x4096_S64x64x1_S4096x64x64_0_1_n_n_1_2_40961 x i) : (⟨S4096x4096, .f32⟩ : BufTy).Contents (Elt F) → (⟨S64x64x1, .i32⟩ : BufTy).Contents (Elt F) → (⟨S4096x64x64, .f32⟩ : BufTy).Contents (Elt F)),
    nullary main_cst_10 (constant S_ .f32 0xFF800000#32),
    binary main_v59 main_cst_10 main_v60 ((fun x v => Host.reduce FloatOps.maximumf x v reducesTo_S4096x64x64_S4096x64_d2 h_S_) : (⟨S4096x64x64, .f32⟩ : BufTy).Contents (Elt F) → (⟨S_, .f32⟩ : BufTy).Contents (Elt F) → (⟨S4096x64, .f32⟩ : BufTy).Contents (Elt F)),
    unary main_v54 main_v61 (broadcastInDim S4096x1x64 ![0, 2] bcast_S4096x64_S4096x1x64_0_2 : (⟨S4096x64, .f32⟩ : BufTy).Contents (Elt F) → (⟨S4096x1x64, .f32⟩ : BufTy).Contents (Elt F)),
    unary main_v60 main_v62 (broadcastInDim S4096x1x64 ![0, 2] bcast_S4096x64_S4096x1x64_0_2 : (⟨S4096x64, .f32⟩ : BufTy).Contents (Elt F) → (⟨S4096x1x64, .f32⟩ : BufTy).Contents (Elt F)) ]

/-- The buffers they write. -/
abbrev w5_W : List (Ref sig .tc) := [main_c_7, main_v49, main_v50, main_v51, main_v52, main_v53, main_cst_8, main_v54, main_c_9, main_v55, main_v56, main_v57, main_v58, main_v59, main_cst_10, main_v60, main_v61, main_v62]

theorem w5_writes : (w5 : List (HloOp τ sig (Elt F))).Forall fun op =>
    op.writes ⊆ (w5_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer they do not write keeps its contents. -/
theorem w5_keep (V : Valuation τ sig (Elt F)) (r : Ref sig .tc) (h : r ∉ w5_W) :
    after w5 V (Proc.devRef .tc r) = V (Proc.devRef .tc r) :=
  after_of_writes_sub w5 _ w5_writes h

/-- Operations 79 to 80: the two heads stacked on the middle axis and flattened. -/
abbrev w6 : List (HloOp τ sig (Elt F)) :=
  [ binary main_v61 main_v62 main_v63 ((fun a b => concatenate S4096x2x64 1 [⟨S4096x1x64, a⟩, ⟨S4096x1x64, b⟩] concatenates_S4096x1x64_S4096x1x64_S4096x2x64_d1) : (⟨S4096x1x64, .f32⟩ : BufTy).Contents (Elt F) → (⟨S4096x1x64, .f32⟩ : BufTy).Contents (Elt F) → (⟨S4096x2x64, .f32⟩ : BufTy).Contents (Elt F)),
    reshape main_v63 main_v64 rfl shapeCasts_S4096x2x64_S8192x64 ]

/-- The buffers they write. -/
abbrev w6_W : List (Ref sig .tc) := [main_v63, main_v64]

theorem w6_writes : (w6 : List (HloOp τ sig (Elt F))).Forall fun op =>
    op.writes ⊆ (w6_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer they do not write keeps its contents. -/
theorem w6_keep (V : Valuation τ sig (Elt F)) (r : Ref sig .tc) (h : r ∉ w6_W) :
    after w6 V (Proc.devRef .tc r) = V (Proc.devRef .tc r) :=
  after_of_writes_sub w6 _ w6_writes h

set_option maxRecDepth 16384 in
/-- The six runs in order are the whole line. -/
theorem ops_eq : (ops : List (HloOp τ sig (Elt F))) = w1 ++ (w2 ++ (w3 ++ (w4 ++ (w5 ++ w6)))) := rfl

/-- The whole line's contents are the six runs' in turn. -/
theorem after_ops (V : Valuation τ sig (Elt F)) :
    after ops V = after w6 (after w5 (after w4 (after w3 (after w2 (after w1 V))))) := by
  rw [ops_eq, after_append, after_append, after_append, after_append, after_append]

/-! ## Each run's results -/

attribute [local irreducible] Host.reduce Host.gather in
set_option maxRecDepth 16384 in
set_option maxHeartbeats 1000000 in
/-- The first run leaves the dense layer with its ReLU. -/
theorem w1_v5 (V : Valuation τ sig (Elt F)) :
    after w1 V (Proc.devRef .tc main_v5 : DevRef τ sig) = refX (V (Proc.devRef .tc main_arg0 : DevRef τ sig)) (V (Proc.devRef .tc main_arg2 : DevRef τ sig)) (V (Proc.devRef .tc main_arg3 : DevRef τ sig)) := by
  after_results_simp
  all_goals rfl

/-- … and the two column tables and the two all-false masks. -/
theorem w1_c (V : Valuation τ sig (Elt F)) : after w1 V (Proc.devRef .tc main_c : DevRef τ sig) = fun i => lit0 (S64x64.rowMajor i) := by
  after_results_simp
  all_goals rfl
theorem w1_c_0 (V : Valuation τ sig (Elt F)) : after w1 V (Proc.devRef .tc main_c_0 : DevRef τ sig) = constantI S64x64 1 0#1 := by
  after_results_simp
  all_goals rfl
theorem w1_c_1 (V : Valuation τ sig (Elt F)) : after w1 V (Proc.devRef .tc main_c_1 : DevRef τ sig) = fun i => lit1 (S64x64.rowMajor i) := by
  after_results_simp
  all_goals rfl
theorem w1_c_2 (V : Valuation τ sig (Elt F)) : after w1 V (Proc.devRef .tc main_c_2 : DevRef τ sig) = constantI S64x64 1 0#1 := by
  after_results_simp
  all_goals rfl

attribute [local irreducible] Host.reduce Host.gather in
set_option maxRecDepth 16384 in
set_option maxHeartbeats 1000000 in
/-- The second run leaves the two gate products. -/
theorem w2_v10 (V : Valuation τ sig (Elt F)) :
    after w2 V (Proc.devRef .tc main_v10 : DevRef τ sig) = refGate (V (Proc.devRef .tc main_v5 : DevRef τ sig)) (V (Proc.devRef .tc main_arg4 : DevRef τ sig)) (V (Proc.devRef .tc main_arg6 : DevRef τ sig)) := by
  after_results_simp
  all_goals rfl
attribute [local irreducible] Host.reduce Host.gather in
set_option maxRecDepth 16384 in
set_option maxHeartbeats 1000000 in
theorem w2_v15 (V : Valuation τ sig (Elt F)) :
    after w2 V (Proc.devRef .tc main_v15 : DevRef τ sig) = refGate (V (Proc.devRef .tc main_arg1 : DevRef τ sig)) (V (Proc.devRef .tc main_arg5 : DevRef τ sig)) (V (Proc.devRef .tc main_arg7 : DevRef τ sig)) := by
  after_results_simp
  all_goals rfl

attribute [local irreducible] Host.reduce Host.gather in
set_option maxRecDepth 16384 in
set_option maxHeartbeats 1000000 in
/-- The third run leaves the cell's new state. -/
theorem w3_v43 (V : Valuation τ sig (Elt F)) :
    after w3 V (Proc.devRef .tc main_v43 : DevRef τ sig) = refCell (V (Proc.devRef .tc main_v10 : DevRef τ sig)) (V (Proc.devRef .tc main_v15 : DevRef τ sig)) (V (Proc.devRef .tc main_arg1 : DevRef τ sig)) := by
  after_results_simp
  all_goals rfl

attribute [local irreducible] Host.reduce Host.gather in
set_option maxRecDepth 16384 in
set_option maxHeartbeats 1000000 in
/-- The fourth run leaves the second dense layer. -/
theorem w4_v48 (V : Valuation τ sig (Elt F)) :
    after w4 V (Proc.devRef .tc main_v48 : DevRef τ sig) = refDense2 (V (Proc.devRef .tc main_v43 : DevRef τ sig)) (V (Proc.devRef .tc main_arg8 : DevRef τ sig)) (V (Proc.devRef .tc main_arg9 : DevRef τ sig)) := by
  after_results_simp
  all_goals rfl

attribute [local irreducible] Host.reduce Host.gather in
set_option maxRecDepth 16384 in
set_option maxHeartbeats 1000000 in
/-- The fifth run, from contents holding the first column table and its all-false mask, leaves the first head of the
    second dense layer's buffer, with a unit middle axis. -/
theorem w5_v61 (V : Valuation τ sig (Elt Ideal))
    (hc : V (Proc.devRef .tc main_c : DevRef τ sig) = fun i => lit0 (S64x64.rowMajor i)) (hc0 : V (Proc.devRef .tc main_c_0 : DevRef τ sig) = constantI S64x64 1 0#1) :
    after w5 V (Proc.devRef .tc main_v61 : DevRef τ sig)
      = broadcastInDim S4096x1x64 ![0, 2] bcast_S4096x64_S4096x1x64_0_2 (head (fun i => lit0 (S64x64.rowMajor i)) (V (Proc.devRef .tc main_v48 : DevRef τ sig))) := by
  after_results_simp
  rw [hc, hc0]
  unfold head startIdx
  rfl

attribute [local irreducible] Host.reduce Host.gather in
set_option maxRecDepth 16384 in
set_option maxHeartbeats 1000000 in
/-- … and, from the second table and mask, the second head. -/
theorem w5_v62 (V : Valuation τ sig (Elt Ideal))
    (hc1 : V (Proc.devRef .tc main_c_1 : DevRef τ sig) = fun i => lit1 (S64x64.rowMajor i)) (hc2 : V (Proc.devRef .tc main_c_2 : DevRef τ sig) = constantI S64x64 1 0#1) :
    after w5 V (Proc.devRef .tc main_v62 : DevRef τ sig)
      = broadcastInDim S4096x1x64 ![0, 2] bcast_S4096x64_S4096x1x64_0_2 (head (fun i => lit1 (S64x64.rowMajor i)) (V (Proc.devRef .tc main_v48 : DevRef τ sig))) := by
  after_results_simp
  rw [hc1, hc2]
  unfold head startIdx
  rfl

/-- Two [4096, 1, 64] arrays stacked on the middle axis and flattened to 8192 rows. -/
def stack (a b : FVec Ideal S4096x1x64 .f32) : FVec Ideal S8192x64 .f32 :=
  shapeCast S8192x64
    (concatenate S4096x2x64 1 [⟨S4096x1x64, a⟩, ⟨S4096x1x64, b⟩] concatenates_S4096x1x64_S4096x1x64_S4096x2x64_d1)
    shapeCasts_S4096x2x64_S8192x64

/-- The decode is the stack of its two heads. -/
theorem refDecode_stack (q : FVec Ideal S4096x4096 .f32) :
    refDecode q = stack (broadcastInDim S4096x1x64 ![0, 2] bcast_S4096x64_S4096x1x64_0_2 (head (fun i => lit0 (S64x64.rowMajor i)) q)) (broadcastInDim S4096x1x64 ![0, 2] bcast_S4096x64_S4096x1x64_0_2 (head (fun i => lit1 (S64x64.rowMajor i)) q)) := rfl

attribute [local irreducible] Host.reduce Host.gather in
set_option maxRecDepth 16384 in
set_option maxHeartbeats 1000000 in
/-- The sixth run leaves the stack of the two heads' buffers. -/
theorem w6_v64 (V : Valuation τ sig (Elt Ideal)) :
    after w6 V (Proc.devRef .tc main_v64 : DevRef τ sig) = stack (V (Proc.devRef .tc main_v61 : DevRef τ sig)) (V (Proc.devRef .tc main_v62 : DevRef τ sig)) := by
  after_results_simp
  all_goals rfl

/-! ## The whole line -/

/-- The new hidden state's buffer. -/
theorem v43_eq (V : Valuation τ sig (Elt F)) :
    after ops V (Proc.devRef .tc main_v43 : DevRef τ sig) = refH (V (Proc.devRef .tc main_arg0 : DevRef τ sig)) (V (Proc.devRef .tc main_arg1 : DevRef τ sig)) (V (Proc.devRef .tc main_arg2 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) (V (Proc.devRef .tc main_arg7 : DevRef τ sig)) := by
  rw [after_ops, w6_keep _ main_v43 (by decide), w5_keep _ main_v43 (by decide), w4_keep _ main_v43 (by decide), w3_v43, w2_v10, w2_v15, w1_v5,
    w2_keep _ main_arg1 (by decide), w1_keep _ main_arg1 (by decide), w1_keep _ main_arg4 (by decide), w1_keep _ main_arg5 (by decide),
    w1_keep _ main_arg6 (by decide), w1_keep _ main_arg7 (by decide)]
  rfl

/-- The second dense layer's buffer, after the first four runs. -/
theorem v48_eq (V : Valuation τ sig (Elt F)) :
    after w4 (after w3 (after w2 (after w1 V))) (Proc.devRef .tc main_v48 : DevRef τ sig) = refQ (V (Proc.devRef .tc main_arg0 : DevRef τ sig)) (V (Proc.devRef .tc main_arg1 : DevRef τ sig)) (V (Proc.devRef .tc main_arg2 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) (V (Proc.devRef .tc main_arg7 : DevRef τ sig)) (V (Proc.devRef .tc main_arg8 : DevRef τ sig)) (V (Proc.devRef .tc main_arg9 : DevRef τ sig)) := by
  rw [w4_v48, w3_v43, w2_v10, w2_v15, w1_v5,
    w2_keep _ main_arg1 (by decide), w1_keep _ main_arg1 (by decide), w1_keep _ main_arg4 (by decide), w1_keep _ main_arg5 (by decide),
    w1_keep _ main_arg6 (by decide), w1_keep _ main_arg7 (by decide),
    w3_keep _ main_arg8 (by decide), w2_keep _ main_arg8 (by decide), w1_keep _ main_arg8 (by decide), w3_keep _ main_arg9 (by decide), w2_keep _ main_arg9 (by decide), w1_keep _ main_arg9 (by decide)]
  rfl

/-- The decoded result's buffer, at the extended reals: the decode of the second dense layer's output. -/
theorem v64_eq (V : Valuation τ sig (Elt Ideal)) :
    after ops V (Proc.devRef .tc main_v64 : DevRef τ sig) = refDecode (refQ (V (Proc.devRef .tc main_arg0 : DevRef τ sig)) (V (Proc.devRef .tc main_arg1 : DevRef τ sig)) (V (Proc.devRef .tc main_arg2 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) (V (Proc.devRef .tc main_arg7 : DevRef τ sig)) (V (Proc.devRef .tc main_arg8 : DevRef τ sig)) (V (Proc.devRef .tc main_arg9 : DevRef τ sig))) := by
  rw [after_ops, w6_v64, refDecode_stack,
    w5_v61 _ (by rw [w4_keep _ main_c (by decide), w3_keep _ main_c (by decide), w2_keep _ main_c (by decide), w1_c]) (by rw [w4_keep _ main_c_0 (by decide), w3_keep _ main_c_0 (by decide), w2_keep _ main_c_0 (by decide), w1_c_0]),
    w5_v62 _ (by rw [w4_keep _ main_c_1 (by decide), w3_keep _ main_c_1 (by decide), w2_keep _ main_c_1 (by decide), w1_c_1]) (by rw [w4_keep _ main_c_2 (by decide), w3_keep _ main_c_2 (by decide), w2_keep _ main_c_2 (by decide), w1_c_2]),
    v48_eq]

theorem arg0_eq (V : Valuation τ sig (Elt F)) : after ops V (Proc.devRef .tc main_arg0 : DevRef τ sig) = V (Proc.devRef .tc main_arg0 : DevRef τ sig) := by
  rw [after_ops, w6_keep _ main_arg0 (by decide), w5_keep _ main_arg0 (by decide), w4_keep _ main_arg0 (by decide), w3_keep _ main_arg0 (by decide), w2_keep _ main_arg0 (by decide), w1_keep _ main_arg0 (by decide)]
theorem arg1_eq (V : Valuation τ sig (Elt F)) : after ops V (Proc.devRef .tc main_arg1 : DevRef τ sig) = V (Proc.devRef .tc main_arg1 : DevRef τ sig) := by
  rw [after_ops, w6_keep _ main_arg1 (by decide), w5_keep _ main_arg1 (by decide), w4_keep _ main_arg1 (by decide), w3_keep _ main_arg1 (by decide), w2_keep _ main_arg1 (by decide), w1_keep _ main_arg1 (by decide)]
theorem arg2_eq (V : Valuation τ sig (Elt F)) : after ops V (Proc.devRef .tc main_arg2 : DevRef τ sig) = V (Proc.devRef .tc main_arg2 : DevRef τ sig) := by
  rw [after_ops, w6_keep _ main_arg2 (by decide), w5_keep _ main_arg2 (by decide), w4_keep _ main_arg2 (by decide), w3_keep _ main_arg2 (by decide), w2_keep _ main_arg2 (by decide), w1_keep _ main_arg2 (by decide)]
theorem arg3_eq (V : Valuation τ sig (Elt F)) : after ops V (Proc.devRef .tc main_arg3 : DevRef τ sig) = V (Proc.devRef .tc main_arg3 : DevRef τ sig) := by
  rw [after_ops, w6_keep _ main_arg3 (by decide), w5_keep _ main_arg3 (by decide), w4_keep _ main_arg3 (by decide), w3_keep _ main_arg3 (by decide), w2_keep _ main_arg3 (by decide), w1_keep _ main_arg3 (by decide)]
theorem arg4_eq (V : Valuation τ sig (Elt F)) : after ops V (Proc.devRef .tc main_arg4 : DevRef τ sig) = V (Proc.devRef .tc main_arg4 : DevRef τ sig) := by
  rw [after_ops, w6_keep _ main_arg4 (by decide), w5_keep _ main_arg4 (by decide), w4_keep _ main_arg4 (by decide), w3_keep _ main_arg4 (by decide), w2_keep _ main_arg4 (by decide), w1_keep _ main_arg4 (by decide)]
theorem arg5_eq (V : Valuation τ sig (Elt F)) : after ops V (Proc.devRef .tc main_arg5 : DevRef τ sig) = V (Proc.devRef .tc main_arg5 : DevRef τ sig) := by
  rw [after_ops, w6_keep _ main_arg5 (by decide), w5_keep _ main_arg5 (by decide), w4_keep _ main_arg5 (by decide), w3_keep _ main_arg5 (by decide), w2_keep _ main_arg5 (by decide), w1_keep _ main_arg5 (by decide)]
theorem arg6_eq (V : Valuation τ sig (Elt F)) : after ops V (Proc.devRef .tc main_arg6 : DevRef τ sig) = V (Proc.devRef .tc main_arg6 : DevRef τ sig) := by
  rw [after_ops, w6_keep _ main_arg6 (by decide), w5_keep _ main_arg6 (by decide), w4_keep _ main_arg6 (by decide), w3_keep _ main_arg6 (by decide), w2_keep _ main_arg6 (by decide), w1_keep _ main_arg6 (by decide)]
theorem arg7_eq (V : Valuation τ sig (Elt F)) : after ops V (Proc.devRef .tc main_arg7 : DevRef τ sig) = V (Proc.devRef .tc main_arg7 : DevRef τ sig) := by
  rw [after_ops, w6_keep _ main_arg7 (by decide), w5_keep _ main_arg7 (by decide), w4_keep _ main_arg7 (by decide), w3_keep _ main_arg7 (by decide), w2_keep _ main_arg7 (by decide), w1_keep _ main_arg7 (by decide)]
theorem arg8_eq (V : Valuation τ sig (Elt F)) : after ops V (Proc.devRef .tc main_arg8 : DevRef τ sig) = V (Proc.devRef .tc main_arg8 : DevRef τ sig) := by
  rw [after_ops, w6_keep _ main_arg8 (by decide), w5_keep _ main_arg8 (by decide), w4_keep _ main_arg8 (by decide), w3_keep _ main_arg8 (by decide), w2_keep _ main_arg8 (by decide), w1_keep _ main_arg8 (by decide)]
theorem arg9_eq (V : Valuation τ sig (Elt F)) : after ops V (Proc.devRef .tc main_arg9 : DevRef τ sig) = V (Proc.devRef .tc main_arg9 : DevRef τ sig) := by
  rw [after_ops, w6_keep _ main_arg9 (by decide), w5_keep _ main_arg9 (by decide), w4_keep _ main_arg9 (by decide), w3_keep _ main_arg9 (by decide), w2_keep _ main_arg9 (by decide), w1_keep _ main_arg9 (by decide)]

end Cert.ReferenceIdeal.Hand

end
-- ==== Proof.Ref.Dense.lean ====
/-
  A dense layer read at one output entry: the product of an M×K array with the transpose of an N×K weight array,
  plus a length-N bias copied onto every row, is at entry (i, j) the sum over k of a[i,k]·W[j,k], plus bias[j].
  Also the float words for one and zero, and the logistic function spelt as a quotient.
-/
import Idealize.ShloMosaic.Lib.StackMember
import Idealize.ShloMosaic.Lib.Pipeline.Value
import Idealize.ShloMosaic.Lib.ValueIdx

noncomputable section

namespace Cert.ReferenceIdeal.Hand

open Idealize.ShloMosaic Idealize.ShloMosaic.ValueIdx

/-- The transpose of an N×K array read at (k, j) is the array at (j, k). -/
theorem transpose_ix2 {α : Type} {K N : Nat} (hT : (⟨2, ![N, K]⟩ : Shape).Transposes [1, 0] ⟨2, ![K, N]⟩)
    (W : (⟨2, ![N, K]⟩ : Shape).Idx → α) (k : Fin K) (j : Fin N) :
    transpose ⟨2, ![K, N]⟩ [1, 0] W hT (ix2 k j) = W (ix2 j k) :=
  transpose_apply [1, 0] W hT (ix2 k j) (ix2 j k) fun b => by
    match b with
    | ⟨0, _⟩ => rfl
    | ⟨1, _⟩ => rfl

/-- A length-N vector made a 1×N array and then copied onto each of M rows, read at (i, j), is the vector at j. -/
theorem bias_ix2 {α : Type} {M N : Nat} (hb1 : (⟨1, ![N]⟩ : Shape).BroadcastsInDim ⟨2, ![1, N]⟩ ![1])
    (hb2 : (⟨2, ![1, N]⟩ : Shape).BroadcastsInDim ⟨2, ![M, N]⟩ ![0, 1]) (v : (⟨1, ![N]⟩ : Shape).Idx → α) (i : Fin M) (j : Fin N) :
    broadcastInDim ⟨2, ![M, N]⟩ ![0, 1] hb2 (broadcastInDim ⟨2, ![1, N]⟩ ![1] hb1 v) (ix2 i j) = v (ix1 j) := by
  refine (broadcastInDim_apply ![0, 1] hb2 _ (ix2 i j) (ix2 (0 : Fin 1) j) fun a => ?_).trans
    (broadcastInDim_apply ![1] hb1 v (ix2 (0 : Fin 1) j) (ix1 j) fun a => ?_)
  · match a with
    | ⟨0, _⟩ => exact (if_pos rfl).symm
    | ⟨1, _⟩ =>
      show j.val = if N = 1 then 0 else j.val
      split_ifs with h
      · have := j.isLt; omega
      · rfl
  · match a with
    | ⟨0, _⟩ =>
      show j.val = if N = 1 then 0 else j.val
      split_ifs with h
      · have := j.isLt; omega
      · rfl

/-- THE DENSE LAYER AT AN ENTRY. -/
theorem dense_apply {M K N : Nat} (wf : DotDims.WF ⟨2, ![M, K]⟩ ⟨2, ![K, N]⟩ ⟨2, ![M, N]⟩ [1] [0] [0] [1] [] [])
    (hT : (⟨2, ![N, K]⟩ : Shape).Transposes [1, 0] ⟨2, ![K, N]⟩)
    (hb1 : (⟨1, ![N]⟩ : Shape).BroadcastsInDim ⟨2, ![1, N]⟩ ![1])
    (hb2 : (⟨2, ![1, N]⟩ : Shape).BroadcastsInDim ⟨2, ![M, N]⟩ ![0, 1])
    (a : FVec Ideal ⟨2, ![M, K]⟩ .f32) (W : FVec Ideal ⟨2, ![N, K]⟩ .f32) (bias : FVec Ideal ⟨1, ![N]⟩ .f32) (i : Fin M) (j : Fin N) :
    addf (Host.dotGeneral (⟨[1], [0], [0], [1], [], [], wf⟩ : DotDims ⟨2, ![M, K]⟩ ⟨2, ![K, N]⟩ ⟨2, ![M, N]⟩) none a
        (transpose ⟨2, ![K, N]⟩ [1, 0] W hT))
      (broadcastInDim ⟨2, ![M, N]⟩ ![0, 1] hb2 (broadcastInDim ⟨2, ![1, N]⟩ ![1] hb1 bias)) (ix2 i j)
      = (∑ k : Fin K, a (ix2 i k) * W (ix2 j k)) + bias (ix1 j) := by
  rw [addf_apply, bias_ix2 hb1 hb2 bias i j]
  congr 1
  have hD : (⟨[1], [0], [0], [1], [], [], wf⟩ : DotDims ⟨2, ![M, K]⟩ ⟨2, ![K, N]⟩ ⟨2, ![M, N]⟩) = DotDims.plain M K N := rfl
  rw [hD, StackMember.dotGeneral_plain_apply]
  exact Finset.sum_congr rfl fun k _ => by rw [transpose_ix2 hT W k j]

/-- The float word of one denotes the extended real one. -/
theorem ofBits_one : Ideal.ofBits .f32 0x3F800000#32 = 1 := by
  simp [Ideal.ofBits, Ideal.ieee, -EReal.coe_mul]; norm_num

/-- The quotient the network spells, `1 / (1 + exp (−s))` with the printed word for one, is the logistic function. -/
theorem sigmoid_word (s : Ideal .f32) :
    FloatOps.hostDivf (Ideal.ofBits .f32 0x3F800000#32 : Ideal .f32)
        (FloatOps.addf (Ideal.ofBits .f32 0x3F800000#32 : Ideal .f32) (FloatOps.hostUnary .exp (FloatOps.hostNegf s)))
      = Ideal.logistic s := by
  rw [ofBits_one]
  rfl

end Cert.ReferenceIdeal.Hand

end
-- ==== Proof.Ref.Value.lean ====
/-
  The stage functions of the reference network read at an index, at the extended reals: each is the entry the
  network's specification names — the dense layer with ReLU, the two gate pre-activations, the three gates, the
  new hidden state, and the second dense layer's output.
-/
import proofs.«145547_j6897717478082_2_alg».proof.Proof.Ref.Stages
import proofs.«145547_j6897717478082_2_alg».proof.Proof.Ref.Dense
import proofs.«145547_j6897717478082_2_alg».proof.Proof.Spec

noncomputable section

namespace Cert.ReferenceIdeal.Hand

open Cert.ReferenceIdeal Cert.ReferenceIdeal.Gen Idealize.ShloMosaic Idealize.ShloMosaic.ValueIdx

/-! ## The pieces, for any arrays -/

/-- The first dense layer before its ReLU, at an entry. -/
theorem refFc1_apply (inp : FVec Ideal S4096x1024 .f32) (W1 : FVec Ideal S2048x1024 .f32) (b1 : FVec Ideal S2048 .f32)
    (b : Fin 4096) (h : Fin 2048) :
    refFc1 inp W1 b1 (ix2 b h) = (∑ k : Fin 1024, inp (ix2 b k) * W1 (ix2 h k)) + b1 (ix1 h) := by
  unfold refFc1
  exact dense_apply _ _ _ _ inp W1 b1 b h

/-- The first dense layer with its ReLU, at an entry: the maximum with the float word of zero. -/
theorem refX_apply (inp : FVec Ideal S4096x1024 .f32) (W1 : FVec Ideal S2048x1024 .f32) (b1 : FVec Ideal S2048 .f32)
    (b : Fin 4096) (h : Fin 2048) :
    refX inp W1 b1 (ix2 b h)
      = max ((∑ k : Fin 1024, inp (ix2 b k) * W1 (ix2 h k)) + b1 (ix1 h)) (Ideal.ofBits .f32 0x00000000#32) := by
  rw [← refFc1_apply]
  rfl

/-- A gate product at an entry. -/
theorem refGate_apply (a : FVec Ideal S4096x2048 .f32) (W : FVec Ideal S6144x2048 .f32) (bias : FVec Ideal S6144 .f32)
    (b : Fin 4096) (g : Fin 6144) :
    refGate a W bias (ix2 b g) = (∑ k : Fin 2048, a (ix2 b k) * W (ix2 g k)) + bias (ix1 g) := by
  unfold refGate
  exact dense_apply _ _ _ _ a W bias b g

/-- The second dense layer at an entry. -/
theorem refDense2_apply (a : FVec Ideal S4096x2048 .f32) (W : FVec Ideal S4096x2048 .f32) (bias : FVec Ideal S4096 .f32)
    (b : Fin 4096) (c : Fin 4096) :
    refDense2 a W bias (ix2 b c) = (∑ k : Fin 2048, a (ix2 b k) * W (ix2 c k)) + bias (ix1 c) := by
  unfold refDense2
  exact dense_apply _ _ _ _ a W bias b c

/-- The three column runs are the three gates' rows. -/
theorem gate0_apply (g : FVec Ideal S4096x6144 .f32) (b : Fin 4096) (h : Fin 2048) :
    gate0 g (ix2 b h) = g (ix2 b (Cert.Spec.gateRow 0 h)) := by
  unfold gate0
  refine extractStridedSlice_apply ![0, 0] g slices_S4096x6144_S4096x2048_0_0 (ix2 b h) (ix2 b (Cert.Spec.gateRow 0 h)) fun a => ?_
  match a with
  | ⟨0, _⟩ => exact (Nat.zero_add _).symm
  | ⟨1, _⟩ => first | rfl | simp [Cert.Spec.gateRow]
theorem gate1_apply (g : FVec Ideal S4096x6144 .f32) (b : Fin 4096) (h : Fin 2048) :
    gate1 g (ix2 b h) = g (ix2 b (Cert.Spec.gateRow 1 h)) := by
  unfold gate1
  refine extractStridedSlice_apply ![0, 2048] g slices_S4096x6144_S4096x2048_0_2048 (ix2 b h) (ix2 b (Cert.Spec.gateRow 1 h)) fun a => ?_
  match a with
  | ⟨0, _⟩ => exact (Nat.zero_add _).symm
  | ⟨1, _⟩ => first | rfl | simp [Cert.Spec.gateRow]
theorem gate2_apply (g : FVec Ideal S4096x6144 .f32) (b : Fin 4096) (h : Fin 2048) :
    gate2 g (ix2 b h) = g (ix2 b (Cert.Spec.gateRow 2 h)) := by
  unfold gate2
  refine extractStridedSlice_apply ![0, 4096] g slices_S4096x6144_S4096x2048_0_4096 (ix2 b h) (ix2 b (Cert.Spec.gateRow 2 h)) fun a => ?_
  match a with
  | ⟨0, _⟩ => exact (Nat.zero_add _).symm
  | ⟨1, _⟩ => first | rfl | simp [Cert.Spec.gateRow]

/-- The spelt-out quotient is the logistic function, entry by entry. -/
theorem refSigmoid_apply (s : FVec Ideal S4096x2048 .f32) (j : S4096x2048.Idx) :
    refSigmoid s j = Ideal.logistic (s j) :=
  sigmoid_word (s j)

/-- The reset gate at an entry. -/
theorem refR_apply (gi gh : FVec Ideal S4096x6144 .f32) (b : Fin 4096) (h : Fin 2048) :
    refR gi gh (ix2 b h)
      = Ideal.logistic (gi (ix2 b (Cert.Spec.gateRow 0 h)) + gh (ix2 b (Cert.Spec.gateRow 0 h))) := by
  unfold refR
  rw [refSigmoid_apply, addf_apply, gate0_apply, gate0_apply]

/-- The update gate at an entry. -/
theorem refZ_apply (gi gh : FVec Ideal S4096x6144 .f32) (b : Fin 4096) (h : Fin 2048) :
    refZ gi gh (ix2 b h)
      = Ideal.logistic (gi (ix2 b (Cert.Spec.gateRow 1 h)) + gh (ix2 b (Cert.Spec.gateRow 1 h))) := by
  unfold refZ
  rw [refSigmoid_apply, addf_apply, gate1_apply, gate1_apply]

/-- The candidate state at an entry. -/
theorem refN_apply (gi gh : FVec Ideal S4096x6144 .f32) (b : Fin 4096) (h : Fin 2048) :
    refN gi gh (ix2 b h)
      = Ideal.tanh (gi (ix2 b (Cert.Spec.gateRow 2 h)) + refR gi gh (ix2 b h) * gh (ix2 b (Cert.Spec.gateRow 2 h))) := by
  unfold refN
  show Ideal.tanh (addf (gate2 gi) (mulf (refR gi gh) (gate2 gh)) (ix2 b h)) = _
  rw [addf_apply, mulf_apply, gate2_apply, gate2_apply]

/-- The new state at an entry: `(1 − z)·n + z·hid`, the one the printed float word. -/
theorem refCell_apply (gi gh : FVec Ideal S4096x6144 .f32) (hid : FVec Ideal S4096x2048 .f32) (b : Fin 4096) (h : Fin 2048) :
    refCell gi gh hid (ix2 b h)
      = (Ideal.ofBits .f32 0x3F800000#32 - refZ gi gh (ix2 b h)) * refN gi gh (ix2 b h) + refZ gi gh (ix2 b h) * hid (ix2 b h) :=
  rfl

/-! ## The network's arrays -/

variable (A : Cert.Spec.Args)

/-- The dense layer with ReLU is the specification's `x`. -/
theorem refX_eq (b : Fin 4096) (h : Fin 2048) : refX A.inp A.W1 A.b1 (ix2 b h) = Cert.Spec.x A b h :=
  refX_apply A.inp A.W1 A.b1 b h

/-- The input-side gate product is the specification's `gi`. -/
theorem refGi_eq (b : Fin 4096) (g : Fin 6144) :
    refGate (refX A.inp A.W1 A.b1) A.Wih A.bih (ix2 b g) = Cert.Spec.gi A b g := by
  rw [refGate_apply]
  unfold Cert.Spec.gi
  congr 1
  exact Finset.sum_congr rfl fun k _ => by rw [refX_eq]

/-- The hidden-side gate product is the specification's `gh`. -/
theorem refGh_eq (b : Fin 4096) (g : Fin 6144) :
    refGate A.hid A.Whh A.bhh (ix2 b g) = Cert.Spec.gh A b g :=
  refGate_apply A.hid A.Whh A.bhh b g

/-- The new hidden state, at an entry, is the specification's `hnew`. -/
theorem refH_apply (b : Fin 4096) (h : Fin 2048) :
    refH A.inp A.hid A.W1 A.b1 A.Wih A.Whh A.bih A.bhh (ix2 b h) = Cert.Spec.hnew A b h := by
  unfold refH
  rw [refCell_apply, refN_apply, refZ_apply, refR_apply]
  simp only [refGi_eq, refGh_eq]
  rfl

/-- THE NEW HIDDEN STATE is the specification's array `H`. -/
theorem refH_eq : refH A.inp A.hid A.W1 A.b1 A.Wih A.Whh A.bih A.bhh = Cert.Spec.H A := by
  funext j
  obtain ⟨b, h, rfl⟩ : ∃ (b : Fin 4096) (h : Fin 2048), j = ix2 b h := ⟨j 0, j 1, eq_ix2 j⟩
  exact refH_apply A b h

/-- THE SECOND DENSE LAYER'S OUTPUT is the specification's array `Q`. -/
theorem refQ_eq : refQ A.inp A.hid A.W1 A.b1 A.Wih A.Whh A.bih A.bhh A.W2 A.b2 = Cert.Spec.Q A := by
  funext j
  obtain ⟨b, c, rfl⟩ : ∃ (b : Fin 4096) (c : Fin 4096), j = ix2 b c := ⟨j 0, j 1, eq_ix2 j⟩
  unfold refQ
  rw [refDense2_apply]
  show _ = Cert.Spec.q A b c
  unfold Cert.Spec.q
  congr 1
  exact Finset.sum_congr rfl fun k _ => by rw [refH_apply]

end Cert.ReferenceIdeal.Hand

end
-- ==== Proof.Ref.Run.lean ====
/-
  The reference network's run, stated against the specification: every weakly fair execution terminates with the
  decoded result and the new hidden state the specification's arrays of the ten argument arrays, and the
  arguments unchanged.
-/
import proofs.«145547_j6897717478082_2_alg».proof.Proof.Ref.Ops
import proofs.«145547_j6897717478082_2_alg».proof.Proof.Ref.Eval
import proofs.«145547_j6897717478082_2_alg».proof.Proof.Ref.Value
import proofs.«145547_j6897717478082_2_alg».proof.Proof.Ref.Decode
import proofs.«145547_j6897717478082_2_alg».proof.Proof.Spec

noncomputable section

namespace Cert.ReferenceIdeal.Hand

open Cert.ReferenceIdeal Cert.ReferenceIdeal.Gen Idealize.ShloMosaic Idealize.ShloMosaic.TcCoe Idealize.SL.Sem Idealize.ShloMosaic.StableHlo

/-- The ten argument arrays a device holds at launch. -/
def args (m : (ℓ : Loc nD τ sig) → Buf (Elt Ideal) ℓ) (c : Dev nD) : Cert.Spec.Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9)⟩

/-- The decoded result from the launch contents: the decode of the second dense layer's output, which is the
    specification's `Q`, is the specification's `OUT`. -/
theorem out_eq (m : (ℓ : Loc nD τ sig) → Buf (Elt Ideal) ℓ) (c : Dev nD) :
    after ops (launchContents m c) (main_v64 : DevRef τ sig) = Cert.Spec.OUT (args m c) :=
  (v64_eq (launchContents m c)).trans
    ((congrArg refDecode (refQ_eq (args m c))).trans (refDecode_eq (Cert.Spec.Q (args m c))))

/-- The new hidden state from the launch contents is the specification's `H`. -/
theorem hid_eq (m : (ℓ : Loc nD τ sig) → Buf (Elt Ideal) ℓ) (c : Dev nD) :
    after ops (launchContents m c) (main_v43 : DevRef τ sig) = Cert.Spec.H (args m c) :=
  (v43_eq (launchContents m c)).trans (refH_eq (args m c))

/-- THE RUN: the two results are the specification's arrays, the arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v64) = Cert.Spec.OUT (args m c)
      ∧ r.2.mem ((c.tc : Thread nD τ).loc main_v43) = Cert.Spec.H (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_v64).trans (out_eq m c), (h c main_v43).trans (hid_eq m c),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_ops m ρ)

/-- THE FRAME: the network terminates and leaves its ten argument arrays as they were. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_ops m ρ)

end Cert.ReferenceIdeal.Hand

end
-- ==== Proof.lean ====
/-
  A fused recurrent cell against its plain form. The kernel program computes, in one launch over a grid of 32 batch
  tiles by 8 hidden tiles, a dense layer with ReLU (cached per batch tile), a GRU cell whose three gates' weight rows
  the wrapper has re-ordered tile by tile, and a second dense layer accumulated over the hidden tiles; the host then
  decodes the second layer's 4096 outputs by two families of maxima — a sliding window of 64, and the columns of the
  [64, 64] reshape rolled by one — and interleaves them. The reference computes the same network with whole matrix
  products and reads the decode's entries through two index tables.

  On the extended reals the two agree index by index (Proof/Spec.lean states the common value): changes of float
  format are the identity, a contraction cut into 8 chunks of 256 is the whole contraction (addition is commutative and
  associative), the re-ordered gate rows are the same rows, the logistic function is one function however it is spelt,
  and each maximum ranges over the same 64 entries in another order. No step needs the inputs to be finite.

  The three frames: each kernel program's from its launch's frame run (the body run once per control case: the first
  hidden tile of a batch tile, a middle one, the last), the reference's from its run as a list of host operations.
  The kernel's idealization rewrote nothing, so the preservation claim is trivial.
-/
import proofs.«145547_j6897717478082_2_alg».proof.Defs
import proofs.«145547_j6897717478082_2_alg».proof.Proof.Gen.Kernel
import proofs.«145547_j6897717478082_2_alg».proof.Proof.Gen.KernelIdeal
import proofs.«145547_j6897717478082_2_alg».proof.Proof.Gen.ReferenceIdeal
import proofs.«145547_j6897717478082_2_alg».proof.Proof.Gen.Pre_finite_inputs
import proofs.«145547_j6897717478082_2_alg».proof.Proof.K.Frame
import proofs.«145547_j6897717478082_2_alg».proof.Proof.KI.Value
import proofs.«145547_j6897717478082_2_alg».proof.Proof.Ref.Run

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.HF.frame m ρ

theorem frame_ki : Cert.frame_KernelIdeal (hKernelIdeal := Cert.KernelIdeal.Gen.facts) (hPre_finite_inputs := Cert.Pre_finite_inputs.Gen.facts) :=
  fun m ρ _ => Cert.KernelIdeal.HF.frame m ρ

theorem frame_ri : Cert.frame_ReferenceIdeal (hReferenceIdeal := Cert.ReferenceIdeal.Gen.facts) (hPre_finite_inputs := Cert.Pre_finite_inputs.Gen.facts) :=
  fun m ρ _ => Cert.ReferenceIdeal.Hand.frame m ρ

theorem preserves : Cert.preserves_Kernel_KernelIdeal := trivial

/-- Both programs end with the specification's two arrays of argument arrays that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.OUT (Cert.KernelIdeal.Value.args m c), fun c => Cert.Spec.H (Cert.KernelIdeal.Value.args m c),
    Cert.KernelIdeal.Value.run m ρ, ?_⟩
  have hargs : ∀ c, Cert.ReferenceIdeal.Hand.args m' c = Cert.KernelIdeal.Value.args m c := fun c => by
    obtain ⟨h0, h1, h2, h3, h4, h5, h6, h7, h8, h9⟩ := hagree c
    unfold Cert.ReferenceIdeal.Hand.args Cert.KernelIdeal.Value.args
    rw [h0, h1, h2, h3, h4, h5, h6, h7, h8, h9]
  refine (θ_run Cert.ReferenceIdeal.defs _ _).mono (fun _ h c => ?_) (Cert.ReferenceIdeal.Hand.run m' ρ')
  have hc := h c
  rw [hargs c] at hc
  exact hc

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
